-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S256x1024 : Shape := ⟨2, ![256, 1024]⟩
abbrev S256x3072 : Shape := ⟨2, ![256, 3072]⟩
abbrev S1x3072 : Shape := ⟨2, ![1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S32x2048x64 : Shape := ⟨3, ![32, 2048, 64]⟩
abbrev S1x256x64 : Shape := ⟨3, ![1, 256, 64]⟩
abbrev S1x512x64 : Shape := ⟨3, ![1, 512, 64]⟩
abbrev S1x256x1 : Shape := ⟨3, ![1, 256, 1]⟩
abbrev S1x256x512 : Shape := ⟨3, ![1, 256, 512]⟩
abbrev S1x256 : Shape := ⟨2, ![1, 256]⟩
abbrev S2x2048x16x64 : Shape := ⟨4, ![2, 2048, 16, 64]⟩
abbrev S1x1024 : Shape := ⟨2, ![1, 1024]⟩

abbrev nBuf : Space → Nat
  | .hbm => 27
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S1024x3072, .bf16⟩
  | .hbm, ⟨8, _⟩ => ⟨S1024x1024, .bf16⟩
  | .hbm, ⟨9, _⟩ => ⟨S4096x3072, .bf16⟩
  | .hbm, ⟨10, _⟩ => ⟨S2x2048x3x16x64, .bf16⟩
  | .hbm, ⟨11, _⟩ => ⟨S3x2x16x2048x64, .bf16⟩
  | .hbm, ⟨12, _⟩ => ⟨S1x2x16x2048x64, .bf16⟩
  | .hbm, ⟨13, _⟩ => ⟨S2x16x2048x64, .bf16⟩
  | .hbm, ⟨14, _⟩ => ⟨S1x2x16x2048x64, .bf16⟩
  | .hbm, ⟨15, _⟩ => ⟨S2x16x2048x64, .bf16⟩
  | .hbm, ⟨16, _⟩ => ⟨S1x2x16x2048x64, .bf16⟩
  | .hbm, ⟨17, _⟩ => ⟨S2x16x2048x64, .bf16⟩
  | .hbm, ⟨18, _⟩ => ⟨S32x2048x64, .bf16⟩
  | .hbm, ⟨19, _⟩ => ⟨S32x2048x64, .bf16⟩
  | .hbm, ⟨20, _⟩ => ⟨S32x2048x64, .bf16⟩
  | .hbm, ⟨21, _⟩ => ⟨S32x2048x64, .bf16⟩
  | .hbm, ⟨22, _⟩ => ⟨S2x16x2048x64, .bf16⟩
  | .hbm, ⟨23, _⟩ => ⟨S2x2048x16x64, .bf16⟩
  | .hbm, ⟨24, _⟩ => ⟨S4096x1024, .bf16⟩
  | .hbm, ⟨25, _⟩ => ⟨S4096x1024, .f32⟩
  | .hbm, ⟨26, _⟩ => ⟨S2x2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x3072, .bf16⟩
  | .local _ .vmem, ⟨3, _⟩ => ⟨S3072, .f32⟩
  | .local _ .vmem, ⟨4, _⟩ => ⟨S256x3072, .bf16⟩
  | .local _ .vmem, ⟨5, _⟩ => ⟨S256x3072, .bf16⟩
  | .local _ .vmem, ⟨6, _⟩ => ⟨S1x256x64, .bf16⟩
  | .local _ .vmem, ⟨7, _⟩ => ⟨S1x256x64, .bf16⟩
  | .local _ .vmem, ⟨8, _⟩ => ⟨S1x512x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x256x64, .bf16⟩
  | .local _ .vmem, ⟨13, _⟩ => ⟨S1x256x64, .bf16⟩
  | .local _ .vmem, ⟨14, _⟩ => ⟨S1x256x1, .f32⟩
  | .local _ .vmem, ⟨15, _⟩ => ⟨S1x256x1, .f32⟩
  | .local _ .vmem, ⟨16, _⟩ => ⟨S1x256x64, .f32⟩
  | .local _ .vmem, ⟨17, _⟩ => ⟨S256x1024, .bf16⟩
  | .local _ .vmem, ⟨18, _⟩ => ⟨S256x1024, .bf16⟩
  | .local _ .vmem, ⟨19, _⟩ => ⟨S1024x1024, .bf16⟩
  | .local _ .vmem, ⟨20, _⟩ => ⟨S1024, .f32⟩
  | .local _ .vmem, ⟨21, _⟩ => ⟨S256x1024, .f32⟩
  | .local _ .vmem, ⟨22, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![32, 8, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S4096x3072_S2x2048x3x16x64 : S4096x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  shapeCasts_S2x16x2048x64_S32x2048x64 : S2x16x2048x64.ShapeCasts S32x2048x64
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S1x256x64_S1x256x64_0_0_0 : ∀ a, (![0, 0, 0] : Fin 3 → Nat) a + S1x256x64.size a ≤ S1x256x64.size a
  h_S1x256x64 : 0 < S1x256x64.numel
  shapeCasts_S1x256x64_S1x256x64 : S1x256x64.ShapeCasts S1x256x64
  inb_S1x512x64_S1x512x64_0_0_0 : ∀ a, (![0, 0, 0] : Fin 3 → Nat) a + S1x512x64.size a ≤ S1x512x64.size a
  h_S1x512x64 : 0 < S1x512x64.numel
  shapeCasts_S1x512x64_S1x512x64 : S1x512x64.ShapeCasts S1x512x64
  reduces_S1x256x512_S1x256 : S1x256x512.Reduces [2] S1x256
  shapeCasts_S1x256_S1x256x1 : S1x256.ShapeCasts S1x256x1
  broadcasts_S1x256x1_S1x256x512 : S1x256x1.Broadcasts S1x256x512
  broadcasts_S1x256x1_S1x256x64 : S1x256x1.Broadcasts S1x256x64
  packedbf16_S1x256x64_S1x256x64_0_0_0 : (Rect.unit (s := S1x256x64) ![0, 0, 0] S1x256x64.size inb_S1x256x64_S1x256x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S4096x1024_S2x2048x1024 : S4096x1024.ShapeCasts S2x2048x1024
  dot_S256x1024_S1024x3072_S256x3072_1_0_0_1_n_n_wf : DotDims.WF S256x1024 S1024x3072 S256x3072 [1] [0] [0] [1] [] []
  dot_S1x256x64_S1x512x64_S1x256x512_2_2_1_1_0_0_wf : DotDims.WF S1x256x64 S1x512x64 S1x256x512 [2] [2] [1] [1] [0] [0]
  dot_S1x256x512_S1x512x64_S1x256x64_2_1_1_2_0_0_wf : DotDims.WF S1x256x512 S1x512x64 S1x256x64 [2] [1] [1] [2] [0] [0]
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S4096x3072.size a
  hwx0_3 : ∀ i : grid0.Coords, EltTy.bits .bf16 = 32 ∨ (Rect.block (s := S4096x3072) S256x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S32x2048x64.size a
  hwx1_0 : ∀ i : grid1.Coords, EltTy.bits .bf16 = 32 ∨ (Rect.block (s := S32x2048x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S32x2048x64.size a
  hwx1_1 : ∀ i : grid1.Coords, EltTy.bits .bf16 = 32 ∨ (Rect.block (s := S32x2048x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S32x2048x64.size a
  hwx1_2 : ∀ i : grid1.Coords, EltTy.bits .bf16 = 32 ∨ (Rect.block (s := S32x2048x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x64.size a ≤ S32x2048x64.size a
  hwx1_3 : ∀ i : grid1.Coords, EltTy.bits .bf16 = 32 ∨ (Rect.block (s := S32x2048x64) S1x256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .bf16 = 32 ∨ (Rect.block (s := S4096x1024) S256x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S4096x1024.size a
  hwx2_3 : ∀ i : grid2.Coords, EltTy.bits .f32 = 32 ∨ (Rect.block (s := S4096x1024) S256x1024.size (cc2_transform_3 i) (hinb2_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S1x256x64_S1x512x64_S1x256x512_2_2_1_1_0_0 : DotDims S1x256x64 S1x512x64 S1x256x512 where
  lhsContracting := [2]
  rhsContracting := [2]
  lhsNonContracting := [1]
  rhsNonContracting := [1]
  lhsBatch := [0]
  rhsBatch := [0]
  wf := dot_S1x256x64_S1x512x64_S1x256x512_2_2_1_1_0_0_wf
def dot_S1x256x512_S1x512x64_S1x256x64_2_1_1_2_0_0 : DotDims S1x256x512 S1x512x64 S1x256x64 where
  lhsContracting := [2]
  rhsContracting := [1]
  lhsNonContracting := [1]
  rhsNonContracting := [2]
  lhsBatch := [0]
  rhsBatch := [0]
  wf := dot_S1x256x512_S1x512x64_S1x256x64_2_1_1_2_0_0_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v19) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x3x16x64, .f32⟩
  | .hbm, ⟨10, _⟩ => ⟨S3x2x16x2048x64, .f32⟩
  | .hbm, ⟨11, _⟩ => ⟨S1x2x16x2048x64, .f32⟩
  | .hbm, ⟨12, _⟩ => ⟨S2x16x2048x64, .f32⟩
  | .hbm, ⟨13, _⟩ => ⟨S1x2x16x2048x64, .f32⟩
  | .hbm, ⟨14, _⟩ => ⟨S2x16x2048x64, .f32⟩
  | .hbm, ⟨15, _⟩ => ⟨S1x2x16x2048x64, .f32⟩
  | .hbm, ⟨16, _⟩ => ⟨S2x16x2048x64, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.KR0.lean ====
/- The frame half of region 0 (the projection kernel `cc0__proj_kernel`, pipeline 0 of @main), at the buffer
   contents `V` the region is entered with: each window's block at a grid point, what the body leaves in the
   output window's staging buffer, the body's triple, the pipeline's proof data and the body obligation.
   Everything is stated for an arbitrary float model `F`. -/
import proofs.«163282_j10213432230461_2_alg».proof.Proof.Gen.Kernel.Launch
import proofs.«163282_j10213432230461_2_alg».proof.Proof.Gen.Kernel.Skeleton
import proofs.«163282_j10213432230461_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the window's
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the window's
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the window's
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S256x3072 := Rect.unit (s := S256x3072) ![0, 0] S256x3072.size inb_S256x3072_S256x3072_0_0

/-! ## What the body leaves in the output window's buffer -/

/-- Window 3's staging buffer after the body, from the input windows' blocks: its one store, which covers the
    whole buffer, with the payload computed from the three loads. -/
def out0_3 (x0 : Vec F S256x1024 .bf16) (x1 : Vec F S1024x3072 .bf16) (x2 : Vec F S3072 .f32) : Vec F S256x3072 .bf16 :=
  View.canon [⟨r0_3, k0_pay1 (View.ld x0 r0_0) (View.ld x1 r0_1) (View.ld x2 r0_2)⟩]

/-- The store tiles the buffer (checked by evaluation), so it covers it. -/
theorem cover0_3 (p0 : Vec F S256x3072 .bf16) (y : S256x3072.Idx) :
    ∃ pc ∈ ([⟨r0_3, p0⟩] : List (View.Piece (Elt F) S256x3072 .bf16)), y ∈ pc.1.set :=
  View.cover_of_tiled [⟨r0_3, p0⟩] S256x3072.size (by rfl) y

/-! ## The body's triple -/

set_option maxHeartbeats 1000000 in
/-- The kernel body on whole staging memrefs, the inputs' at read contents `xW` and the output's at anything, runs
    to the continuation holding the inputs' as they were and the output's at `out0_3` of the inputs'. The body
    also loads the output buffer before it stores it; the loaded value is not used by the store's payload. -/
theorem sound_kernel0 (c : Dev nD) (E : Set ℕ) (i : grid0.Coords)
    (arg0 : Memref sig .tc .vmem S256x1024 .bf16) (harg0 : arg0.IsWhole) (arg1 : Memref sig .tc .vmem S1024x3072 .bf16) (harg1 : arg1.IsWhole)
    (arg2 : Memref sig .tc .vmem S3072 .f32) (harg2 : arg2.IsWhole) (arg3 : Memref sig .tc .vmem S256x3072 .bf16) (harg3 : arg3.IsWhole)
    (x0 : Vec F S256x1024 .bf16) (x1 : Vec F S1024x3072 .bf16) (x2 : Vec F S3072 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.KR1Runs.lean ====
/- The frame half of kernel region 1 (the online-softmax attention body), first part: what the three cases' runs
   share — each window's block at a point, the body's two branch conditions in closed form over the grid, where
   output window 3 is idle, the staging and scratch memrefs, the region's entry invariant opened — and the
   whole-body run of the kernel in each of the three cases that meet grid points (the first key/value tile, a middle
   one, the last). -/
import proofs.«163282_j10213432230461_2_alg».proof.Proof.Gen.Kernel.Launch
import proofs.«163282_j10213432230461_2_alg».proof.Proof.Gen.Kernel.Skeleton
import proofs.«163282_j10213432230461_2_alg».proof.Proof.Gen.Kernel.Points
import Idealize.ShloMosaic.Lib.Pipeline.FrameBody
import Idealize.ShloMosaic.Lib.Ring
import Idealize.ShloMosaic.Lib.Tactic

-- membership in a rectangle of these extents: the elaborator's structural look recurses once per coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered: everything below is stated at them
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched
    when the key/value tile index is 0 and the block index does not move in between), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first `scf.if` (the key/value tile index is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the key/value tile index is 3, the last), from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0, 1, 2 are never idle (inputs). -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At the points of case A (first tile, not last) output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B (neither first nor last tile) output 3 is idle. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C (last tile, not first) output 3 is live: the case stores into it. -/
theorem liveAt1_3_C : ∀ t : Fin cfg1.N, ¬cond1_0 (grid1.coords t) → cond1_1 (grid1.coords t) → cfg1.idle 3 (grid1.coords t) = false := by decide +kernel

/-! ## The kernel body on any staging memrefs -/

/-- One staging buffer of output window 3, through which its contents are stated (the choice does not matter). -/
abbrev VO1_3 : View sig .tc .vmem S1x256x64 .bf16 := (Memref.whole cc1_stg3_0 : Memref sig .tc .vmem S1x256x64 .bf16).view
/-- Each window's current staging memref at point `t`, spelled as the pipeline passes it, and its wholeness. -/
abbrev ms1_0 (t : Fin cfg1.N) : Memref sig .tc .vmem S1x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x64 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows — the running
    maximum, the running sum and the accumulator of the online softmax. -/
abbrev scM1_0 : Memref sig .tc .vmem S1x256x1 .f32 := Memref.whole cc1_scratch0
abbrev scM1_1 : Memref sig .tc .vmem S1x256x1 .f32 := Memref.whole cc1_scratch1
abbrev scM1_2 : Memref sig .tc .vmem S1x256x64 .f32 := Memref.whole cc1_scratch2
/-- The three scratch operands the kernel carries between points, as views: what they hold is stated through them. -/
abbrev VS1_0 : View sig .tc .vmem S1x256x1 .f32 := scM1_0.view
abbrev VS1_1 : View sig .tc .vmem S1x256x1 .f32 := scM1_1.view
abbrev VS1_2 : View sig .tc .vmem S1x256x64 .f32 := scM1_2.view

/-- The region's entry invariant with the scratch operands as memrefs owned at some contents: what the body
    obligation hands the run and takes back. The other regions' staging buffers ride along, each at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1_0, scM1_1, scM1_2, owns_whole]; try rfl

-- (the run's proof term is large: the definition's epilogue walks it past the default budget)
set_option maxHeartbeats 1000000 in
/-- What the body's stores leave in output 3's staging memref and in the three scratch operands, as pieces (last
    first), in case A (the first key/value tile, not the last: the first `scf.if` taken, the second not), with the proof that on whole memrefs — the inputs' at their
    contents `x·`, output 3's at contents `xi3` handed back untouched (no store: the window is idle there), the
    scratch at anything — the body runs to the continuation holding the inputs' as they were,
    and each scratch with its pieces written (`LS·`). The printed functions are their skeletons, which the symbolic
    executor runs, through the call of the part function; each `scf.if` is decided by the case's hypotheses; the
    pieces are the witness that run finds. -/
noncomputable def kernelRun1_A (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) :
    Σ' (L3 : List (View.Piece (Elt F) S1x256x64 .bf16)) (LS0 : List (View.Piece (Elt F) S1x256x1 .f32)) (LS1 : List (View.Piece (Elt F) S1x256x1 .f32)), { LS2 : List (View.Piece (Elt F) S1x256x64 .f32) //
      ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

-- (the run's proof term is large: the definition's epilogue walks it past the default budget)
set_option maxHeartbeats 1000000 in
/-- What the body's stores leave in output 3's staging memref and in the three scratch operands, as pieces (last
    first), in case B (neither the first nor the last key/value tile: no `scf.if` taken), with the proof that on whole memrefs — the inputs' at their
    contents `x·`, output 3's at contents `xi3` handed back untouched (no store: the window is idle there), the
    scratch at the contents the point before left (`xs·`) — the body runs to the continuation holding the inputs' as they were,
    and each scratch with its pieces written (`LS·`). The printed functions are their skeletons, which the symbolic
    executor runs, through the call of the part function; each `scf.if` is decided by the case's hypotheses; the
    pieces are the witness that run finds. -/
noncomputable def kernelRun1_B (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    Σ' (L3 : List (View.Piece (Elt F) S1x256x64 .bf16)) (LS0 : List (View.Piece (Elt F) S1x256x1 .f32)) (LS1 : List (View.Piece (Elt F) S1x256x1 .f32)), { LS2 : List (View.Piece (Elt F) S1x256x64 .f32) //
      ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

-- (the run's proof term is large: the definition's epilogue walks it past the default budget)
set_option maxHeartbeats 1000000 in
/-- What the body's stores leave in output 3's staging memref and in the three scratch operands, as pieces (last
    first), in case C (the last key/value tile, not the first: the second `scf.if` taken, the first not), with the proof that on whole memrefs — the inputs' at their
    contents `x·`, output 3's at anything, the
    scratch at the contents the point before left (`xs·`) — the body runs to the continuation holding the inputs' as they were, output 3's buffer with its pieces written (`L3`),
    and each scratch with its pieces written (`LS·`). The printed functions are their skeletons, which the symbolic
    executor runs, through the call of the part function; each `scf.if` is decided by the case's hypotheses; the
    pieces are the witness that run finds. -/
noncomputable def kernelRun1_C (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    Σ' (L3 : List (View.Piece (Elt F) S1x256x64 .bf16)) (LS0 : List (View.Piece (Elt F) S1x256x1 .f32)) (LS1 : List (View.Piece (Elt F) S1x256x1 .f32)), { LS2 : List (View.Piece (Elt F) S1x256x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Fr

end
-- ==== Proof.KR1.lean ====
/- The frame half of kernel region 1 (the online-softmax attention body), second part: what output 3 and the three
   carried scratch operands hold per case (covers, contents) and point by point (`outsAt1`), the region invariant
   `PhiS1`, the proof data `dat1` at the region's entry contents `V`, the body obligation, and the invariant's entry
   and exit. -/
import proofs.«163282_j10213432230461_2_alg».proof.Proof.KR1Runs

-- membership in a rectangle of these extents: the elaborator's structural look recurses once per coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Case A stores nothing into output 3 (the window is idle at its points and not written back there): no pieces —
    a placeholder (junk read back) that nothing consults, since at these points the window is neither written back
    nor read at the next point. -/
def out1_A_3 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) : Vec F S1x256x64 .bf16 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for scratch arg7 (the running maximum), which the kernel carries between points, cover it: whole stores. -/
theorem scover1_A_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) (y : S1x256x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1x256x1.size (by sl_kernel_rfl) y

/-- What case A leaves in scratch arg7 (the running maximum): its pieces read back over junk. -/
def sout1_A_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) : Vec F S1x256x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch arg8 (the running sum), which the kernel carries between points, cover it: whole stores. -/
theorem scover1_A_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) (y : S1x256x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1x256x1.size (by sl_kernel_rfl) y

/-- What case A leaves in scratch arg8 (the running sum): its pieces read back over junk. -/
def sout1_A_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) : Vec F S1x256x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch arg9 (the accumulator), which the kernel carries between points, cover it: whole stores. -/
theorem scover1_A_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) (y : S1x256x64.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1x256x64.size (by sl_kernel_rfl) y

/-- What case A leaves in scratch arg9 (the accumulator): its pieces read back over junk. -/
def sout1_A_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) : Vec F S1x256x64 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into output 3 (the window is idle at its points and not written back there): no pieces —
    a placeholder (junk read back) that nothing consults, since at these points the window is neither written back
    nor read at the next point. -/
def out1_B_3 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x64 .bf16 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for scratch arg7 (the running maximum), which the kernel carries between points, cover it: whole stores. -/
theorem scover1_B_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1x256x1.size (by sl_kernel_rfl) y

/-- What case B leaves in scratch arg7 (the running maximum): its pieces read back over junk. -/
def sout1_B_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch arg8 (the running sum), which the kernel carries between points, cover it: whole stores. -/
theorem scover1_B_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1x256x1.size (by sl_kernel_rfl) y

/-- What case B leaves in scratch arg8 (the running sum): its pieces read back over junk. -/
def sout1_B_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch arg9 (the accumulator), which the kernel carries between points, cover it: whole stores. -/
theorem scover1_B_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x64.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1x256x64.size (by sl_kernel_rfl) y

/-- What case B leaves in scratch arg9 (the accumulator): its pieces read back over junk. -/
def sout1_B_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x64 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's pieces for output 3 tile its block (one whole store, checked by evaluation), so they cover it. -/
theorem cover1_C_3 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x64.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x256x64.size (by sl_kernel_rfl) y

/-- What case C leaves in output 3's staging buffer: its pieces read back over junk. -/
def out1_C_3 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x64 .bf16 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for scratch arg7 (the running maximum), which the kernel carries between points, cover it: whole stores. -/
theorem scover1_C_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1x256x1.size (by sl_kernel_rfl) y

/-- What case C leaves in scratch arg7 (the running maximum): its pieces read back over junk. -/
def sout1_C_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch arg8 (the running sum), which the kernel carries between points, cover it: whole stores. -/
theorem scover1_C_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1x256x1.size (by sl_kernel_rfl) y

/-- What case C leaves in scratch arg8 (the running sum): its pieces read back over junk. -/
def sout1_C_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch arg9 (the accumulator), which the kernel carries between points, cover it: whole stores. -/
theorem scover1_C_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x64.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1x256x64.size (by sl_kernel_rfl) y

/-- What case C leaves in scratch arg9 (the accumulator): its pieces read back over junk. -/
def sout1_C_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x64 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

section Regions
-- the TensorCore's buffer contents when the region is entered: everything below is stated at them
variable (V : (c : Dev nD) → (b : Ref sig .tc) → Buf (Elt F) ((c : Thread nD τ).loc b))

/-! ## What the output and the carried scratch hold after each point -/

/-- THE ACCUMULATION. What output 3's staging buffer and the three scratch operands the kernel carries between points
    hold after the body at position `n` (a tuple: the output, then the running maximum, the running sum, the
    accumulator): the case the closed forms select at `n` (by the key/value tile index `n % 4`), run at the point's
    memrefs and input blocks, the scratch entering at what this leaves at `n - 1` (case A, the first tile, reads
    nothing of it). 'First and last tile at once' meets no point (`False.elim`). -/
def outsAt1 (c : Dev nD) : (n : ℕ) → n < cfg1.N → Vec F S1x256x64 .bf16 × Vec F S1x256x1 .f32 × Vec F S1x256x1 .f32 × Vec F S1x256x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the entry invariant (every scoped buffer that is
    no staging buffer of this region — the three scratch operands among them — at anything, the generator register);
    afterwards the same with each scratch operand at what the point before left in it (`outsAt1`'s scratch
    components), the other regions' staging buffers still at anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and output 3's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, never unfolding `V`). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    so that case's run applies. The invariant hands the body the three scratch operands at what the point before
    left (at anything at the first point), the other scoped buffers and the generator register at some state, and
    takes the scratch back at this point's contents (their pieces cover them); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 1024 := lt_of_lt_of_eq t.isLt (show cfg1.N = 1024 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HR0, HR1, HR2, HR3, HR4, HR5, HS0, HS1, HS2, HR9, HR10, HR11, HR12, HR13, HR14⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HS0 HS1 HS2 HR9 HR10 HR11 HR12 HR13 HR14 Hg]
        · isplitl [HR0 HR1 HR2 HR3 HR4 HR5 HS0 HS1 HS2 HR9 HR10 HR11 HR12 HR13 HR14]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            isplitl [HR9]; · iexact HR9
            isplitl [HR10]; · iexact HR10
            isplitl [HR11]; · iexact HR11
            isplitl [HR12]; · iexact HR12
            isplitl [HR13]; · iexact HR13
            iexact HR14
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HS0, HS1, HS2, HR9, HR10, HR11, HR12, HR13, HR14⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR0 HR1 HR2 HR3 HR4 HR5 HS0 HS1 HS2 HR9 HR10 HR11 HR12 HR13 HR14 Hg]
        · isplitl [HR0 HR1 HR2 HR3 HR4 HR5 HS0 HS1 HS2 HR9 HR10 HR11 HR12 HR13 HR14]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            isplitl [HR9]; · iexact HR9
            isplitl [HR10]; · iexact HR10
            isplitl [HR11]; · iexact HR11
            isplitl [HR12]; · iexact HR12
            isplitl [HR13]; · iexact HR13
            iexact HR14
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨⟨HR0, HR1, HR2, HR3, HR4, HR5, HS0, HS1, HS2, HR9, HR10, HR11, HR12, HR13, HR14⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR0 HR1 HR2 HR3 HR4 HR5 HS0 HS1 HS2 HR9 HR10 HR11 HR12 HR13 HR14 Hg]
        · isplitl [HR0 HR1 HR2 HR3 HR4 HR5 HS0 HS1 HS2 HR9 HR10 HR11 HR12 HR13 HR14]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _)
            isplitl [HR9]; · iexact HR9
            isplitl [HR10]; · iexact HR10
            isplitl [HR11]; · iexact HR11
            isplitl [HR12]; · iexact HR12
            isplitl [HR13]; · iexact HR13
            iexact HR14
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HR0, HR1, HR2, HR3, HR4, HR5, HS0, HS1, HS2, HR9, HR10, HR11, HR12, HR13, HR14⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HS0 HS1 HS2 HR9 HR10 HR11 HR12 HR13 HR14 Hg]
        · isplitl [HR0 HR1 HR2 HR3 HR4 HR5 HS0 HS1 HS2 HR9 HR10 HR11 HR12 HR13 HR14]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _)
            isplitl [HR9]; · iexact HR9
            isplitl [HR10]; · iexact HR10
            isplitl [HR11]; · iexact HR11
            isplitl [HR12]; · iexact HR12
            isplitl [HR13]; · iexact HR13
            iexact HR14
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HS0, HS1, HS2, HR9, HR10, HR11, HR12, HR13, HR14⟩, Hg⟩
  isplitl [HR0 HR1 HR2 HR3 HR4 HR5 HS0 HS1 HS2 HR9 HR10 HR11 HR12 HR13 HR14]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    isplitl [HS2]; · iexists _; iexact HS2
    isplitl [HR9]; · iexact HR9
    isplitl [HR10]; · iexact HR10
    isplitl [HR11]; · iexact HR11
    isplitl [HR12]; · iexact HR12
    isplitl [HR13]; · iexact HR13
    iexact HR14
  iexact Hg

/-- The same after the last point. -/
theorem hout1 (c : Dev nD) : (dat1 V c).Φ (Fin.last cfg1.N) ⊢ Pipeline.ΦA spec1 c :=
  Phi_out1 V c _ (by rw [Fin.val_last]; have : cfg1.N = 1024 := N_1; omega)

end Regions

end Cert.Kernel.Fr

end
-- ==== Proof.KR2.lean ====
/- The frame half of region 2 (the projection kernel `cc2__proj_kernel`, pipeline 2 of @main), at the buffer
   contents `V` the region is entered with: each window's block at a grid point, what the body leaves in the
   output window's staging buffer, the body's triple, the pipeline's proof data and the body obligation.
   Everything is stated for an arbitrary float model `F`. -/
import proofs.«163282_j10213432230461_2_alg».proof.Proof.Gen.Kernel.Launch
import proofs.«163282_j10213432230461_2_alg».proof.Proof.Gen.Kernel.Skeleton
import proofs.«163282_j10213432230461_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the window's
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the window's
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the window's
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x1024 := Rect.unit (s := S256x1024) ![0, 0] S256x1024.size inb_S256x1024_S256x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0
abbrev r2_3 : Rect S256x1024 := Rect.unit (s := S256x1024) ![0, 0] S256x1024.size inb_S256x1024_S256x1024_0_0

/-! ## What the body leaves in the output window's buffer -/

/-- Window 3's staging buffer after the body, from the input windows' blocks: its one store, which covers the
    whole buffer, with the payload computed from the three loads. -/
def out2_3 (x0 : Vec F S256x1024 .bf16) (x1 : Vec F S1024x1024 .bf16) (x2 : Vec F S1024 .f32) : Vec F S256x1024 .f32 :=
  View.canon [⟨r2_3, k2_pay1 (View.ld x0 r2_0) (View.ld x1 r2_1) (View.ld x2 r2_2)⟩]

/-- The store tiles the buffer (checked by evaluation), so it covers it. -/
theorem cover2_3 (p0 : Vec F S256x1024 .f32) (y : S256x1024.Idx) :
    ∃ pc ∈ ([⟨r2_3, p0⟩] : List (View.Piece (Elt F) S256x1024 .f32)), y ∈ pc.1.set :=
  View.cover_of_tiled [⟨r2_3, p0⟩] S256x1024.size (by rfl) y

/-! ## The body's triple -/

set_option maxHeartbeats 1000000 in
/-- The kernel body on whole staging memrefs, the inputs' at read contents `xW` and the output's at anything, runs
    to the continuation holding the inputs' as they were and the output's at `out2_3` of the inputs'. The body
    also loads the output buffer before it stores it; the loaded value is not used by the store's payload. -/
theorem sound_kernel2 (c : Dev nD) (E : Set ℕ) (i : grid2.Coords)
    (arg0 : Memref sig .tc .vmem S256x1024 .bf16) (harg0 : arg0.IsWhole) (arg1 : Memref sig .tc .vmem S1024x1024 .bf16) (harg1 : arg1.IsWhole)
    (arg2 : Memref sig .tc .vmem S1024 .f32) (harg2 : arg2.IsWhole) (arg3 : Memref sig .tc .vmem S256x1024 .f32) (harg3 : arg3.IsWhole)
    (x0 : Vec F S256x1024 .bf16) (x1 : Vec F S1024x1024 .bf16) (x2 : Vec F S1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__proj_kernel i arg0 harg0 arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Fr

end
-- ==== Proof.KRun.lean ====
/-
  The whole run of the program: its four stretches of host operations and three kernel regions composed in order.

  Between two items every unscoped buffer of the TensorCore holds a known value: the launch memory, then each host
  stretch applied to it, then — after a region — the region's arrays at what its pipeline leaves (an input array as it
  was entered, the output array with every block the grid wrote back folded in) and every other buffer as entered.
  Each region is entered from that state and left at the next one; no core owes another anything, and the only thing
  that rides along is the generator register. The run ends with every unscoped buffer at the last of these values, from
  which both the frame claim (each argument array is never written: it ends as launched) and the result array's value
  are read.
-/
import proofs.«163282_j10213432230461_2_alg».proof.Proof.KR0
import proofs.«163282_j10213432230461_2_alg».proof.Proof.KR1
import proofs.«163282_j10213432230461_2_alg».proof.Proof.KR2
import proofs.«163282_j10213432230461_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- The same read at the TensorCore's references: what region 0 is entered from. -/
abbrev E1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the host operations that follow region 0. -/
abbrev W3 : Dev nD → Valuation τ sig (Elt F) := fun c => StableHlo.after hostOps1 (W2 m ρ c)
/-- The same read at the TensorCore's references: what region 1 is entered from. -/
abbrev E3 : (c : Dev nD) → (b : Ref sig .tc) → Buf (Elt F) ((c : Thread nD τ).loc b) := fun c b => W3 m ρ c b

/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After the host operations that follow region 1. -/
abbrev W5 : Dev nD → Valuation τ sig (Elt F) := fun c => StableHlo.after hostOps2 (W4 m ρ c)
/-- The same read at the TensorCore's references: what region 2 is entered from. -/
abbrev E5 : (c : Dev nD) → (b : Ref sig .tc) → Buf (Elt F) ((c : Thread nD τ).loc b) := fun c b => W5 m ρ c b

/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev X6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-- After the host operations that follow region 2. -/
abbrev W7 : Dev nD → Valuation τ sig (Elt F) := fun c => StableHlo.after hostOps3 (W6 m ρ c)

/-! ## The arguments end as launched -/

/-- `main_arg0` ends as launched: no host operation writes it, and a region either bypasses it or only reads it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it, and a region either bypasses it or only reads it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it, and a region either bypasses it or only reads it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (E1 m ρ) c).arrAt_in 2 rfl _).trans (A_eq0 (E1 m ρ) c 2))
    _ = W0 m ρ c (Proc.devRef .tc main_arg2) := StableHlo.after_of_writes_sub hostOps0 _ hostOps0_writes (by decide)
    _ = m ((c : Thread nD τ).loc main_arg2) := rfl

/-- `main_arg3` ends as launched: no host operation writes it, and a region either bypasses it or only reads it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it, and a region either bypasses it or only reads it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := (W6_arr m ρ c 2).trans (((dat2 (E5 m ρ) c).arrAt_in 2 rfl _).trans (A_eq2 (E5 m ρ) c 2))
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

/-- No pallas_call has a prefetched table. -/
abbrev admF : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admF p) c
  | ⟨0, _⟩ => fun c => dat0 (E1 m ρ) c
  | ⟨1, _⟩ => fun c => dat1 (E3 m ρ) c
  | ⟨2, _⟩ => fun c => dat2 (E5 m ρ) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every item: the generator register at some state, and nothing owed. -/
abbrev RF (c : Dev nD) : sProp 𝕄 := iprop((∃ r, prngReg c r) ∗ ∃ W, owes (c : Thread nD τ) (0 : CellTallies nD τ sig Unit) W)
/-- A host stretch as an item: the unscoped references from the contents `W`, `RF` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

-- a library lemma stated over the pinned configuration unifies with the printed one only when unification may unfold
-- plain definitions in a metavariable's type
set_option backward.isDefEq.respectTransparency.types false in
/-- Region 0 over the thread state "every unscoped buffer at the boundary's contents, the generator register at some
    state, nothing owed": entered at `W1`, left at `W2`. Its arrays are split out of the unscoped buffers at entry
    and put back at their final contents at exit. -/
def reg0 : Pipeline.RegionSeg (pcfgs (F := F)) admF (pdats m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LF lvF 0 fun _ _ => rfl
  pre c := iprop(StableHlo.held (c : Thread nD τ) (Pipeline.ucRefs τ sig) (W1 m ρ c) ∗ RF c)
  post c := iprop(StableHlo.held (c : Thread nD τ) (Pipeline.ucRefs τ sig) (W2 m ρ c) ∗ RF c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    unfold RF
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some
    state, nothing owed": entered at `W3`, left at `W4`. Its arrays are split out of the unscoped buffers at entry
    and put back at their final contents at exit. -/
def reg1 : Pipeline.RegionSeg (pcfgs (F := F)) admF (pdats m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ LF lvF 1 fun _ _ => rfl
  pre c := iprop(StableHlo.held (c : Thread nD τ) (Pipeline.ucRefs τ sig) (W3 m ρ c) ∗ RF c)
  post c := iprop(StableHlo.held (c : Thread nD τ) (Pipeline.ucRefs τ sig) (W4 m ρ c) ∗ RF c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E3 m ρ) c
    unfold Pipeline.ΦA at h
    rw [show (pdats m ρ 1 c).Φ 0 = (dat1 (E3 m ρ) c).Φ 0 from rfl]
    iintro ⟨Hp, -, Hr⟩
    iapply h
    isplitl [Hr]; · iexact Hr
    iexact Hp
  hout c := by
    have h := hout1 (E3 m ρ) c
    unfold Pipeline.ΦA at h
    rw [Pipeline.ownSems0_none, show (pdats m ρ 1 c).Φ (Fin.last _) = (dat1 (E3 m ρ) c).Φ (Fin.last cfg1.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    unfold RF
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state "every unscoped buffer at the boundary's contents, the generator register at some
    state, nothing owed": entered at `W5`, left at `W6`. Its arrays are split out of the unscoped buffers at entry
    and put back at their final contents at exit. -/
def reg2 : Pipeline.RegionSeg (pcfgs (F := F)) admF (pdats m ρ) () defs₀ 𝒱F LF lvF 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ LF lvF 2 fun _ _ => rfl
  pre c := iprop(StableHlo.held (c : Thread nD τ) (Pipeline.ucRefs τ sig) (W5 m ρ c) ∗ RF c)
  post c := iprop(StableHlo.held (c : Thread nD τ) (Pipeline.ucRefs τ sig) (W6 m ρ c) ∗ RF c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    unfold RF
    isplitl [HY]; · iexact HY
    unfold Pipeline.Dat.owesAt Pipeline.owesWithin
    icases HO with ⟨%W, -, HO⟩; iexists W; iexact HO

/-! ## @main as items, and the launch -/

/-- @main's seven items in order. -/
abbrev segsF : List (Pipeline.Seg (pcfgs (F := F)) admF (pdats m ρ) () defs₀ 𝒱F LF lvF) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the items. -/
theorem main_run (c : Dev nD) : main (F := F) c = Pipeline.Seg.run (segsF m ρ) := (main_chain c).trans (by chain_rfl)

set_option backward.isDefEq.respectTransparency.types false in
/-- THE RUN. From any memory with zero counters every weakly fair execution of @main terminates, nothing faulting,
    and every final state holds every unscoped buffer of every core at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admF (pdats m ρ) () cellOf_inj emb₁ defs₀ 𝒱F LF lvF m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RF c))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c)
          ∗ ((∃ r, prngReg c r) ∗ ∃ W, owes (c : Thread nD τ) (0 : CellTallies nD τ sig Unit) W)) ⊢ _
      iintro ⟨Hh, Hp, HO⟩
      isplitl [Hh Hp]
      · isplitl [Hh]; · iexact Hh
        iexact Hp
      iexact HO⟩)
    (hinit := by
      refine Pipeline.initEach LF lvF fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.Kernel.Fr

end
-- ==== Proof.KiR0.lean ====
/- The frame half of region 0 (the projection kernel `cc0__proj_kernel`, pipeline 0 of @main), at the buffer
   contents `V` the region is entered with: each window's block at a grid point, what the body leaves in the
   output window's staging buffer, the body's triple, the pipeline's proof data and the body obligation.
   Everything is stated for an arbitrary float model `F`. -/
import proofs.«163282_j10213432230461_2_alg».proof.Proof.Gen.KernelIdeal.Launch
import proofs.«163282_j10213432230461_2_alg».proof.Proof.Gen.KernelIdeal.Skeleton
import proofs.«163282_j10213432230461_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the window's
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the window's
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the window's
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S256x3072 := Rect.unit (s := S256x3072) ![0, 0] S256x3072.size inb_S256x3072_S256x3072_0_0

/-! ## What the body leaves in the output window's buffer -/

/-- Window 3's staging buffer after the body, from the input windows' blocks: its one store, which covers the
    whole buffer, with the payload computed from the three loads. -/
def out0_3 (x0 : Vec F S256x1024 .bf16) (x1 : Vec F S1024x3072 .bf16) (x2 : Vec F S3072 .f32) : Vec F S256x3072 .bf16 :=
  View.canon [⟨r0_3, k0_pay1 (View.ld x0 r0_0) (View.ld x1 r0_1) (View.ld x2 r0_2)⟩]

/-- The store tiles the buffer (checked by evaluation), so it covers it. -/
theorem cover0_3 (p0 : Vec F S256x3072 .bf16) (y : S256x3072.Idx) :
    ∃ pc ∈ ([⟨r0_3, p0⟩] : List (View.Piece (Elt F) S256x3072 .bf16)), y ∈ pc.1.set :=
  View.cover_of_tiled [⟨r0_3, p0⟩] S256x3072.size (by rfl) y

/-! ## The body's triple -/

set_option maxHeartbeats 1000000 in
/-- The kernel body on whole staging memrefs, the inputs' at read contents `xW` and the output's at anything, runs
    to the continuation holding the inputs' as they were and the output's at `out0_3` of the inputs'. The body
    also loads the output buffer before it stores it; the loaded value is not used by the store's payload. -/
theorem sound_kernel0 (c : Dev nD) (E : Set ℕ) (i : grid0.Coords)
    (arg0 : Memref sig .tc .vmem S256x1024 .bf16) (harg0 : arg0.IsWhole) (arg1 : Memref sig .tc .vmem S1024x3072 .bf16) (harg1 : arg1.IsWhole)
    (arg2 : Memref sig .tc .vmem S3072 .f32) (harg2 : arg2.IsWhole) (arg3 : Memref sig .tc .vmem S256x3072 .bf16) (harg3 : arg3.IsWhole)
    (x0 : Vec F S256x1024 .bf16) (x1 : Vec F S1024x3072 .bf16) (x2 : Vec F S3072 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.KiR1Runs.lean ====
/- The frame half of kernel region 1 (the online-softmax attention body), first part: what the three cases' runs
   share — each window's block at a point, the body's two branch conditions in closed form over the grid, where
   output window 3 is idle, the staging and scratch memrefs, the region's entry invariant opened — and the
   whole-body run of the kernel in each of the three cases that meet grid points (the first key/value tile, a middle
   one, the last). -/
import proofs.«163282_j10213432230461_2_alg».proof.Proof.Gen.KernelIdeal.Launch
import proofs.«163282_j10213432230461_2_alg».proof.Proof.Gen.KernelIdeal.Skeleton
import proofs.«163282_j10213432230461_2_alg».proof.Proof.Gen.KernelIdeal.Points
import Idealize.ShloMosaic.Lib.Pipeline.FrameBody
import Idealize.ShloMosaic.Lib.Ring
import Idealize.ShloMosaic.Lib.Tactic

-- membership in a rectangle of these extents: the elaborator's structural look recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered: everything below is stated at them
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched
    when the key/value tile index is 0 and the block index does not move in between), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first `scf.if` (the key/value tile index is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the key/value tile index is 3, the last), from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0, 1, 2 are never idle (inputs). -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At the points of case A (first tile, not last) output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B (neither first nor last tile) output 3 is idle. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C (last tile, not first) output 3 is live: the case stores into it. -/
theorem liveAt1_3_C : ∀ t : Fin cfg1.N, ¬cond1_0 (grid1.coords t) → cond1_1 (grid1.coords t) → cfg1.idle 3 (grid1.coords t) = false := by decide +kernel

/-! ## The kernel body on any staging memrefs -/

/-- One staging buffer of output window 3, through which its contents are stated (the choice does not matter). -/
abbrev VO1_3 : View sig .tc .vmem S1x256x64 .bf16 := (Memref.whole cc1_stg3_0 : Memref sig .tc .vmem S1x256x64 .bf16).view
/-- Each window's current staging memref at point `t`, spelled as the pipeline passes it, and its wholeness. -/
abbrev ms1_0 (t : Fin cfg1.N) : Memref sig .tc .vmem S1x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x64 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows — the running
    maximum, the running sum and the accumulator of the online softmax. -/
abbrev scM1_0 : Memref sig .tc .vmem S1x256x1 .f32 := Memref.whole cc1_scratch0
abbrev scM1_1 : Memref sig .tc .vmem S1x256x1 .f32 := Memref.whole cc1_scratch1
abbrev scM1_2 : Memref sig .tc .vmem S1x256x64 .f32 := Memref.whole cc1_scratch2
/-- The three scratch operands the kernel carries between points, as views: what they hold is stated through them. -/
abbrev VS1_0 : View sig .tc .vmem S1x256x1 .f32 := scM1_0.view
abbrev VS1_1 : View sig .tc .vmem S1x256x1 .f32 := scM1_1.view
abbrev VS1_2 : View sig .tc .vmem S1x256x64 .f32 := scM1_2.view

/-- The region's entry invariant with the scratch operands as memrefs owned at some contents: what the body
    obligation hands the run and takes back. The other regions' staging buffers ride along, each at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1_0, scM1_1, scM1_2, owns_whole]; try rfl

-- (the run's proof term is large: the definition's epilogue walks it past the default budget)
set_option maxHeartbeats 1000000 in
/-- What the body's stores leave in output 3's staging memref and in the three scratch operands, as pieces (last
    first), in case A (the first key/value tile, not the last: the first `scf.if` taken, the second not), with the proof that on whole memrefs — the inputs' at their
    contents `x·`, output 3's at contents `xi3` handed back untouched (no store: the window is idle there), the
    scratch at anything — the body runs to the continuation holding the inputs' as they were,
    and each scratch with its pieces written (`LS·`). The printed functions are their skeletons, which the symbolic
    executor runs, through the call of the part function; each `scf.if` is decided by the case's hypotheses; the
    pieces are the witness that run finds. -/
noncomputable def kernelRun1_A (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) :
    Σ' (L3 : List (View.Piece (Elt F) S1x256x64 .bf16)) (LS0 : List (View.Piece (Elt F) S1x256x1 .f32)) (LS1 : List (View.Piece (Elt F) S1x256x1 .f32)), { LS2 : List (View.Piece (Elt F) S1x256x64 .f32) //
      ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

-- (the run's proof term is large: the definition's epilogue walks it past the default budget)
set_option maxHeartbeats 1000000 in
/-- What the body's stores leave in output 3's staging memref and in the three scratch operands, as pieces (last
    first), in case B (neither the first nor the last key/value tile: no `scf.if` taken), with the proof that on whole memrefs — the inputs' at their
    contents `x·`, output 3's at contents `xi3` handed back untouched (no store: the window is idle there), the
    scratch at the contents the point before left (`xs·`) — the body runs to the continuation holding the inputs' as they were,
    and each scratch with its pieces written (`LS·`). The printed functions are their skeletons, which the symbolic
    executor runs, through the call of the part function; each `scf.if` is decided by the case's hypotheses; the
    pieces are the witness that run finds. -/
noncomputable def kernelRun1_B (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    Σ' (L3 : List (View.Piece (Elt F) S1x256x64 .bf16)) (LS0 : List (View.Piece (Elt F) S1x256x1 .f32)) (LS1 : List (View.Piece (Elt F) S1x256x1 .f32)), { LS2 : List (View.Piece (Elt F) S1x256x64 .f32) //
      ∀ (xi3 : Vec F S1x256x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

-- (the run's proof term is large: the definition's epilogue walks it past the default budget)
set_option maxHeartbeats 1000000 in
/-- What the body's stores leave in output 3's staging memref and in the three scratch operands, as pieces (last
    first), in case C (the last key/value tile, not the first: the second `scf.if` taken, the first not), with the proof that on whole memrefs — the inputs' at their
    contents `x·`, output 3's at anything, the
    scratch at the contents the point before left (`xs·`) — the body runs to the continuation holding the inputs' as they were, output 3's buffer with its pieces written (`L3`),
    and each scratch with its pieces written (`LS·`). The printed functions are their skeletons, which the symbolic
    executor runs, through the call of the part function; each `scf.if` is decided by the case's hypotheses; the
    pieces are the witness that run finds. -/
noncomputable def kernelRun1_C (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    Σ' (L3 : List (View.Piece (Elt F) S1x256x64 .bf16)) (LS0 : List (View.Piece (Elt F) S1x256x1 .f32)) (LS1 : List (View.Piece (Elt F) S1x256x1 .f32)), { LS2 : List (View.Piece (Elt F) S1x256x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KiR1.lean ====
/- The frame half of kernel region 1 (the online-softmax attention body), second part: what output 3 and the three
   carried scratch operands hold per case (covers, contents) and point by point (`outsAt1`), the region invariant
   `PhiS1`, the proof data `dat1` at the region's entry contents `V`, the body obligation, and the invariant's entry
   and exit. -/
import proofs.«163282_j10213432230461_2_alg».proof.Proof.KiR1Runs

-- membership in a rectangle of these extents: the elaborator's structural look recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Case A stores nothing into output 3 (the window is idle at its points and not written back there): no pieces —
    a placeholder (junk read back) that nothing consults, since at these points the window is neither written back
    nor read at the next point. -/
def out1_A_3 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) : Vec F S1x256x64 .bf16 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for scratch arg7 (the running maximum), which the kernel carries between points, cover it: whole stores. -/
theorem scover1_A_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) (y : S1x256x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1x256x1.size (by sl_kernel_rfl) y

/-- What case A leaves in scratch arg7 (the running maximum): its pieces read back over junk. -/
def sout1_A_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) : Vec F S1x256x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch arg8 (the running sum), which the kernel carries between points, cover it: whole stores. -/
theorem scover1_A_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) (y : S1x256x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1x256x1.size (by sl_kernel_rfl) y

/-- What case A leaves in scratch arg8 (the running sum): its pieces read back over junk. -/
def sout1_A_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) : Vec F S1x256x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch arg9 (the accumulator), which the kernel carries between points, cover it: whole stores. -/
theorem scover1_A_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) (y : S1x256x64.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1x256x64.size (by sl_kernel_rfl) y

/-- What case A leaves in scratch arg9 (the accumulator): its pieces read back over junk. -/
def sout1_A_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) : Vec F S1x256x64 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into output 3 (the window is idle at its points and not written back there): no pieces —
    a placeholder (junk read back) that nothing consults, since at these points the window is neither written back
    nor read at the next point. -/
def out1_B_3 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x64 .bf16 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for scratch arg7 (the running maximum), which the kernel carries between points, cover it: whole stores. -/
theorem scover1_B_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1x256x1.size (by sl_kernel_rfl) y

/-- What case B leaves in scratch arg7 (the running maximum): its pieces read back over junk. -/
def sout1_B_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch arg8 (the running sum), which the kernel carries between points, cover it: whole stores. -/
theorem scover1_B_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1x256x1.size (by sl_kernel_rfl) y

/-- What case B leaves in scratch arg8 (the running sum): its pieces read back over junk. -/
def sout1_B_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch arg9 (the accumulator), which the kernel carries between points, cover it: whole stores. -/
theorem scover1_B_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x64.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1x256x64.size (by sl_kernel_rfl) y

/-- What case B leaves in scratch arg9 (the accumulator): its pieces read back over junk. -/
def sout1_B_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x64 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's pieces for output 3 tile its block (one whole store, checked by evaluation), so they cover it. -/
theorem cover1_C_3 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x64.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x256x64.size (by sl_kernel_rfl) y

/-- What case C leaves in output 3's staging buffer: its pieces read back over junk. -/
def out1_C_3 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x64 .bf16 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for scratch arg7 (the running maximum), which the kernel carries between points, cover it: whole stores. -/
theorem scover1_C_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1x256x1.size (by sl_kernel_rfl) y

/-- What case C leaves in scratch arg7 (the running maximum): its pieces read back over junk. -/
def sout1_C_0 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch arg8 (the running sum), which the kernel carries between points, cover it: whole stores. -/
theorem scover1_C_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1x256x1.size (by sl_kernel_rfl) y

/-- What case C leaves in scratch arg8 (the running sum): its pieces read back over junk. -/
def sout1_C_1 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch arg9 (the accumulator), which the kernel carries between points, cover it: whole stores. -/
theorem scover1_C_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) (y : S1x256x64.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1x256x64.size (by sl_kernel_rfl) y

/-- What case C leaves in scratch arg9 (the accumulator): its pieces read back over junk. -/
def sout1_C_2 (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) : Vec F S1x256x64 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

section Regions
-- the TensorCore's buffer contents when the region is entered: everything below is stated at them
variable (V : (c : Dev nD) → (b : Ref sig .tc) → Buf (Elt F) ((c : Thread nD τ).loc b))

/-! ## What the output and the carried scratch hold after each point -/

/-- THE ACCUMULATION. What output 3's staging buffer and the three scratch operands the kernel carries between points
    hold after the body at position `n` (a tuple: the output, then the running maximum, the running sum, the
    accumulator): the case the closed forms select at `n` (by the key/value tile index `n % 4`), run at the point's
    memrefs and input blocks, the scratch entering at what this leaves at `n - 1` (case A, the first tile, reads
    nothing of it). 'First and last tile at once' meets no point (`False.elim`). -/
def outsAt1 (c : Dev nD) : (n : ℕ) → n < cfg1.N → Vec F S1x256x64 .bf16 × Vec F S1x256x1 .f32 × Vec F S1x256x1 .f32 × Vec F S1x256x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the entry invariant (every scoped buffer that is
    no staging buffer of this region — the three scratch operands among them — at anything, the generator register);
    afterwards the same with each scratch operand at what the point before left in it (`outsAt1`'s scratch
    components), the other regions' staging buffers still at anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and output 3's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, never unfolding `V`). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    so that case's run applies. The invariant hands the body the three scratch operands at what the point before
    left (at anything at the first point), the other scoped buffers and the generator register at some state, and
    takes the scratch back at this point's contents (their pieces cover them); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 1024 := lt_of_lt_of_eq t.isLt (show cfg1.N = 1024 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HR0, HR1, HR2, HR3, HR4, HR5, HS0, HS1, HS2, HR9, HR10, HR11, HR12, HR13, HR14⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HS0 HS1 HS2 HR9 HR10 HR11 HR12 HR13 HR14 Hg]
        · isplitl [HR0 HR1 HR2 HR3 HR4 HR5 HS0 HS1 HS2 HR9 HR10 HR11 HR12 HR13 HR14]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            isplitl [HR9]; · iexact HR9
            isplitl [HR10]; · iexact HR10
            isplitl [HR11]; · iexact HR11
            isplitl [HR12]; · iexact HR12
            isplitl [HR13]; · iexact HR13
            iexact HR14
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HS0, HS1, HS2, HR9, HR10, HR11, HR12, HR13, HR14⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR0 HR1 HR2 HR3 HR4 HR5 HS0 HS1 HS2 HR9 HR10 HR11 HR12 HR13 HR14 Hg]
        · isplitl [HR0 HR1 HR2 HR3 HR4 HR5 HS0 HS1 HS2 HR9 HR10 HR11 HR12 HR13 HR14]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            isplitl [HR9]; · iexact HR9
            isplitl [HR10]; · iexact HR10
            isplitl [HR11]; · iexact HR11
            isplitl [HR12]; · iexact HR12
            isplitl [HR13]; · iexact HR13
            iexact HR14
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨⟨HR0, HR1, HR2, HR3, HR4, HR5, HS0, HS1, HS2, HR9, HR10, HR11, HR12, HR13, HR14⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR0 HR1 HR2 HR3 HR4 HR5 HS0 HS1 HS2 HR9 HR10 HR11 HR12 HR13 HR14 Hg]
        · isplitl [HR0 HR1 HR2 HR3 HR4 HR5 HS0 HS1 HS2 HR9 HR10 HR11 HR12 HR13 HR14]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _)
            isplitl [HR9]; · iexact HR9
            isplitl [HR10]; · iexact HR10
            isplitl [HR11]; · iexact HR11
            isplitl [HR12]; · iexact HR12
            isplitl [HR13]; · iexact HR13
            iexact HR14
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HR0, HR1, HR2, HR3, HR4, HR5, HS0, HS1, HS2, HR9, HR10, HR11, HR12, HR13, HR14⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HS0 HS1 HS2 HR9 HR10 HR11 HR12 HR13 HR14 Hg]
        · isplitl [HR0 HR1 HR2 HR3 HR4 HR5 HS0 HS1 HS2 HR9 HR10 HR11 HR12 HR13 HR14]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _)
            isplitl [HR9]; · iexact HR9
            isplitl [HR10]; · iexact HR10
            isplitl [HR11]; · iexact HR11
            isplitl [HR12]; · iexact HR12
            isplitl [HR13]; · iexact HR13
            iexact HR14
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HS0, HS1, HS2, HR9, HR10, HR11, HR12, HR13, HR14⟩, Hg⟩
  isplitl [HR0 HR1 HR2 HR3 HR4 HR5 HS0 HS1 HS2 HR9 HR10 HR11 HR12 HR13 HR14]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    isplitl [HS2]; · iexists _; iexact HS2
    isplitl [HR9]; · iexact HR9
    isplitl [HR10]; · iexact HR10
    isplitl [HR11]; · iexact HR11
    isplitl [HR12]; · iexact HR12
    isplitl [HR13]; · iexact HR13
    iexact HR14
  iexact Hg

/-- The same after the last point. -/
theorem hout1 (c : Dev nD) : (dat1 V c).Φ (Fin.last cfg1.N) ⊢ Pipeline.ΦA spec1 c :=
  Phi_out1 V c _ (by rw [Fin.val_last]; have : cfg1.N = 1024 := N_1; omega)

end Regions

end Cert.KernelIdeal.Fr

end
-- ==== Proof.KiR2.lean ====
/- The frame half of region 2 (the projection kernel `cc2__proj_kernel`, pipeline 2 of @main), at the buffer
   contents `V` the region is entered with: each window's block at a grid point, what the body leaves in the
   output window's staging buffer, the body's triple, the pipeline's proof data and the body obligation.
   Everything is stated for an arbitrary float model `F`. -/
import proofs.«163282_j10213432230461_2_alg».proof.Proof.Gen.KernelIdeal.Launch
import proofs.«163282_j10213432230461_2_alg».proof.Proof.Gen.KernelIdeal.Skeleton
import proofs.«163282_j10213432230461_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the window's
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the window's
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the window's
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x1024 := Rect.unit (s := S256x1024) ![0, 0] S256x1024.size inb_S256x1024_S256x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0
abbrev r2_3 : Rect S256x1024 := Rect.unit (s := S256x1024) ![0, 0] S256x1024.size inb_S256x1024_S256x1024_0_0

/-! ## What the body leaves in the output window's buffer -/

/-- Window 3's staging buffer after the body, from the input windows' blocks: its one store, which covers the
    whole buffer, with the payload computed from the three loads. -/
def out2_3 (x0 : Vec F S256x1024 .bf16) (x1 : Vec F S1024x1024 .bf16) (x2 : Vec F S1024 .f32) : Vec F S256x1024 .f32 :=
  View.canon [⟨r2_3, k2_pay1 (View.ld x0 r2_0) (View.ld x1 r2_1) (View.ld x2 r2_2)⟩]

/-- The store tiles the buffer (checked by evaluation), so it covers it. -/
theorem cover2_3 (p0 : Vec F S256x1024 .f32) (y : S256x1024.Idx) :
    ∃ pc ∈ ([⟨r2_3, p0⟩] : List (View.Piece (Elt F) S256x1024 .f32)), y ∈ pc.1.set :=
  View.cover_of_tiled [⟨r2_3, p0⟩] S256x1024.size (by rfl) y

/-! ## The body's triple -/

set_option maxHeartbeats 1000000 in
/-- The kernel body on whole staging memrefs, the inputs' at read contents `xW` and the output's at anything, runs
    to the continuation holding the inputs' as they were and the output's at `out2_3` of the inputs'. The body
    also loads the output buffer before it stores it; the loaded value is not used by the store's payload. -/
theorem sound_kernel2 (c : Dev nD) (E : Set ℕ) (i : grid2.Coords)
    (arg0 : Memref sig .tc .vmem S256x1024 .bf16) (harg0 : arg0.IsWhole) (arg1 : Memref sig .tc .vmem S1024x1024 .bf16) (harg1 : arg1.IsWhole)
    (arg2 : Memref sig .tc .vmem S1024 .f32) (harg2 : arg2.IsWhole) (arg3 : Memref sig .tc .vmem S256x1024 .f32) (harg3 : arg3.IsWhole)
    (x0 : Vec F S256x1024 .bf16) (x1 : Vec F S1024x1024 .bf16) (x2 : Vec F S1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__proj_kernel i arg0 harg0 arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Fr

end
-- ==== Proof.KiRun.lean ====
/-
  The whole run of the program: its four stretches of host operations and three kernel regions composed in order.

  Between two items every unscoped buffer of the TensorCore holds a known value: the launch memory, then each host
  stretch applied to it, then — after a region — the region's arrays at what its pipeline leaves (an input array as it
  was entered, the output array with every block the grid wrote back folded in) and every other buffer as entered.
  Each region is entered from that state and left at the next one; no core owes another anything, and the only thing
  that rides along is the generator register. The run ends with every unscoped buffer at the last of these values, from
  which both the frame claim (each argument array is never written: it ends as launched) and the result array's value
  are read.
-/
import proofs.«163282_j10213432230461_2_alg».proof.Proof.KiR0
import proofs.«163282_j10213432230461_2_alg».proof.Proof.KiR1
import proofs.«163282_j10213432230461_2_alg».proof.Proof.KiR2
import proofs.«163282_j10213432230461_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- The same read at the TensorCore's references: what region 0 is entered from. -/
abbrev E1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the host operations that follow region 0. -/
abbrev W3 : Dev nD → Valuation τ sig (Elt F) := fun c => StableHlo.after hostOps1 (W2 m ρ c)
/-- The same read at the TensorCore's references: what region 1 is entered from. -/
abbrev E3 : (c : Dev nD) → (b : Ref sig .tc) → Buf (Elt F) ((c : Thread nD τ).loc b) := fun c b => W3 m ρ c b

/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After the host operations that follow region 1. -/
abbrev W5 : Dev nD → Valuation τ sig (Elt F) := fun c => StableHlo.after hostOps2 (W4 m ρ c)
/-- The same read at the TensorCore's references: what region 2 is entered from. -/
abbrev E5 : (c : Dev nD) → (b : Ref sig .tc) → Buf (Elt F) ((c : Thread nD τ).loc b) := fun c b => W5 m ρ c b

/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev X6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = E5 m ρ c b :=
  fun b hb => W6_of_ne m ρ c b fun w e => hb (Finset.mem_image.mpr ⟨w, Finset.mem_univ _, e⟩)

/-- After the host operations that follow region 2. -/
abbrev W7 : Dev nD → Valuation τ sig (Elt F) := fun c => StableHlo.after hostOps3 (W6 m ρ c)

/-! ## The arguments end as launched -/

/-- `main_arg0` ends as launched: no host operation writes it, and a region either bypasses it or only reads it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it, and a region either bypasses it or only reads it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it, and a region either bypasses it or only reads it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (E1 m ρ) c).arrAt_in 2 rfl _).trans (A_eq0 (E1 m ρ) c 2))
    _ = W0 m ρ c (Proc.devRef .tc main_arg2) := StableHlo.after_of_writes_sub hostOps0 _ hostOps0_writes (by decide)
    _ = m ((c : Thread nD τ).loc main_arg2) := rfl

/-- `main_arg3` ends as launched: no host operation writes it, and a region either bypasses it or only reads it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it, and a region either bypasses it or only reads it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := (W6_arr m ρ c 2).trans (((dat2 (E5 m ρ) c).arrAt_in 2 rfl _).trans (A_eq2 (E5 m ρ) c 2))
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

/-- No pallas_call has a prefetched table. -/
abbrev admF : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admF p) c
  | ⟨0, _⟩ => fun c => dat0 (E1 m ρ) c
  | ⟨1, _⟩ => fun c => dat1 (E3 m ρ) c
  | ⟨2, _⟩ => fun c => dat2 (E5 m ρ) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every item: the generator register at some state, and nothing owed. -/
abbrev RF (c : Dev nD) : sProp 𝕄 := iprop((∃ r, prngReg c r) ∗ ∃ W, owes (c : Thread nD τ) (0 : CellTallies nD τ sig Unit) W)
/-- A host stretch as an item: the unscoped references from the contents `W`, `RF` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

-- a library lemma stated over the pinned configuration unifies with the printed one only when unification may unfold
-- plain definitions in a metavariable's type
set_option backward.isDefEq.respectTransparency.types false in
/-- Region 0 over the thread state "every unscoped buffer at the boundary's contents, the generator register at some
    state, nothing owed": entered at `W1`, left at `W2`. Its arrays are split out of the unscoped buffers at entry
    and put back at their final contents at exit. -/
def reg0 : Pipeline.RegionSeg (pcfgs (F := F)) admF (pdats m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LF lvF 0 fun _ _ => rfl
  pre c := iprop(StableHlo.held (c : Thread nD τ) (Pipeline.ucRefs τ sig) (W1 m ρ c) ∗ RF c)
  post c := iprop(StableHlo.held (c : Thread nD τ) (Pipeline.ucRefs τ sig) (W2 m ρ c) ∗ RF c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    unfold RF
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some
    state, nothing owed": entered at `W3`, left at `W4`. Its arrays are split out of the unscoped buffers at entry
    and put back at their final contents at exit. -/
def reg1 : Pipeline.RegionSeg (pcfgs (F := F)) admF (pdats m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ LF lvF 1 fun _ _ => rfl
  pre c := iprop(StableHlo.held (c : Thread nD τ) (Pipeline.ucRefs τ sig) (W3 m ρ c) ∗ RF c)
  post c := iprop(StableHlo.held (c : Thread nD τ) (Pipeline.ucRefs τ sig) (W4 m ρ c) ∗ RF c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E3 m ρ) c
    unfold Pipeline.ΦA at h
    rw [show (pdats m ρ 1 c).Φ 0 = (dat1 (E3 m ρ) c).Φ 0 from rfl]
    iintro ⟨Hp, -, Hr⟩
    iapply h
    isplitl [Hr]; · iexact Hr
    iexact Hp
  hout c := by
    have h := hout1 (E3 m ρ) c
    unfold Pipeline.ΦA at h
    rw [Pipeline.ownSems0_none, show (pdats m ρ 1 c).Φ (Fin.last _) = (dat1 (E3 m ρ) c).Φ (Fin.last cfg1.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    unfold RF
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state "every unscoped buffer at the boundary's contents, the generator register at some
    state, nothing owed": entered at `W5`, left at `W6`. Its arrays are split out of the unscoped buffers at entry
    and put back at their final contents at exit. -/
def reg2 : Pipeline.RegionSeg (pcfgs (F := F)) admF (pdats m ρ) () defs₀ 𝒱F LF lvF 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ LF lvF 2 fun _ _ => rfl
  pre c := iprop(StableHlo.held (c : Thread nD τ) (Pipeline.ucRefs τ sig) (W5 m ρ c) ∗ RF c)
  post c := iprop(StableHlo.held (c : Thread nD τ) (Pipeline.ucRefs τ sig) (W6 m ρ c) ∗ RF c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m ρ) ((pdats m ρ 2 c).share_full fun _ => rfl)
      (E5 m ρ c) (X6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    unfold RF
    isplitl [HY]; · iexact HY
    unfold Pipeline.Dat.owesAt Pipeline.owesWithin
    icases HO with ⟨%W, -, HO⟩; iexists W; iexact HO

/-! ## @main as items, and the launch -/

/-- @main's seven items in order. -/
abbrev segsF : List (Pipeline.Seg (pcfgs (F := F)) admF (pdats m ρ) () defs₀ 𝒱F LF lvF) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the items. -/
theorem main_run (c : Dev nD) : main (F := F) c = Pipeline.Seg.run (segsF m ρ) := (main_chain c).trans (by chain_rfl)

set_option backward.isDefEq.respectTransparency.types false in
/-- THE RUN. From any memory with zero counters every weakly fair execution of @main terminates, nothing faulting,
    and every final state holds every unscoped buffer of every core at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admF (pdats m ρ) () cellOf_inj emb₁ defs₀ 𝒱F LF lvF m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RF c))
    (Tₙ := fun c => iprop(StableHlo.held (c : Thread nD τ) (Pipeline.ucRefs τ sig) (W7 m ρ c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c)
          ∗ ((∃ r, prngReg c r) ∗ ∃ W, owes (c : Thread nD τ) (0 : CellTallies nD τ sig Unit) W)) ⊢ _
      iintro ⟨Hh, Hp, HO⟩
      isplitl [Hh Hp]
      · isplitl [Hh]; · iexact Hh
        iexact Hp
      iexact HO⟩)
    (hinit := by
      refine Pipeline.initEach LF lvF fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.KernelIdeal.Fr

end
-- ==== Proof.ValRowBias.lean ====
/- Two facts about layouts used by both projection regions: the zero offsets of a whole-buffer access, and a row
   cast to a one-row matrix and laid along every row of a matrix, read at an index. -/
import Idealize.ShloMosaic.Lib.Pipeline.Value
import Idealize.ShloMosaic.Lib.ValueIdx

noncomputable section

namespace Cert.KernelIdeal.Val

open Idealize.ShloMosaic Idealize.ShloMosaic.ValueIdx

/-! ## Zero offsets -/

theorem hz2 : (![0, 0] : Fin 2 → Nat) = fun _ => 0 := funext fun a => by fin_cases a <;> rfl
theorem hz1 : (![0] : Fin 1 → Nat) = fun _ => 0 := funext fun a => by fin_cases a <;> rfl

/-! ## A row laid along every row -/

/-- A row of `n` entries cast to one row and laid along each of `m` rows, read at `(p, q)`, is the row's entry `q`. -/
theorem row_along_rows_apply {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩) (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

end Cert.KernelIdeal.Val

end
-- ==== Proof.ValR0.lean ====
/- The value region 0 (the projection kernel of pipeline 0) leaves in its output array, at the ideal
   float model: one function of the region-entry arrays, index by index — the matrix product of the two
   operand arrays plus the bias row. -/
import proofs.«163282_j10213432230461_2_alg».proof.Proof.KiR0
import proofs.«163282_j10213432230461_2_alg».proof.Proof.ValRowBias
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-- The projection's value: the matrix product of the rows `a0` with the columns `a1`, plus the bias row `a2`. -/
abbrev proj0 (a0 : Vec Ideal S4096x1024 .bf16) (a1 : Vec Ideal S1024x3072 .bf16) (a2 : Vec Ideal S3072 .f32) : Vec Ideal S4096x3072 .bf16 :=
  fun i => (∑ k : Fin 1024, a0 (ix2 (i 0) k) * a1 (ix2 k (i 1))) + a2 (ix1 (i 1))

/-! ## The payload at an index -/

/-- The product's left index: the output's row and the contraction's coordinate. -/
theorem lhs0_0 (j : S256x3072.Idx) (q : dot_S256x1024_S1024x3072_S256x3072_1_0_0_1_n_n.contr.Idx) : (dot_S256x1024_S1024x3072_S256x3072_1_0_0_1_n_n.lhsIdx j q 0).val = (j 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs0_1 (j : S256x3072.Idx) (q : dot_S256x1024_S1024x3072_S256x3072_1_0_0_1_n_n.contr.Idx) : (dot_S256x1024_S1024x3072_S256x3072_1_0_0_1_n_n.lhsIdx j q 1).val = (q ⟨0, by decide⟩).val :=
  dot_S256x1024_S1024x3072_S256x3072_1_0_0_1_n_n.lhsIdx_val_of_single rfl j q
/-- The product's right index: the contraction's coordinate and the output's column. -/
theorem rhs0_0 (j : S256x3072.Idx) (q : dot_S256x1024_S1024x3072_S256x3072_1_0_0_1_n_n.contr.Idx) : (dot_S256x1024_S1024x3072_S256x3072_1_0_0_1_n_n.rhsIdx j q 0).val = (q ⟨0, by decide⟩).val :=
  dot_S256x1024_S1024x3072_S256x3072_1_0_0_1_n_n.rhsIdx_val_of_single rfl j q
theorem rhs0_1 (j : S256x3072.Idx) (q : dot_S256x1024_S1024x3072_S256x3072_1_0_0_1_n_n.contr.Idx) : (dot_S256x1024_S1024x3072_S256x3072_1_0_0_1_n_n.rhsIdx j q 1).val = (j 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The matrix product into a zero accumulator, at `(p, q)`: row `p` of the left operand against column `q` of the right. -/
theorem matmul0_apply (x0 : FVec Ideal S256x1024 .bf16) (x1 : FVec Ideal S1024x3072 .bf16) (p : Fin 256) (q : Fin 3072) :
    matmul dot_S256x1024_S1024x3072_S256x3072_1_0_0_1_n_n none x0 x1 (constant S256x3072 .f32 0x00000000#32) (ix2 p q) = ∑ k : Fin 1024, x0 (ix2 p k) * x1 (ix2 k q) := by
  show FloatOps.matmul dot_S256x1024_S1024x3072_S256x3072_1_0_0_1_n_n none x0 x1 (constant S256x3072 .f32 0x00000000#32) (ix2 p q) = _
  rw [Ideal.matmul_constant_zero_apply, ← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : dot_S256x1024_S1024x3072_S256x3072_1_0_0_1_n_n.lhsIdx (ix2 p q) ((contrEquiv1 dot_S256x1024_S1024x3072_S256x3072_1_0_0_1_n_n 1024 rfl rfl).symm k) = ix2 p k := funext fun a => Fin.ext (by
    match a with
    | ⟨0, _⟩ => exact lhs0_0 _ _
    | ⟨1, _⟩ => exact (lhs0_1 _ _).trans hk)
  have er : dot_S256x1024_S1024x3072_S256x3072_1_0_0_1_n_n.rhsIdx (ix2 p q) ((contrEquiv1 dot_S256x1024_S1024x3072_S256x3072_1_0_0_1_n_n 1024 rfl rfl).symm k) = ix2 k q := funext fun a => Fin.ext (by
    match a with
    | ⟨0, _⟩ => exact (rhs0_0 _ _).trans hk
    | ⟨1, _⟩ => exact rhs0_1 _ _)
  rw [el, er]

/-- The store's payload at `(p, q)`, from the three loaded blocks: the product's entry plus the bias entry (the change of
    format is the identity on the extended reals). -/
theorem proj0_pay_apply (x0 : Vec Ideal S256x1024 .bf16) (x1 : Vec Ideal S1024x3072 .bf16) (x2 : Vec Ideal S3072 .f32) (p : Fin 256) (q : Fin 3072) :
    k0_pay1 x0 x1 x2 (ix2 p q) = (∑ k : Fin 1024, x0 (ix2 p k) * x1 (ix2 k q)) + x2 (ix1 q) := by
  unfold k0_pay1
  rw [truncf_apply, addf_apply, shapeCast_self, shapeCast_self, matmul0_apply, row_along_rows_apply]

/-! ## From blocks to the array -/

/-- One block of the result from the blocks the body loaded: if the left block is rows `r * 256 …` of `a0`, and the
    right operand and the bias are whole, the payload at `j` is the projection at row `r * 256 + j 0`, column `j 1`. -/
theorem blk_val0 (x0 : Vec Ideal S256x1024 .bf16) (x1 : Vec Ideal S1024x3072 .bf16) (x2 : Vec Ideal S3072 .f32)
    (a0 : Vec Ideal S4096x1024 .bf16) (a1 : Vec Ideal S1024x3072 .bf16) (a2 : Vec Ideal S3072 .f32) (r : Nat)
    (h0 : ∀ (y : S256x1024.Idx) (i : S4096x1024.Idx), (i 0).val = r * 256 + (y 0).val → (i 1).val = (y 1).val → x0 y = a0 i)
    (h1 : x1 = a1) (h2 : x2 = a2)
    (j : S256x3072.Idx) (i : S4096x3072.Idx) (hi0 : (i 0).val = r * 256 + (j 0).val) (hi1 : (i 1).val = (j 1).val) :
    k0_pay1 x0 x1 x2 j = proj0 a0 a1 a2 i := by
  obtain ⟨p, q, rfl⟩ : ∃ (p : Fin 256) (q : Fin 3072), j = ix2 p q := ⟨j 0, j 1, eq_ix2 j⟩
  rw [proj0_pay_apply]
  subst h1; subst h2
  have hq : i 1 = q := Fin.ext hi1
  show _ = (∑ k : Fin 1024, a0 (ix2 (i 0) k) * x1 (ix2 k (i 1))) + x2 (ix1 (i 1))
  rw [hq]
  congr 1
  refine Finset.sum_congr rfl fun k _ => ?_
  rw [h0 (ix2 p k) (ix2 (i 0) k) hi0 rfl]

section Blocks
variable (V : (c : Dev nD) → (b : Ref sig .tc) → Buf (Elt Ideal) ((c : Thread nD τ).loc b))

/-- The printed index maps, decided over the grid: the row windows' block index is the point, every other block
    index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Window 0's block at point `t` is rows `256 t … 256 t + 255` of its array. -/
theorem iblk0_0_apply (c : Dev nD) (t : Fin cfg0.N) (y : S256x1024.Idx) (i : S4096x1024.Idx)
    (hi0 : (i 0).val = t.val * 256 + (y 0).val) (hi1 : (i 1).val = (y 1).val) :
    (iblk0 V c 0 t : Vec Ideal S256x1024 .bf16) y = (V c main_v1 : Vec Ideal S4096x1024 .bf16) i := by
  obtain ⟨e0, e1, -⟩ := idx_facts0 t
  unfold iblk0
  rw [View.read_apply]
  show V c main_v1 _ = V c main_v1 _
  congr 1
  funext a
  apply Fin.ext
  match a with
  | ⟨0, _⟩ => show win0_0.index t 0 * 256 + 1 * (y 0).val = (i 0).val; rw [e0, hi0]; omega
  | ⟨1, _⟩ => show win0_0.index t 1 * 1024 + 1 * (y 1).val = (i 1).val; rw [e1, hi1]; omega

/-- Window 1's block at any point is its whole array. -/
theorem iblk0_1_eq (c : Dev nD) (t : Fin cfg0.N) :
    (iblk0 V c 1 t : Vec Ideal S1024x3072 .bf16) = (V c main_v2 : Vec Ideal S1024x3072 .bf16) := by
  obtain ⟨-, -, e2, e3, -⟩ := idx_facts0 t
  funext y
  unfold iblk0
  rw [View.read_apply]
  show V c main_v2 _ = V c main_v2 _
  congr 1
  funext a
  apply Fin.ext
  match a with
  | ⟨0, _⟩ => show win0_1.index t 0 * 1024 + 1 * (y 0).val = (y 0).val; rw [e2]; omega
  | ⟨1, _⟩ => show win0_1.index t 1 * 3072 + 1 * (y 1).val = (y 1).val; rw [e3]; omega

/-- Window 2's block at any point is its whole array. -/
theorem iblk0_2_eq (c : Dev nD) (t : Fin cfg0.N) :
    (iblk0 V c 2 t : Vec Ideal S3072 .f32) = (V c main_arg2 : Vec Ideal S3072 .f32) := by
  obtain ⟨-, -, -, -, e4, -⟩ := idx_facts0 t
  funext y
  unfold iblk0
  rw [View.read_apply]
  show V c main_arg2 _ = V c main_arg2 _
  congr 1
  funext a
  apply Fin.ext
  match a with
  | ⟨0, _⟩ => show win0_2.index t 0 * 3072 + 1 * (y 0).val = (y 0).val; rw [e4]; omega

/-- What point `t` writes back is block `t` of the projection of the arrays as the region finds them. -/
theorem flushed0_eq (c : Dev nD) (t : Fin cfg0.N) :
    (dat0 V c).flushed 3 t = ((cfg0.win 3).blk t).view.read (Elt Ideal) (proj0 (V c main_v1) (V c main_v2) (V c main_arg2)) := by
  show (cfg0.win 3).cut (grid0.coords t) ((dat0 V c).after 3 t) = _
  rw [after0_3]
  unfold out0_3
  rw [View.canon_unit_zero hz2]
  simp only [View.ld_unit_zero (S := S256x1024) hz2, View.ld_unit_zero (S := S1024x3072) hz2, View.ld_unit_zero (S := S3072) hz1]
  obtain ⟨-, -, -, -, -, e5, e6⟩ := idx_facts0 t
  funext j
  rw [View.read_apply]
  refine blk_val0 (iblk0 V c 0 t) (iblk0 V c 1 t) (iblk0 V c 2 t) (V c main_v1) (V c main_v2) (V c main_arg2) t.val
    (fun y i => iblk0_0_apply V c t y i) (iblk0_1_eq V c t) (iblk0_2_eq V c t) _ _ ?_ ?_
  · show win0_3.index t 0 * 256 + 1 * (j 0).val = t.val * 256 + (j 0).val; rw [e5]; omega
  · show win0_3.index t 1 * 3072 + 1 * (j 1).val = (j 1).val; rw [e6]; omega

/-- An index of the array is in point `t`'s block iff each coordinate is in the block's range on its axis. -/
theorem mem_blk0 (t : Fin cfg0.N) (i : S4096x3072.Idx) :
    i ∈ ((cfg0.win 3).blk t).view.set ↔ ∀ a : Fin 2, win0_3.index t a * S256x3072.size a ≤ (i a).val ∧ (i a).val < win0_3.index t a * S256x3072.size a + S256x3072.size a := by
  show i ∈ ((View.whole main_v4).slice (win0_3.rect t)).set ↔ _
  rw [View.set_slice_whole, Rect.mem_set_unit]
  exact Iff.rfl

/-- Every index of the array is in the block of the point its row falls in: row `r` in point `r / 256`'s. -/
theorem cover0 (i : S4096x3072.Idx) : ∃ t : Fin cfg0.N, (cfg0.win 3).flush t = true ∧ i ∈ ((cfg0.win 3).blk t).view.set := by
  have hi0 : (i 0).val < 4096 := idx2_lt0 i
  have hi1 : (i 1).val < 3072 := idx2_lt1 i
  have hN : cfg0.N = 16 := N_0
  let t : Fin cfg0.N := ⟨(i 0).val / 256, by rw [hN]; omega⟩
  obtain ⟨-, -, -, -, -, e5, e6⟩ := idx_facts0 t
  have ht : t.val = (i 0).val / 256 := rfl
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; rw [e5, ht]; omega
  | ⟨1, _⟩ => show win0_3.index t (1 : Fin 2) * 3072 ≤ (i 1).val ∧ (i 1).val < win0_3.index t (1 : Fin 2) * 3072 + 3072; rw [e6]; omega

end Blocks

/-- The output array after the region's run is the projection of the region-entry arrays. -/
theorem arr0_3 (V : (c : Dev nD) → (b : Ref sig .tc) → Buf (Elt Ideal) ((c : Thread nD τ).loc b)) (c : Dev nD) :
    (dat0 V c).arrAt 3 cfg0.N = proj0 (V c main_v1) (V c main_v2) (V c main_arg2) :=
  (dat0 V c).arrAt_eq_of_cover 3 (proj0 (V c main_v1) (V c main_v2) (V c main_arg2)) (fun t _ => flushed0_eq V c t) cover0

end Cert.KernelIdeal.Val

end
-- ==== Proof.ValR1Blocks.lean ====
/- Region 1 (the attention kernel, pipeline 1), from blocks to the array, at the ideal float model: the printed
   index maps over the grid's 1024 points, each input window's block read at an index of its array, and the
   output array after the run from what the flushing points leave in the output's staging buffer. -/
import proofs.«163282_j10213432230461_2_alg».proof.Proof.KiR1
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-! ## A point's coordinates

Point `t` of the 32 × 8 × 4 grid is (batch·head, query tile, key/value tile) = `(t / 32, (t / 4) % 8, t % 4)`. -/

/-- The batch·head coordinate of point `t`. -/
abbrev bh1 (t : Fin cfg1.N) : Fin 32 := ⟨t.val / 32, by have h := t.isLt; have hN : cfg1.N = 1024 := N_1; omega⟩
/-- Row `r` of point `t`'s query tile, as a row of the whole array. -/
abbrev qrow1 (t : Fin cfg1.N) (r : Fin 256) : Fin 2048 := ⟨((t.val / 4) % 8) * 256 + r.val, by have := r.isLt; omega⟩
/-- Row `j` of point `t`'s key/value tile, as a row of the whole array. -/
abbrev krow1 (t : Fin cfg1.N) (j : Fin 512) : Fin 2048 := ⟨(t.val % 4) * 512 + j.val, by have := j.isLt; omega⟩

/-! ## The printed index maps -/

/-- The block index of each window at each point, decided over the grid: the query and output windows move with the
    batch·head and the query tile, the key and value windows with the batch·head and the key/value tile. -/
theorem idx_facts1 : ∀ t : Fin cfg1.N,
    win1_0.index t (0 : Fin 3) = t.val / 32 ∧ win1_0.index t (1 : Fin 3) = (t.val / 4) % 8 ∧ win1_0.index t (2 : Fin 3) = 0
    ∧ win1_1.index t (0 : Fin 3) = t.val / 32 ∧ win1_1.index t (1 : Fin 3) = t.val % 4 ∧ win1_1.index t (2 : Fin 3) = 0
    ∧ win1_2.index t (0 : Fin 3) = t.val / 32 ∧ win1_2.index t (1 : Fin 3) = t.val % 4 ∧ win1_2.index t (2 : Fin 3) = 0
    ∧ win1_3.index t (0 : Fin 3) = t.val / 32 ∧ win1_3.index t (1 : Fin 3) = (t.val / 4) % 8 ∧ win1_3.index t (2 : Fin 3) = 0 :=
  (by decide +kernel : ∀ t : Fin grid1.N, _)

section Blocks
variable (V : (c : Dev nD) → (b : Ref sig .tc) → Buf (Elt Ideal) ((c : Thread nD τ).loc b))

/-! ## The input blocks at an index -/

/-- The query window's block at point `t`: rows `256 q … 256 q + 255` (`q` the query tile) of batch·head `t / 32`. -/
theorem iblk1_0_apply (c : Dev nD) (t : Fin cfg1.N) (r : Fin 256) (d : Fin 64) :
    (iblk1 V c 0 t : Vec Ideal S1x256x64 .bf16) (ix3 (0 : Fin 1) r d) = (V c main_v13 : Vec Ideal S32x2048x64 .bf16) (ix3 (bh1 t) (qrow1 t r) d) :=
  by
  obtain ⟨f0, f1, f2, -⟩ := idx_facts1 t
  unfold iblk1
  rw [View.read_apply]
  show V c main_v13 _ = V c main_v13 _
  congr 1
  funext a
  apply Fin.ext
  match a with
  | ⟨0, _⟩ => show win1_0.index t 0 * 1 + 1 * 0 = t.val / 32; rw [f0]; omega
  | ⟨1, _⟩ => show win1_0.index t 1 * 256 + 1 * r.val = ((t.val / 4) % 8) * 256 + r.val; rw [f1]; omega
  | ⟨2, _⟩ => show win1_0.index t 2 * 64 + 1 * d.val = d.val; rw [f2]; omega

/-- The key window's block at point `t`: rows `512 k … 512 k + 511` (`k` the key/value tile) of batch·head `t / 32`. -/
theorem iblk1_1_apply (c : Dev nD) (t : Fin cfg1.N) (j : Fin 512) (d : Fin 64) :
    (iblk1 V c 1 t : Vec Ideal S1x512x64 .bf16) (ix3 (0 : Fin 1) j d) = (V c main_v14 : Vec Ideal S32x2048x64 .bf16) (ix3 (bh1 t) (krow1 t j) d) :=
  by
  obtain ⟨-, -, -, f0, f1, f2, -⟩ := idx_facts1 t
  unfold iblk1
  rw [View.read_apply]
  show V c main_v14 _ = V c main_v14 _
  congr 1
  funext a
  apply Fin.ext
  match a with
  | ⟨0, _⟩ => show win1_1.index t 0 * 1 + 1 * 0 = t.val / 32; rw [f0]; omega
  | ⟨1, _⟩ => show win1_1.index t 1 * 512 + 1 * j.val = (t.val % 4) * 512 + j.val; rw [f1]; omega
  | ⟨2, _⟩ => show win1_1.index t 2 * 64 + 1 * d.val = d.val; rw [f2]; omega

/-- The value window's block at point `t`: the same rows of its array. -/
theorem iblk1_2_apply (c : Dev nD) (t : Fin cfg1.N) (j : Fin 512) (d : Fin 64) :
    (iblk1 V c 2 t : Vec Ideal S1x512x64 .bf16) (ix3 (0 : Fin 1) j d) = (V c main_v15 : Vec Ideal S32x2048x64 .bf16) (ix3 (bh1 t) (krow1 t j) d) :=
  by
  obtain ⟨-, -, -, -, -, -, f0, f1, f2, -⟩ := idx_facts1 t
  unfold iblk1
  rw [View.read_apply]
  show V c main_v15 _ = V c main_v15 _
  congr 1
  funext a
  apply Fin.ext
  match a with
  | ⟨0, _⟩ => show win1_2.index t 0 * 1 + 1 * 0 = t.val / 32; rw [f0]; omega
  | ⟨1, _⟩ => show win1_2.index t 1 * 512 + 1 * j.val = (t.val % 4) * 512 + j.val; rw [f1]; omega
  | ⟨2, _⟩ => show win1_2.index t 2 * 64 + 1 * d.val = d.val; rw [f2]; omega

/-! ## One block of the output -/

/-- A block that holds, row by row, rows `256 q …` of batch·head `b` of `G`, read at `y`, is `G` at the index with
    those coordinates. -/
theorem blk1_of (X : Vec Ideal S1x256x64 .bf16) (G : Vec Ideal S32x2048x64 .bf16) (b : Fin 32) (q : Nat) (hq : q < 8)
    (h : ∀ (r : Fin 256) (d : Fin 64), X (ix3 (0 : Fin 1) r d) = G (ix3 b (⟨q * 256 + r.val, by have := r.isLt; omega⟩ : Fin 2048) d))
    (y : S1x256x64.Idx) (i : S32x2048x64.Idx) (hi0 : (i 0).val = b.val) (hi1 : (i 1).val = q * 256 + (y 1).val)
    (hi2 : (i 2).val = (y 2).val) : X y = G i := by
  obtain ⟨z, r, d, rfl⟩ : ∃ (z : Fin 1) (r : Fin 256) (d : Fin 64), y = ix3 z r d := ⟨y 0, y 1, y 2, eq_ix3 y⟩
  have hz : z = 0 := Subsingleton.elim _ _
  subst hz
  rw [h r d]
  congr 1
  funext a
  apply Fin.ext
  match a with
  | ⟨0, _⟩ => exact hi0.symm
  | ⟨1, _⟩ => exact hi1.symm
  | ⟨2, _⟩ => exact hi2.symm

/-- An index of the output array is in point `t`'s block iff each coordinate is in the block's range on its axis. -/
theorem mem_blk1 (t : Fin cfg1.N) (i : S32x2048x64.Idx) :
    i ∈ ((cfg1.win 3).blk t).view.set ↔ ∀ a : Fin 3, win1_3.index t a * S1x256x64.size a ≤ (i a).val ∧ (i a).val < win1_3.index t a * S1x256x64.size a + S1x256x64.size a := by
  show i ∈ ((View.whole main_v16).slice (win1_3.rect t)).set ↔ _
  rw [View.set_slice_whole, Rect.mem_set_unit]
  exact Iff.rfl

/-- Every index of the output array is in the block of a point that writes it back: index `(b, s, d)` in the block of
    the last key/value tile of query tile `s / 256` of batch·head `b`. -/
theorem cover1 (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hN : cfg1.N = 1024 := N_1
  let t : Fin cfg1.N := ⟨((i 0).val * 8 + (i 1).val / 256) * 4 + 3, by rw [hN]; omega⟩
  have ht : t.val = ((i 0).val * 8 + (i 1).val / 256) * 4 + 3 := rfl
  obtain ⟨-, -, -, -, -, -, -, -, -, e9, e10, e11⟩ := idx_facts1 t
  refine ⟨t, (flush1_3 t).mpr (by rw [ht]; omega), ?_⟩
  rw [mem_blk1]
  intro a
  match a with
  | ⟨0, _⟩ => show win1_3.index t 0 * 1 ≤ (i 0).val ∧ (i 0).val < win1_3.index t 0 * 1 + 1; rw [e9, ht]; omega
  | ⟨1, _⟩ => show win1_3.index t 1 * 256 ≤ (i 1).val ∧ (i 1).val < win1_3.index t 1 * 256 + 256; rw [e10, ht]; omega
  | ⟨2, _⟩ => show win1_3.index t 2 * 64 ≤ (i 2).val ∧ (i 2).val < win1_3.index t 2 * 64 + 64; rw [e11]; omega

/-! ## The output array from the flushing points' blocks -/

/-- If at every point that writes the output back (the last key/value tile of each query tile) the output's staging
    buffer holds the point's block of `G`, the output array ends holding `G`. -/
theorem arr1_3_of_blocks (c : Dev nD) (G : Vec Ideal S32x2048x64 .bf16)
    (h : ∀ t : Fin cfg1.N, t.val % 4 = 3 → ∀ (r : Fin 256) (d : Fin 64),
      (outsAt1 V c t.val t.isLt).1 (ix3 (0 : Fin 1) r d) = G (ix3 (bh1 t) (qrow1 t r) d)) :
    (dat1 V c).arrAt 3 cfg1.N = G :=
  by
  refine (dat1 V c).arrAt_eq_of_cover 3 G (fun t hf => ?_) cover1
  have h3 : t.val % 4 = 3 := (flush1_3 t).mp hf
  obtain ⟨-, -, -, -, -, -, -, -, -, e9, e10, e11⟩ := idx_facts1 t
  show (cfg1.win 3).cut (grid1.coords t) ((dat1 V c).after 3 t) = _
  rw [after1_3]
  funext y
  rw [View.read_apply]
  have hy0 : (y 0).val < 1 := (y 0).isLt
  refine blk1_of (outsAt1 V c t.val t.isLt).1 G (bh1 t) ((t.val / 4) % 8) (by omega) (h t h3) _ _ ?_ ?_ ?_
  · show win1_3.index t 0 * 1 + 1 * (y 0).val = t.val / 32; rw [e9]; omega
  · show win1_3.index t 1 * 256 + 1 * (y 1).val = (t.val / 4) % 8 * 256 + (y 1).val; rw [e10]; omega
  · show win1_3.index t 2 * 64 + 1 * (y 2).val = (y 2).val; rw [e11]; omega

end Blocks

end Cert.KernelIdeal.Val

end
-- ==== Proof.KiR1Val.lean ====
/- The frame half of kernel region 1, third part: what each case's run leaves in the three carried scratch operands
   and (in the last-tile case) in output 3, as the kernel's payload functions of the input blocks and of what the
   point before left. With q, k, v the query, key and value blocks and m, l, acc the running maximum, running sum
   and accumulator found at the point: the new maximum is `k1_pay3 (k1_pay10 q k m)`, the new sum
   `k1_pay1 (k1_pay13 q k m m l)`, the new accumulator `k1_pay2 (k1_pay8 v) (k1_pay11 q k m m) (k1_pay12 q k m) acc`,
   and at the last tile the output is `k1_pay4` of the new accumulator and the new sum. At the first tile
   m, l, acc are the initial values `k1_pay5`, `k1_pay6`, `k1_pay7` the body stores before reading them back. -/
import proofs.«163282_j10213432230461_2_alg».proof.Proof.KiR1
import Idealize.ShloMosaic.Lib.Pipeline.Value
import Idealize.ShloMosaic.Lib.Tactic

set_option maxRecDepth 16384

noncomputable section

namespace Cert.KernelIdeal.Fr

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]

/-- The zero offset of a rank-3 rectangle, as the constant function. -/
theorem hz3 : (![0, 0, 0] : Fin 3 → Nat) = fun _ => 0 := funext fun a => by fin_cases a <;> rfl

set_option maxHeartbeats 400000 in
/-- Case B (a middle key/value tile): what the body leaves in the running maximum (arg7) — its last covering store's payload, the loads
    it is computed from read off the whole buffers. -/
theorem sout1_B_0_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    sout1_B_0 c i arg3 harg3 arg4 harg4 arg5 harg5 arg6 harg6 arg7 harg7 arg8 harg8 arg9 harg9 hc0 hc1 x0 x1 x2 xs0 xs1 xs2 = k1_pay3 (k1_pay10 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_cons_unit_zero (S := S1x256x1) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

set_option maxHeartbeats 400000 in
/-- Case B (a middle key/value tile): what the body leaves in the running sum (arg8) — its last covering store's payload, the loads
    it is computed from read off the whole buffers. -/
theorem sout1_B_1_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    sout1_B_1 c i arg3 harg3 arg4 harg4 arg5 harg5 arg6 harg6 arg7 harg7 arg8 harg8 arg9 harg9 hc0 hc1 x0 x1 x2 xs0 xs1 xs2 = k1_pay1 (k1_pay13 x0 x1 xs0 xs0 xs1) := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_cons_unit_zero (S := S1x256x1) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

set_option maxHeartbeats 400000 in
/-- Case B (a middle key/value tile): what the body leaves in the accumulator (arg9) — its last covering store's payload, the loads
    it is computed from read off the whole buffers. -/
theorem sout1_B_2_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : ¬cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    sout1_B_2 c i arg3 harg3 arg4 harg4 arg5 harg5 arg6 harg6 arg7 harg7 arg8 harg8 arg9 harg9 hc0 hc1 x0 x1 x2 xs0 xs1 xs2 = k1_pay2 (k1_pay8 x2) (k1_pay11 x0 x1 xs0 xs0) (k1_pay12 x0 x1 xs0) xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_cons_unit_zero (S := S1x256x64) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

set_option maxHeartbeats 400000 in
/-- Case C (the last key/value tile): what the body leaves in the running maximum (arg7) — its last covering store's payload, the loads
    it is computed from read off the whole buffers. -/
theorem sout1_C_0_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    sout1_C_0 c i arg3 harg3 arg4 harg4 arg5 harg5 arg6 harg6 arg7 harg7 arg8 harg8 arg9 harg9 hc0 hc1 x0 x1 x2 xs0 xs1 xs2 = k1_pay3 (k1_pay10 x0 x1 xs0) := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_cons_unit_zero (S := S1x256x1) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

set_option maxHeartbeats 400000 in
/-- Case C (the last key/value tile): what the body leaves in the running sum (arg8) — its last covering store's payload, the loads
    it is computed from read off the whole buffers. -/
theorem sout1_C_1_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    sout1_C_1 c i arg3 harg3 arg4 harg4 arg5 harg5 arg6 harg6 arg7 harg7 arg8 harg8 arg9 harg9 hc0 hc1 x0 x1 x2 xs0 xs1 xs2 = k1_pay1 (k1_pay13 x0 x1 xs0 xs0 xs1) := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_cons_unit_zero (S := S1x256x1) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

set_option maxHeartbeats 400000 in
/-- Case C (the last key/value tile): what the body leaves in the accumulator (arg9) — its last covering store's payload, the loads
    it is computed from read off the whole buffers. -/
theorem sout1_C_2_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    sout1_C_2 c i arg3 harg3 arg4 harg4 arg5 harg5 arg6 harg6 arg7 harg7 arg8 harg8 arg9 harg9 hc0 hc1 x0 x1 x2 xs0 xs1 xs2 = k1_pay2 (k1_pay8 x2) (k1_pay11 x0 x1 xs0 xs0) (k1_pay12 x0 x1 xs0) xs2 := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_cons_unit_zero (S := S1x256x64) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

set_option maxHeartbeats 400000 in
/-- Case A (the first key/value tile): what the body leaves in the running maximum (arg7) — its last covering store's payload, the loads
    it is computed from read off the whole buffers (those of the scratch reading back the initial values stored just before). -/
theorem sout1_A_0_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) :
    sout1_A_0 c i arg3 harg3 arg4 harg4 arg5 harg5 arg6 harg6 arg7 harg7 arg8 harg8 arg9 harg9 hc0 hc1 x0 x1 x2 = k1_pay3 (k1_pay10 x0 x1 (k1_pay5 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1x256x1) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

set_option maxHeartbeats 400000 in
/-- Case A (the first key/value tile): what the body leaves in the running sum (arg8) — its last covering store's payload, the loads
    it is computed from read off the whole buffers (those of the scratch reading back the initial values stored just before). -/
theorem sout1_A_1_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) :
    sout1_A_1 c i arg3 harg3 arg4 harg4 arg5 harg5 arg6 harg6 arg7 harg7 arg8 harg8 arg9 harg9 hc0 hc1 x0 x1 x2 = k1_pay1 (k1_pay13 x0 x1 (k1_pay5 (F := F)) (k1_pay5 (F := F)) (k1_pay6 (F := F))) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1x256x1) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

set_option maxHeartbeats 400000 in
/-- Case A (the first key/value tile): what the body leaves in the accumulator (arg9) — its last covering store's payload, the loads
    it is computed from read off the whole buffers (those of the scratch reading back the initial values stored just before). -/
theorem sout1_A_2_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : cond1_0 i) (hc1 : ¬cond1_1 i)
    (x0 : Vec F S1x256x64 .bf16) (x1 : Vec F S1x512x64 .bf16) (x2 : Vec F S1x512x64 .bf16) :
    sout1_A_2 c i arg3 harg3 arg4 harg4 arg5 harg5 arg6 harg6 arg7 harg7 arg8 harg8 arg9 harg9 hc0 hc1 x0 x1 x2 = k1_pay2 (k1_pay8 x2) (k1_pay11 x0 x1 (k1_pay5 (F := F)) (k1_pay5 (F := F))) (k1_pay12 x0 x1 (k1_pay5 (F := F))) (k1_pay7 (F := F)) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1x256x64) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

set_option maxHeartbeats 400000 in
/-- Case C (the last key/value tile): what the body leaves in output 3's staging buffer — the one covering store
    under the second `scf.if`, its payload computed from the accumulator and the running sum read back after this
    point's stores into them. -/
theorem out1_C_3_eq (c : Dev nD) (i : grid1.Coords) (arg3 : Memref sig .tc .vmem S1x256x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x256x64 .bf16) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S1x256x64 .f32) (harg9 : arg9.IsWhole) (hc0 : ¬cond1_0 i) (hc1 : cond1_1 i)
    (x0 : Vec F S1x256x64 .bf16) (x1 : Vec F S1x512x64 .bf16) (x2 : Vec F S1x512x64 .bf16) (xs0 : Vec F S1x256x1 .f32) (xs1 : Vec F S1x256x1 .f32) (xs2 : Vec F S1x256x64 .f32) :
    out1_C_3 c i arg3 harg3 arg4 harg4 arg5 harg5 arg6 harg6 arg7 harg7 arg8 harg8 arg9 harg9 hc0 hc1 x0 x1 x2 xs0 xs1 xs2 = k1_pay4 (k1_pay2 (k1_pay8 x2) (k1_pay11 x0 x1 xs0 xs0) (k1_pay12 x0 x1 xs0) xs2) (k1_pay1 (k1_pay13 x0 x1 xs0 xs0 xs1)) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_cons_unit_zero (S := S1x256x64) hz3]
  simp only [View.readAt_eq_ld, harg3.read_unread, harg4.read_unread, harg5.read_unread, harg7.read_unread, harg8.read_unread, harg9.read_unread, View.readCov_unit_zero (S := S1x256x1) _ hz3, View.readCov_unit_zero (S := S1x256x64) _ hz3, View.ld_unit_zero (S := S1x256x64) hz3, View.ld_unit_zero (S := S1x512x64) hz3, View.ld_unit_zero (S := S1x256x1) hz3]

end Cert.KernelIdeal.Fr

end
-- ==== Proof.KiPay.lean ====
/-
  The attention body's arithmetic read at an index, on the extended reals.

  One step of the online softmax takes a query block q : [1, 256, 64], a key block k and a value block v : [1, 512, 64],
  and the running maximum m and sum l : [1, 256, 1] and accumulator acc : [1, 256, 64]. For row r:
    s r j   = (∑ d, q r d * k j d) * (1/8)                        the scaled scores of the row against the tile,
    m' r    = max (m r) (the largest of s r j over j),
    l' r    = exp (m r - m' r) * l r + ∑ j, exp (s r j - m' r),
    acc' r d = exp (m r - m' r) * acc r d + ∑ j, exp (s r j - m' r) * v j d,
  and the block written at the last tile is acc' r d / l' r. Changes of float format are the identity here.
-/
import proofs.«163282_j10213432230461_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-- The scale 1/8 the scores are multiplied by. -/
abbrev scaleW : EReal := Ideal.ofBits .f32 0x3E000000#32

/-- The scaled score of query row r against key row j of the tile. -/
def sc (q : FVec Ideal S1x256x64 .bf16) (k : FVec Ideal S1x512x64 .bf16) (r : Fin 256) (j : Fin 512) : EReal :=
  (∑ d : Fin 64, q (ix3 0 r d) * k (ix3 0 j d)) * scaleW

/-- The largest scaled score of row r in the tile (⊥ for an empty fold's start). -/
def rowTop (q : FVec Ideal S1x256x64 .bf16) (k : FVec Ideal S1x512x64 .bf16) (r : Fin 256) : EReal :=
  (Finset.univ : Finset (Fin 512)).fold max (Ideal.ofBits .f32 0xFF800000#32) (sc q k r)

theorem lhsQK_0 (i : S1x256x512.Idx) (p : dot_S1x256x64_S1x512x64_S1x256x512_2_2_1_1_0_0.contr.Idx) :
    (dot_S1x256x64_S1x512x64_S1x256x512_2_2_1_1_0_0.lhsIdx i p 0).val = (i 0).val := by
  unfold DotDims.lhsIdx
  rw [dif_pos (show (0 : Fin S1x256x64.rank) ∈ dot_S1x256x64_S1x512x64_S1x256x512_2_2_1_1_0_0.lhsBatch by decide)]
  rfl
theorem lhsQK_1 (i : S1x256x512.Idx) (p : dot_S1x256x64_S1x512x64_S1x256x512_2_2_1_1_0_0.contr.Idx) :
    (dot_S1x256x64_S1x512x64_S1x256x512_2_2_1_1_0_0.lhsIdx i p 1).val = (i 1).val := by
  unfold DotDims.lhsIdx
  rw [dif_neg (show ¬(1 : Fin S1x256x64.rank) ∈ dot_S1x256x64_S1x512x64_S1x256x512_2_2_1_1_0_0.lhsBatch by decide), dif_pos (show (1 : Fin S1x256x64.rank) ∈ dot_S1x256x64_S1x512x64_S1x256x512_2_2_1_1_0_0.lhsNonContracting by decide)]
  rfl
theorem lhsQK_2 (i : S1x256x512.Idx) (p : dot_S1x256x64_S1x512x64_S1x256x512_2_2_1_1_0_0.contr.Idx) :
    (dot_S1x256x64_S1x512x64_S1x256x512_2_2_1_1_0_0.lhsIdx i p 2).val = (p ⟨0, by decide⟩).val :=
  dot_S1x256x64_S1x512x64_S1x256x512_2_2_1_1_0_0.lhsIdx_val_of_single rfl i p
theorem rhsQK_0 (i : S1x256x512.Idx) (p : dot_S1x256x64_S1x512x64_S1x256x512_2_2_1_1_0_0.contr.Idx) :
    (dot_S1x256x64_S1x512x64_S1x256x512_2_2_1_1_0_0.rhsIdx i p 0).val = (i 0).val := by
  unfold DotDims.rhsIdx
  rw [dif_pos (show (0 : Fin S1x512x64.rank) ∈ dot_S1x256x64_S1x512x64_S1x256x512_2_2_1_1_0_0.rhsBatch by decide)]
  rfl
theorem rhsQK_1 (i : S1x256x512.Idx) (p : dot_S1x256x64_S1x512x64_S1x256x512_2_2_1_1_0_0.contr.Idx) :
    (dot_S1x256x64_S1x512x64_S1x256x512_2_2_1_1_0_0.rhsIdx i p 1).val = (i 2).val := by
  unfold DotDims.rhsIdx
  rw [dif_neg (show ¬(1 : Fin S1x512x64.rank) ∈ dot_S1x256x64_S1x512x64_S1x256x512_2_2_1_1_0_0.rhsBatch by decide), dif_pos (show (1 : Fin S1x512x64.rank) ∈ dot_S1x256x64_S1x512x64_S1x256x512_2_2_1_1_0_0.rhsNonContracting by decide)]
  rfl
theorem rhsQK_2 (i : S1x256x512.Idx) (p : dot_S1x256x64_S1x512x64_S1x256x512_2_2_1_1_0_0.contr.Idx) :
    (dot_S1x256x64_S1x512x64_S1x256x512_2_2_1_1_0_0.rhsIdx i p 2).val = (p ⟨0, by decide⟩).val :=
  dot_S1x256x64_S1x512x64_S1x256x512_2_2_1_1_0_0.rhsIdx_val_of_single rfl i p

theorem lhsQK (b : Fin 1) (r : Fin 256) (j : Fin 512) (p : dot_S1x256x64_S1x512x64_S1x256x512_2_2_1_1_0_0.contr.Idx) (kk : Fin 64)
    (hk : (p ⟨0, by decide⟩).val = kk.val) : dot_S1x256x64_S1x512x64_S1x256x512_2_2_1_1_0_0.lhsIdx (ix3 b r j) p = ix3 b r kk :=
  funext fun a => Fin.ext (by
    match a with
    | ⟨0, _⟩ => exact lhsQK_0 _ _
    | ⟨1, _⟩ => exact lhsQK_1 _ _
    | ⟨2, _⟩ => exact (lhsQK_2 _ _).trans hk)

theorem rhsQK (b : Fin 1) (r : Fin 256) (j : Fin 512) (p : dot_S1x256x64_S1x512x64_S1x256x512_2_2_1_1_0_0.contr.Idx) (kk : Fin 64)
    (hk : (p ⟨0, by decide⟩).val = kk.val) : dot_S1x256x64_S1x512x64_S1x256x512_2_2_1_1_0_0.rhsIdx (ix3 b r j) p = ix3 b j kk :=
  funext fun a => Fin.ext (by
    match a with
    | ⟨0, _⟩ => exact rhsQK_0 _ _
    | ⟨1, _⟩ => exact rhsQK_1 _ _
    | ⟨2, _⟩ => exact (rhsQK_2 _ _).trans hk)

/-- The scaled scores: the payload at (0, r, j). -/
theorem pay9_apply (q : FVec Ideal S1x256x64 .bf16) (k : FVec Ideal S1x512x64 .bf16) (r : Fin 256) (j : Fin 512) :
    k1_pay9 (F := Ideal) q k (ix3 0 r j) = sc q k r j := by
  unfold k1_pay9 sc
  rw [mulf_apply, broadcast_apply, shapeCast_self, shapeCast_self]
  refine congrArg (· * scaleW) ?_
  refine (Ideal.matmul_constant_zero_apply dot_S1x256x64_S1x512x64_S1x256x512_2_2_1_1_0_0 none q k (ix3 0 r j)).trans ?_
  rw [← Equiv.sum_comp (ValueIdx.contrEquiv1 dot_S1x256x64_S1x512x64_S1x256x512_2_2_1_1_0_0 64 rfl rfl).symm]
  refine Finset.sum_congr rfl fun kk _ => ?_
  have hk := ValueIdx.contrEquiv1_symm_val dot_S1x256x64_S1x512x64_S1x256x512_2_2_1_1_0_0 64 rfl rfl kk
  rw [lhsQK 0 r j _ kk hk, rhsQK 0 r j _ kk hk]

/-! ## The largest score of a row, the two exponentials, the running sum -/

theorem lift512 (r : Fin 256) (kk : Fin 512) :
    reduces_S1x256x512_S1x256.lift (ix2 0 r) kk = ix3 0 r kk :=
  funext fun a => Fin.ext (by
    match a with
    | ⟨0, _⟩ => rfl
    | ⟨1, _⟩ => rfl
    | ⟨2, _⟩ => rfl)

theorem cast_col (x : FVec Ideal S1x256 .f32) (r : Fin 256) :
    shapeCast S1x256x1 x shapeCasts_S1x256_S1x256x1 (ix3 0 r 0) = x (ix2 0 r) :=
  shapeCast_apply x shapeCasts_S1x256_S1x256x1 (ix3 0 r 0) (ix2 0 r) (by
    rw [Shape.rowMajor_val_two, Shape.rowMajor_val_three]; simp)

theorem bcast_col512 (x : FVec Ideal S1x256x1 .f32) (r : Fin 256) (j : Fin 512) :
    broadcastTo S1x256x512 x broadcasts_S1x256x1_S1x256x512 (ix3 0 r j) = x (ix3 0 r 0) :=
  broadcastTo_apply x broadcasts_S1x256x1_S1x256x512 (ix3 0 r j) (ix3 0 r 0) (fun a => by
    match a with
    | ⟨0, _⟩ => rfl
    | ⟨1, _⟩ => rfl
    | ⟨2, _⟩ => rfl)

theorem bcast_col64 (x : FVec Ideal S1x256x1 .f32) (r : Fin 256) (d : Fin 64) :
    broadcastTo S1x256x64 x broadcasts_S1x256x1_S1x256x64 (ix3 0 r d) = x (ix3 0 r 0) :=
  broadcastTo_apply x broadcasts_S1x256x1_S1x256x64 (ix3 0 r d) (ix3 0 r 0) (fun a => by
    match a with
    | ⟨0, _⟩ => rfl
    | ⟨1, _⟩ => rfl
    | ⟨2, _⟩ => rfl)

/-- The new running maximum of row r. -/
theorem pay10_apply (q : FVec Ideal S1x256x64 .bf16) (k : FVec Ideal S1x512x64 .bf16) (m : FVec Ideal S1x256x1 .f32) (r : Fin 256) :
    k1_pay10 (F := Ideal) q k m (ix3 0 r 0) = max (m (ix3 0 r 0)) (rowTop q k r) := by
  unfold k1_pay10 rowTop
  rw [maximumf_apply, cast_col]
  refine congrArg (max (m (ix3 0 r 0))) ?_
  refine (Ideal.multiReduction_maximumf_single (k1_pay9 (F := Ideal) q k) 0xFF800000#32 reduces_S1x256x512_S1x256 (.inl rfl) rfl (ix2 0 r)).trans ?_
  refine congrArg (fun f : Fin 512 → EReal => (Finset.univ : Finset (Fin 512)).fold max (Ideal.ofBits .f32 0xFF800000#32) f) ?_
  funext kk
  exact (congrArg (k1_pay9 (F := Ideal) q k) (lift512 r kk)).trans (pay9_apply q k r kk)

/-- The factor that rescales what the earlier tiles left in row r. -/
theorem pay11_apply (q : FVec Ideal S1x256x64 .bf16) (k : FVec Ideal S1x512x64 .bf16) (m m' : FVec Ideal S1x256x1 .f32) (r : Fin 256) :
    k1_pay11 (F := Ideal) q k m m' (ix3 0 r 0) = Ideal.exp (m' (ix3 0 r 0) - k1_pay10 (F := Ideal) q k m (ix3 0 r 0)) := rfl

/-- The weight of key row j of the tile for query row r. -/
theorem pay12_apply (q : FVec Ideal S1x256x64 .bf16) (k : FVec Ideal S1x512x64 .bf16) (m : FVec Ideal S1x256x1 .f32) (r : Fin 256) (j : Fin 512) :
    k1_pay12 (F := Ideal) q k m (ix3 0 r j) = Ideal.exp (sc q k r j - k1_pay10 (F := Ideal) q k m (ix3 0 r 0)) := by
  unfold k1_pay12
  show Ideal.exp (k1_pay9 (F := Ideal) q k (ix3 0 r j) - broadcastTo S1x256x512 (k1_pay10 (F := Ideal) q k m) broadcasts_S1x256x1_S1x256x512 (ix3 0 r j)) = _
  rw [pay9_apply, bcast_col512]

/-- The new running sum of row r. -/
theorem pay13_apply (q : FVec Ideal S1x256x64 .bf16) (k : FVec Ideal S1x512x64 .bf16) (m m' l : FVec Ideal S1x256x1 .f32) (r : Fin 256) :
    k1_pay13 (F := Ideal) q k m m' l (ix3 0 r 0)
      = k1_pay11 (F := Ideal) q k m m' (ix3 0 r 0) * l (ix3 0 r 0) + ∑ j : Fin 512, k1_pay12 (F := Ideal) q k m (ix3 0 r j) := by
  unfold k1_pay13
  rw [addf_apply, mulf_apply, cast_col]
  refine congrArg (k1_pay11 (F := Ideal) q k m m' (ix3 0 r 0) * l (ix3 0 r 0) + ·) ?_
  refine (Ideal.multiReduction_add_single (k1_pay12 (F := Ideal) q k m) 0x00000000#32 reduces_S1x256x512_S1x256 (.inl rfl) rfl (ix2 0 r)).trans ?_
  exact Finset.sum_congr rfl fun kk _ => congrArg (k1_pay12 (F := Ideal) q k m) (lift512 r kk)

/-! ## The accumulator step and the block written at the last tile -/

theorem lhsPV_0 (i : S1x256x64.Idx) (p : dot_S1x256x512_S1x512x64_S1x256x64_2_1_1_2_0_0.contr.Idx) :
    (dot_S1x256x512_S1x512x64_S1x256x64_2_1_1_2_0_0.lhsIdx i p 0).val = (i 0).val := by
  unfold DotDims.lhsIdx
  rw [dif_pos (show (0 : Fin S1x256x512.rank) ∈ dot_S1x256x512_S1x512x64_S1x256x64_2_1_1_2_0_0.lhsBatch by decide)]
  rfl
theorem lhsPV_1 (i : S1x256x64.Idx) (p : dot_S1x256x512_S1x512x64_S1x256x64_2_1_1_2_0_0.contr.Idx) :
    (dot_S1x256x512_S1x512x64_S1x256x64_2_1_1_2_0_0.lhsIdx i p 1).val = (i 1).val := by
  unfold DotDims.lhsIdx
  rw [dif_neg (show ¬(1 : Fin S1x256x512.rank) ∈ dot_S1x256x512_S1x512x64_S1x256x64_2_1_1_2_0_0.lhsBatch by decide), dif_pos (show (1 : Fin S1x256x512.rank) ∈ dot_S1x256x512_S1x512x64_S1x256x64_2_1_1_2_0_0.lhsNonContracting by decide)]
  rfl
theorem lhsPV_2 (i : S1x256x64.Idx) (p : dot_S1x256x512_S1x512x64_S1x256x64_2_1_1_2_0_0.contr.Idx) :
    (dot_S1x256x512_S1x512x64_S1x256x64_2_1_1_2_0_0.lhsIdx i p 2).val = (p ⟨0, by decide⟩).val :=
  dot_S1x256x512_S1x512x64_S1x256x64_2_1_1_2_0_0.lhsIdx_val_of_single rfl i p
theorem rhsPV_0 (i : S1x256x64.Idx) (p : dot_S1x256x512_S1x512x64_S1x256x64_2_1_1_2_0_0.contr.Idx) :
    (dot_S1x256x512_S1x512x64_S1x256x64_2_1_1_2_0_0.rhsIdx i p 0).val = (i 0).val := by
  unfold DotDims.rhsIdx
  rw [dif_pos (show (0 : Fin S1x512x64.rank) ∈ dot_S1x256x512_S1x512x64_S1x256x64_2_1_1_2_0_0.rhsBatch by decide)]
  rfl
theorem rhsPV_1 (i : S1x256x64.Idx) (p : dot_S1x256x512_S1x512x64_S1x256x64_2_1_1_2_0_0.contr.Idx) :
    (dot_S1x256x512_S1x512x64_S1x256x64_2_1_1_2_0_0.rhsIdx i p 1).val = (p ⟨0, by decide⟩).val :=
  dot_S1x256x512_S1x512x64_S1x256x64_2_1_1_2_0_0.rhsIdx_val_of_single rfl i p
theorem rhsPV_2 (i : S1x256x64.Idx) (p : dot_S1x256x512_S1x512x64_S1x256x64_2_1_1_2_0_0.contr.Idx) :
    (dot_S1x256x512_S1x512x64_S1x256x64_2_1_1_2_0_0.rhsIdx i p 2).val = (i 2).val := by
  unfold DotDims.rhsIdx
  rw [dif_neg (show ¬(2 : Fin S1x512x64.rank) ∈ dot_S1x256x512_S1x512x64_S1x256x64_2_1_1_2_0_0.rhsBatch by decide), dif_pos (show (2 : Fin S1x512x64.rank) ∈ dot_S1x256x512_S1x512x64_S1x256x64_2_1_1_2_0_0.rhsNonContracting by decide)]
  rfl

theorem lhsPV (b : Fin 1) (r : Fin 256) (d : Fin 64) (p : dot_S1x256x512_S1x512x64_S1x256x64_2_1_1_2_0_0.contr.Idx) (kk : Fin 512)
    (hk : (p ⟨0, by decide⟩).val = kk.val) : dot_S1x256x512_S1x512x64_S1x256x64_2_1_1_2_0_0.lhsIdx (ix3 b r d) p = ix3 b r kk :=
  funext fun a => Fin.ext (by
    match a with
    | ⟨0, _⟩ => exact lhsPV_0 _ _
    | ⟨1, _⟩ => exact lhsPV_1 _ _
    | ⟨2, _⟩ => exact (lhsPV_2 _ _).trans hk)

theorem rhsPV (b : Fin 1) (r : Fin 256) (d : Fin 64) (p : dot_S1x256x512_S1x512x64_S1x256x64_2_1_1_2_0_0.contr.Idx) (kk : Fin 512)
    (hk : (p ⟨0, by decide⟩).val = kk.val) : dot_S1x256x512_S1x512x64_S1x256x64_2_1_1_2_0_0.rhsIdx (ix3 b r d) p = ix3 b kk d :=
  funext fun a => Fin.ext (by
    match a with
    | ⟨0, _⟩ => exact rhsPV_0 _ _
    | ⟨1, _⟩ => exact (rhsPV_1 _ _).trans hk
    | ⟨2, _⟩ => exact rhsPV_2 _ _)

/-- The new accumulator of row r, feature d. -/
theorem pay2_apply (vv : FVec Ideal S1x512x64 .bf16) (a : FVec Ideal S1x256x1 .f32) (p : FVec Ideal S1x256x512 .f32)
    (acc : FVec Ideal S1x256x64 .f32) (r : Fin 256) (d : Fin 64) :
    k1_pay2 (F := Ideal) vv a p acc (ix3 0 r d)
      = a (ix3 0 r 0) * acc (ix3 0 r d) + ∑ j : Fin 512, p (ix3 0 r j) * vv (ix3 0 j d) := by
  unfold k1_pay2
  rw [shapeCast_self, addf_apply, mulf_apply, bcast_col64]
  refine congrArg (a (ix3 0 r 0) * acc (ix3 0 r d) + ·) ?_
  refine (Ideal.matmul_constant_zero_apply dot_S1x256x512_S1x512x64_S1x256x64_2_1_1_2_0_0 none (truncf .bf16 p bitsLt_bf16_f32) vv (ix3 0 r d)).trans ?_
  rw [← Equiv.sum_comp (ValueIdx.contrEquiv1 dot_S1x256x512_S1x512x64_S1x256x64_2_1_1_2_0_0 512 rfl rfl).symm]
  refine Finset.sum_congr rfl fun kk _ => ?_
  have hk := ValueIdx.contrEquiv1_symm_val dot_S1x256x512_S1x512x64_S1x256x64_2_1_1_2_0_0 512 rfl rfl kk
  rw [lhsPV 0 r d _ kk hk, rhsPV 0 r d _ kk hk, truncf_apply]

/-- The block written at the last tile: the accumulator over the running sum. -/
theorem pay4_apply (acc : FVec Ideal S1x256x64 .f32) (l : FVec Ideal S1x256x1 .f32) (r : Fin 256) (d : Fin 64) :
    k1_pay4 (F := Ideal) acc l (ix3 0 r d) = Ideal.div (acc (ix3 0 r d)) (l (ix3 0 r 0)) := by
  unfold k1_pay4
  rw [truncf_apply, divf_apply, bcast_col64]

/-! ## What the first tile starts from, and the stores that only change the spelling -/

theorem pay5_apply (i : S1x256x1.Idx) : k1_pay5 (F := Ideal) i = ⊥ := by
  unfold k1_pay5; rw [shapeCast_self, broadcast_apply]
  show Ideal.ofBits .f32 0xFF800000#32 = ⊥
  simp [Ideal.ofBits, Ideal.ieee]

theorem pay6_apply (i : S1x256x1.Idx) : k1_pay6 (F := Ideal) i = 0 := by
  unfold k1_pay6; rw [shapeCast_self, broadcast_apply]
  exact Ideal.ofBits_zero_f32

theorem pay7_apply (i : S1x256x64.Idx) : k1_pay7 (F := Ideal) i = 0 := by
  unfold k1_pay7; rw [shapeCast_self, broadcast_apply]
  exact Ideal.ofBits_zero_f32

theorem pay1_eq (x : FVec Ideal S1x256x1 .f32) : k1_pay1 (F := Ideal) x = x := shapeCast_self _ _
theorem pay3_eq (x : FVec Ideal S1x256x1 .f32) : k1_pay3 (F := Ideal) x = x := shapeCast_self _ _
theorem pay8_eq (x : FVec Ideal S1x512x64 .bf16) : k1_pay8 (F := Ideal) x = x := shapeCast_self _ _

theorem rowTop_bot (q : FVec Ideal S1x256x64 .bf16) (k : FVec Ideal S1x512x64 .bf16) (r : Fin 256) :
    rowTop q k r = (Finset.univ : Finset (Fin 512)).fold max ⊥ (sc q k r) := by
  unfold rowTop
  rw [show Ideal.ofBits .f32 0xFF800000#32 = (⊥ : EReal) by simp [Ideal.ofBits, Ideal.ieee]]

end Cert.KernelIdeal.Val

end
-- ==== Proof.LibOnlineLogSumExp.lean ====
/-
  The running maximum and running sum of a softmax computed tile by tile, on the extended reals.

  A row of scores arrives in tiles s 0, s 1, … (a tile is a finite family of extended reals; an entry ⊥ is a
  masked position). A streaming log-sum-exp keeps a pair (m, l), starts at (⊥, 0) and, at tile n whose largest
  entry is c n, moves to
      m' = max m (c n),    l' = exp (m - m') * l + ∑ j, exp (s n j - m').
  When each of the first n + 1 tiles has a real largest entry (so none of their entries is ⊤), after those tiles m is the largest entry M of all
  tiles so far, a real number, and l is the real number ∑ exp (s k j - M) over all of them, which is positive:
  rescaling the old sum by exp (m - m') turns each exp (a - m) into exp (a - m') (the exponential of a sum), a
  masked entry contributes exp ⊥ = 0 before and after, and the first step multiplies the empty sum 0 by exp ⊥ = 0.
  For real x, M and positive real L also x - (M + log L) = (x - M) - log L: the one-pass result is the two-pass one.
-/
import Idealize.ShloMosaic.PureOps.Ideal

noncomputable section

namespace Cert.Lib.OnlineLogSumExp

open Idealize.ShloMosaic Finset

/-- The coercion of a finite real sum is the sum of the coercions. -/
theorem coe_sum {ι : Type} (t : Finset ι) (f : ι → ℝ) :
    ((∑ i ∈ t, f i : ℝ) : EReal) = ∑ i ∈ t, ((f i : ℝ) : EReal) := by
  classical
  refine Finset.induction_on t (by simp) ?_
  intro a t ha ih
  rw [Finset.sum_insert ha, Finset.sum_insert ha, EReal.coe_add, ih]

theorem exp_coe (r : ℝ) : Ideal.exp (r : EReal) = ((Real.exp r : ℝ) : EReal) := rfl

theorem exp_bot : Ideal.exp ⊥ = 0 := rfl

theorem log_coe_pos (r : ℝ) (h : 0 < r) : Ideal.log (r : EReal) = ((Real.log r : ℝ) : EReal) := by
  show (if r ≤ 0 then (⊥ : EReal) else ((Real.log r : ℝ) : EReal)) = _
  rw [if_neg (not_le.2 h)]

/-- exp (a - M) as a real number: 0 for a masked entry a = ⊥. -/
def term (a : EReal) (M : ℝ) : ℝ := (Ideal.exp (a - (M : EReal))).toReal

theorem term_bot (M : ℝ) : term ⊥ M = 0 := by
  unfold term; rw [EReal.bot_sub, exp_bot, EReal.toReal_zero]

theorem term_coe (r M : ℝ) : term (r : EReal) M = Real.exp (r - M) := by
  unfold term; rw [← EReal.coe_sub, exp_coe, EReal.toReal_coe]

theorem term_self (M : ℝ) : term (M : EReal) M = 1 := by
  rw [term_coe, sub_self, Real.exp_zero]

theorem term_nonneg (a : EReal) (M : ℝ) (ha : a ≠ ⊤) : 0 ≤ term a M := by
  induction a using EReal.rec with
  | bot => rw [term_bot]
  | coe r => rw [term_coe]; exact (Real.exp_pos _).le
  | top => exact absurd rfl ha

/-- For an entry that is not ⊤, exp (a - M) on the extended reals is the coercion of the real number term a M. -/
theorem exp_sub_eq_term (a : EReal) (ha : a ≠ ⊤) (M : ℝ) :
    Ideal.exp (a - (M : EReal)) = ((term a M : ℝ) : EReal) := by
  induction a using EReal.rec with
  | bot => rw [term_bot, EReal.bot_sub, exp_bot, EReal.coe_zero]
  | coe r => rw [term_coe, ← EReal.coe_sub, exp_coe]
  | top => exact absurd rfl ha

/-- Moving the reference point from M to M' rescales every term by exp (M - M'). -/
theorem term_rescale (a : EReal) (ha : a ≠ ⊤) (M M' : ℝ) :
    Real.exp (M - M') * term a M = term a M' := by
  induction a using EReal.rec with
  | bot => rw [term_bot, term_bot, mul_zero]
  | coe r => rw [term_coe, term_coe, ← Real.exp_add]; congr 1; ring
  | top => exact absurd rfl ha

variable {J : Type} [Fintype J]

/-- The streaming pair (running maximum, running sum) after n tiles. -/
def run (s : ℕ → J → EReal) (c : ℕ → EReal) : ℕ → EReal × EReal
  | 0 => (⊥, 0)
  | n + 1 =>
    (max (run s c n).1 (c n),
      Ideal.exp ((run s c n).1 - max (run s c n).1 (c n)) * (run s c n).2
        + ∑ j, Ideal.exp (s n j - max (run s c n).1 (c n)))

theorem ne_top_of_le_coe {a : EReal} {r : ℝ} (h : a ≤ (r : EReal)) : a ≠ ⊤ := by
  intro e; rw [e] at h; exact absurd (top_le_iff.1 h) (EReal.coe_ne_top r)

/-- After n + 1 tiles, each with a real largest entry c k (an upper bound of the tile that some entry attains), the
    running maximum is a real M that bounds every entry so far and is attained, and the running sum is the real
    sum of exp (s k j - M) over all entries so far. Only the tiles 0 … n are asked anything. -/
theorem run_spec (s : ℕ → J → EReal) (c : ℕ → EReal) (n : ℕ) (hub : ∀ k ≤ n, ∀ j, s k j ≤ c k)
    (hatt : ∀ k ≤ n, ∃ j, s k j = c k) (hreal : ∀ k ≤ n, ∃ r : ℝ, c k = (r : EReal)) :
    ∃ M : ℝ, (run s c (n + 1)).1 = (M : EReal) ∧ (∀ k ≤ n, ∀ j, s k j ≤ (M : EReal))
      ∧ (∃ k ≤ n, ∃ j, s k j = (M : EReal))
      ∧ (run s c (n + 1)).2 = ((∑ k ∈ range (n + 1), ∑ j, term (s k j) M : ℝ) : EReal) := by
  induction n with
  | zero =>
    have hnt : ∀ j, s 0 j ≠ ⊤ := fun j => by
      obtain ⟨r, hr⟩ := hreal 0 le_rfl
      exact ne_top_of_le_coe (hr ▸ hub 0 le_rfl j)
    obtain ⟨r, hr⟩ := hreal 0 le_rfl
    have hm : max (⊥ : EReal) (c 0) = (r : EReal) := by rw [hr]; exact max_eq_right bot_le
    refine ⟨r, ?_, ?_, ?_, ?_⟩
    · show max (⊥ : EReal) (c 0) = _
      exact hm
    · intro k hk j
      obtain rfl : k = 0 := Nat.le_zero.1 hk
      exact hr ▸ hub 0 le_rfl j
    · obtain ⟨j, hj⟩ := hatt 0 le_rfl
      exact ⟨0, le_rfl, j, hj.trans hr⟩
    · show Ideal.exp ((⊥ : EReal) - max (⊥ : EReal) (c 0)) * (0 : EReal) + ∑ j, Ideal.exp (s 0 j - max (⊥ : EReal) (c 0)) = _
      rw [hm, mul_zero, zero_add, Finset.sum_range_one, coe_sum]
      exact Finset.sum_congr rfl fun j _ => exp_sub_eq_term _ (hnt j) r
  | succ n ih =>
    have hnt : ∀ k ≤ n + 1, ∀ j, s k j ≠ ⊤ := fun k hk j => by
      obtain ⟨r, hr⟩ := hreal k hk
      exact ne_top_of_le_coe (hr ▸ hub k hk j)
    obtain ⟨M, h1, h2, h3, h4⟩ := ih (fun k hk => hub k (Nat.le_succ_of_le hk)) (fun k hk => hatt k (Nat.le_succ_of_le hk))
      (fun k hk => hreal k (Nat.le_succ_of_le hk))
    obtain ⟨r, hr⟩ := hreal (n + 1) le_rfl
    have hm : max (run s c (n + 1)).1 (c (n + 1)) = ((max M r : ℝ) : EReal) := by
      rw [h1, hr]; exact (EReal.coe_strictMono.monotone.map_max).symm
    refine ⟨max M r, ?_, ?_, ?_, ?_⟩
    · show max (run s c (n + 1)).1 (c (n + 1)) = _
      exact hm
    · intro k hk j
      rcases Nat.lt_or_ge k (n + 1) with hlt | hge
      · exact (h2 k (Nat.lt_succ_iff.1 hlt) j).trans (EReal.coe_le_coe_iff.2 (le_max_left M r))
      · obtain rfl : k = n + 1 := le_antisymm hk hge
        exact (hr ▸ hub (n + 1) le_rfl j).trans (EReal.coe_le_coe_iff.2 (le_max_right M r))
    · rcases le_total M r with hle | hle
      · obtain ⟨j, hj⟩ := hatt (n + 1) le_rfl
        exact ⟨n + 1, le_rfl, j, by rw [hj, hr, max_eq_right hle]⟩
      · obtain ⟨k, hk, j, hj⟩ := h3
        exact ⟨k, Nat.le_succ_of_le hk, j, by rw [hj, max_eq_left hle]⟩
    · show Ideal.exp ((run s c (n + 1)).1 - max (run s c (n + 1)).1 (c (n + 1))) * (run s c (n + 1)).2
          + ∑ j, Ideal.exp (s (n + 1) j - max (run s c (n + 1)).1 (c (n + 1))) = _
      rw [hm, h1, h4, ← EReal.coe_sub, exp_coe, ← EReal.coe_mul, Finset.sum_range_succ _ (n + 1), EReal.coe_add,
        coe_sum (Finset.univ) (fun j => term (s (n + 1) j) (max M r))]
      congr 1
      · congr 1
        rw [Finset.mul_sum]
        refine Finset.sum_congr rfl fun k hk => ?_
        rw [Finset.mul_sum]
        exact Finset.sum_congr rfl fun j _ =>
          term_rescale _ (hnt k (Nat.le_succ_of_le (Nat.lt_succ_iff.1 (Finset.mem_range.1 hk))) j) M (max M r)
      · exact Finset.sum_congr rfl fun j _ => exp_sub_eq_term _ (hnt (n + 1) le_rfl j) (max M r)

/-- The sum of the terms is positive when some entry attains the reference point M and no entry so far is ⊤. -/
theorem sum_term_pos (s : ℕ → J → EReal) (n : ℕ) (M : ℝ) (hnt : ∀ k ≤ n, ∀ j, s k j ≠ ⊤)
    (hatt : ∃ k ≤ n, ∃ j, s k j = (M : EReal)) : 0 < ∑ k ∈ range (n + 1), ∑ j, term (s k j) M := by
  obtain ⟨k, hk, j, hj⟩ := hatt
  have h0 : ∀ k' ∈ range (n + 1), 0 ≤ ∑ j, term (s k' j) M := fun k' hk' =>
    Finset.sum_nonneg fun j _ => term_nonneg _ _ (hnt k' (Nat.lt_succ_iff.1 (Finset.mem_range.1 hk')) j)
  refine lt_of_lt_of_le ?_ (Finset.single_le_sum h0 (Finset.mem_range.2 (Nat.lt_succ_of_le hk)))
  refine lt_of_lt_of_le ?_ (Finset.single_le_sum (fun j _ => term_nonneg _ _ (hnt k hk j)) (Finset.mem_univ j))
  rw [hj, term_self]; exact one_pos

/-- The one-pass result x - (M + log L) is the two-pass result (x - M) - log L, for real x, M and positive real L. -/
theorem sub_lse_eq (x M L : ℝ) (hL : 0 < L) :
    (x : EReal) - ((M : EReal) + Ideal.log (L : EReal)) = ((x : EReal) - (M : EReal)) - Ideal.log (L : EReal) := by
  rw [log_coe_pos L hL, ← EReal.coe_add, ← EReal.coe_sub, ← EReal.coe_sub, ← EReal.coe_sub]
  congr 1; ring

end Cert.Lib.OnlineLogSumExp

end
-- ==== Proof.LibOnlineAttention.lean ====
/-
  The running weighted sum of an attention row computed tile by tile, on the extended reals.

  A row of scores arrives in tiles s 0, s 1, … together with value entries v 0, v 1, … (one extended real per
  position; one feature of the value rows). Beside the streaming pair (m, l) of the log-sum-exp, an online
  attention keeps an accumulator acc, starts it at 0 and, at tile n whose largest entry is c n, moves to
      m' = max m (c n),    acc' = exp (m - m') * acc + ∑ j, exp (s n j - m') * v n j.
  When each of the first n + 1 tiles has a real largest entry and real values, after those tiles m is the largest
  entry M of all tiles so far and acc is the real number ∑ exp (s k j - M) * v k j over all of them: rescaling the
  old accumulator by exp (m - m') turns each exp (a - m) * x into exp (a - m') * x (the exponential of a sum), a
  masked entry contributes exp ⊥ * x = 0 before and after, and the first step multiplies the empty sum 0 by
  exp ⊥ = 0. Together with the running sum l = ∑ exp (s k j - M) the quotient acc / l is the softmax-weighted
  mean of the values.
-/
import proofs.«163282_j10213432230461_2_alg».proof.Proof.LibOnlineLogSumExp

noncomputable section

namespace Cert.Lib.OnlineAttention

open Idealize.ShloMosaic Finset
open Cert.Lib.OnlineLogSumExp (coe_sum exp_coe exp_bot term term_rescale exp_sub_eq_term run run_spec ne_top_of_le_coe)

variable {J : Type} [Fintype J]

/-- The streaming accumulator after n tiles: the old accumulator rescaled to the new running maximum, plus the new
    tile's weighted values. -/
def runAcc (s : ℕ → J → EReal) (c : ℕ → EReal) (v : ℕ → J → EReal) : ℕ → EReal
  | 0 => 0
  | n + 1 =>
    Ideal.exp ((OnlineLogSumExp.run s c n).1 - max (OnlineLogSumExp.run s c n).1 (c n)) * runAcc s c v n
      + ∑ j, Ideal.exp (s n j - max (OnlineLogSumExp.run s c n).1 (c n)) * v n j

/-- After n + 1 tiles, when the running maximum is the real number M, the accumulator is the real sum of
    exp (s k j - M) * v k j over all entries so far. -/
theorem runAcc_eq (s : ℕ → J → EReal) (c : ℕ → EReal) (v : ℕ → J → EReal) (vr : ℕ → J → ℝ) (n : ℕ)
    (hub : ∀ k ≤ n, ∀ j, s k j ≤ c k) (hatt : ∀ k ≤ n, ∃ j, s k j = c k)
    (hreal : ∀ k ≤ n, ∃ r : ℝ, c k = (r : EReal)) (hv : ∀ k ≤ n, ∀ j, v k j = ((vr k j : ℝ) : EReal))
    (M : ℝ) (hM : (OnlineLogSumExp.run s c (n + 1)).1 = (M : EReal)) :
    runAcc s c v (n + 1) = ((∑ k ∈ range (n + 1), ∑ j, term (s k j) M * vr k j : ℝ) : EReal) := by
  induction n generalizing M with
  | zero =>
    have hnt : ∀ j, s 0 j ≠ ⊤ := fun j => by
      obtain ⟨r, hr⟩ := hreal 0 le_rfl
      exact ne_top_of_le_coe (hr ▸ hub 0 le_rfl j)
    have hm : max (⊥ : EReal) (c 0) = (M : EReal) := hM
    show Ideal.exp ((⊥ : EReal) - max (⊥ : EReal) (c 0)) * (0 : EReal)
        + ∑ j, Ideal.exp (s 0 j - max (⊥ : EReal) (c 0)) * v 0 j = _
    rw [hm, mul_zero, zero_add, Finset.sum_range_one, coe_sum]
    refine Finset.sum_congr rfl fun j _ => ?_
    rw [exp_sub_eq_term _ (hnt j) M, hv 0 le_rfl j, ← EReal.coe_mul]
  | succ n ih =>
    have hnt : ∀ k ≤ n + 1, ∀ j, s k j ≠ ⊤ := fun k hk j => by
      obtain ⟨r, hr⟩ := hreal k hk
      exact ne_top_of_le_coe (hr ▸ hub k hk j)
    obtain ⟨M0, h1, -, -, -⟩ := run_spec s c n (fun k hk => hub k (Nat.le_succ_of_le hk))
      (fun k hk => hatt k (Nat.le_succ_of_le hk)) (fun k hk => hreal k (Nat.le_succ_of_le hk))
    have ih0 := ih (fun k hk => hub k (Nat.le_succ_of_le hk)) (fun k hk => hatt k (Nat.le_succ_of_le hk))
      (fun k hk => hreal k (Nat.le_succ_of_le hk)) (fun k hk => hv k (Nat.le_succ_of_le hk)) M0 h1
    have hm : max (run s c (n + 1)).1 (c (n + 1)) = (M : EReal) := hM
    show Ideal.exp ((run s c (n + 1)).1 - max (run s c (n + 1)).1 (c (n + 1))) * runAcc s c v (n + 1)
        + ∑ j, Ideal.exp (s (n + 1) j - max (run s c (n + 1)).1 (c (n + 1))) * v (n + 1) j = _
    rw [hm, h1, ih0, ← EReal.coe_sub, exp_coe, ← EReal.coe_mul, Finset.sum_range_succ _ (n + 1), EReal.coe_add,
      coe_sum (Finset.univ) (fun j => term (s (n + 1) j) M * vr (n + 1) j)]
    congr 1
    · congr 1
      rw [Finset.mul_sum]
      refine Finset.sum_congr rfl fun k hk => ?_
      rw [Finset.mul_sum]
      refine Finset.sum_congr rfl fun j _ => ?_
      rw [← mul_assoc,
        term_rescale _ (hnt k (Nat.le_succ_of_le (Nat.lt_succ_iff.1 (Finset.mem_range.1 hk))) j) M0 M]
    · refine Finset.sum_congr rfl fun j _ => ?_
      rw [exp_sub_eq_term _ (hnt (n + 1) le_rfl j) M, hv (n + 1) le_rfl j, ← EReal.coe_mul]

/-- After n + 1 tiles, each with a real largest entry c k (an upper bound of the tile that some entry attains) and
    real values, the running maximum is a real M that bounds every entry so far and is attained, the running sum
    is the real sum of exp (s k j - M), and the accumulator is the real sum of exp (s k j - M) * v k j, over all
    entries so far. Only the tiles 0 … n are asked anything. -/
theorem runAcc_spec (s : ℕ → J → EReal) (c : ℕ → EReal) (v : ℕ → J → EReal) (vr : ℕ → J → ℝ) (n : ℕ)
    (hub : ∀ k ≤ n, ∀ j, s k j ≤ c k) (hatt : ∀ k ≤ n, ∃ j, s k j = c k)
    (hreal : ∀ k ≤ n, ∃ r : ℝ, c k = (r : EReal)) (hv : ∀ k ≤ n, ∀ j, v k j = ((vr k j : ℝ) : EReal)) :
    ∃ M : ℝ, (OnlineLogSumExp.run s c (n + 1)).1 = (M : EReal) ∧ (∀ k ≤ n, ∀ j, s k j ≤ (M : EReal))
      ∧ (∃ k ≤ n, ∃ j, s k j = (M : EReal))
      ∧ (OnlineLogSumExp.run s c (n + 1)).2
          = ((∑ k ∈ Finset.range (n + 1), ∑ j, OnlineLogSumExp.term (s k j) M : ℝ) : EReal)
      ∧ runAcc s c v (n + 1)
          = ((∑ k ∈ Finset.range (n + 1), ∑ j, OnlineLogSumExp.term (s k j) M * vr k j : ℝ) : EReal) := by
  obtain ⟨M, h1, h2, h3, h4⟩ := run_spec s c n hub hatt hreal
  exact ⟨M, h1, h2, h3, h4, runAcc_eq s c v vr n hub hatt hreal hv M h1⟩

end Cert.Lib.OnlineAttention

end
-- ==== Proof.LibTileSum.lean ====
/-
  A sum over a long axis, taken tile by tile.

  For a function `f` of a natural number with values in any commutative additive monoid (the extended reals
  below), adding up `T` consecutive tiles of `K` terms each is adding up the first `T * K` terms: only
  associativity of the sum is used, so nothing is asked of the terms (they may be infinite).
-/
import Mathlib.Algebra.BigOperators.Fin
import Mathlib.Algebra.BigOperators.Intervals

namespace Cert.TileSum

open Finset

/-- `T` tiles of `K` consecutive terms, summed tile by tile, are the first `T * K` terms summed once. -/
theorem sum_tiles {M : Type*} [AddCommMonoid M] (K : ℕ) (f : ℕ → M) :
    ∀ T : ℕ, ∑ s ∈ range T, ∑ kk : Fin K, f (K * s + kk.val) = ∑ k : Fin (T * K), f k.val
  | 0 => by
    rw [Finset.sum_range_zero, ← Finset.sum_range (fun k => f k), Nat.zero_mul, Finset.sum_range_zero]
  | T + 1 => by
    rw [Finset.sum_range_succ, sum_tiles K f T, ← Finset.sum_range (fun k => f k),
      ← Finset.sum_range (fun k => f k), ← Finset.sum_range (fun kk => f (K * T + kk)),
      Nat.succ_mul, Finset.sum_range_add, Nat.mul_comm K T]

end Cert.TileSum
-- ==== Proof.Spec.lean ====
/-
  Multi-head self-attention over the real numbers, as one function of the five argument arrays.

  x : [2, 2048, 1024] tokens, wq : [1024, 3072] and bq : [3072] the joint query / key / value projection,
  wo : [1024, 1024] and bo : [1024] the output projection. Sixteen heads of width 64: column p * 1024 + h * 64 + d of
  the joint projection is feature d of head h of part p (0 query, 1 key, 2 value). For batch b and head h the score
  of query row s against key row j is the dot product of their 64 features divided by 8 (the square root of the head
  width); a row of scores is turned into weights by the softmax taken at the row's largest score; the head's output
  row is the weighted sum of the value rows; the heads' outputs side by side (column h * 64 + d) go through the output
  projection.
-/
import Mathlib

noncomputable section

namespace Cert.AttnSpec

open Finset

/-- The joint projection: row (b, s) of x times wq, plus the bias. -/
def qkv (x : Fin 2 → Fin 2048 → Fin 1024 → ℝ) (wq : Fin 1024 → Fin 3072 → ℝ) (bq : Fin 3072 → ℝ)
    (b : Fin 2) (s : Fin 2048) (e : Fin 3072) : ℝ :=
  ∑ d : Fin 1024, x b s d * wq d e + bq e

/-- Column of the joint projection holding feature d of head h of part p. -/
def col (p : Fin 3) (h : Fin 16) (d : Fin 64) : Fin 3072 :=
  ⟨p.val * 1024 + h.val * 64 + d.val, by have := p.isLt; have := h.isLt; have := d.isLt; omega⟩

/-- Part p (query, key, value) of batch b, head h: a [2048, 64] matrix. -/
def part (x : Fin 2 → Fin 2048 → Fin 1024 → ℝ) (wq : Fin 1024 → Fin 3072 → ℝ) (bq : Fin 3072 → ℝ)
    (p : Fin 3) (b : Fin 2) (h : Fin 16) (s : Fin 2048) (d : Fin 64) : ℝ :=
  qkv x wq bq b s (col p h d)

/-- Scaled scores of one head: query row s against key row j. -/
def score (Q K : Fin 2048 → Fin 64 → ℝ) (s j : Fin 2048) : ℝ :=
  (∑ d : Fin 64, Q s d * K j d) / 8

/-- The largest entry of a row of 2048 scores. -/
def rowMax (r : Fin 2048 → ℝ) : ℝ := Finset.univ.sup' Finset.univ_nonempty r

/-- The softmax denominator of a row, taken at its largest entry. -/
def rowSum (r : Fin 2048 → ℝ) : ℝ := ∑ j : Fin 2048, Real.exp (r j - rowMax r)

/-- One head's attention output: the softmax weights of row s applied to the value rows. -/
def attn (Q K V : Fin 2048 → Fin 64 → ℝ) (s : Fin 2048) (d : Fin 64) : ℝ :=
  ∑ j : Fin 2048, Real.exp (score Q K s j - rowMax (score Q K s)) / rowSum (score Q K s) * V j d

/-- The heads' outputs side by side: column e is feature e % 64 of head e / 64. -/
def merged (x : Fin 2 → Fin 2048 → Fin 1024 → ℝ) (wq : Fin 1024 → Fin 3072 → ℝ) (bq : Fin 3072 → ℝ)
    (b : Fin 2) (s : Fin 2048) (e : Fin 1024) : ℝ :=
  attn (part x wq bq 0 b ⟨e.val / 64, by have := e.isLt; omega⟩) (part x wq bq 1 b ⟨e.val / 64, by have := e.isLt; omega⟩)
    (part x wq bq 2 b ⟨e.val / 64, by have := e.isLt; omega⟩) s ⟨e.val % 64, Nat.mod_lt _ (by norm_num)⟩

/-- The whole layer: the merged heads through the output projection. -/
def out (x : Fin 2 → Fin 2048 → Fin 1024 → ℝ) (wq : Fin 1024 → Fin 3072 → ℝ) (bq : Fin 3072 → ℝ)
    (wo : Fin 1024 → Fin 1024 → ℝ) (bo : Fin 1024 → ℝ) (b : Fin 2) (s : Fin 2048) (e : Fin 1024) : ℝ :=
  ∑ d : Fin 1024, merged x wq bq b s d * wo d e + bo e

theorem rowMax_ge (r : Fin 2048 → ℝ) (j : Fin 2048) : r j ≤ rowMax r :=
  Finset.le_sup' r (Finset.mem_univ j)

theorem rowMax_attained (r : Fin 2048 → ℝ) : ∃ j, r j = rowMax r := by
  obtain ⟨j, -, hj⟩ := Finset.exists_mem_eq_sup' Finset.univ_nonempty r
  exact ⟨j, hj.symm⟩

/-- A number that bounds the row and is attained in it is the row's largest entry. -/
theorem rowMax_eq_of (r : Fin 2048 → ℝ) (M : ℝ) (hub : ∀ j, r j ≤ M) (hatt : ∃ j, r j = M) : rowMax r = M := by
  obtain ⟨j, hj⟩ := hatt
  exact le_antisymm (Finset.sup'_le _ _ fun i _ => hub i) (hj ▸ rowMax_ge r j)

theorem rowSum_pos (r : Fin 2048 → ℝ) : 0 < rowSum r :=
  Finset.sum_pos (fun _ _ => Real.exp_pos _) Finset.univ_nonempty

/-- Dividing the weighted sum once is dividing every weight. -/
theorem attn_eq_div (Q K V : Fin 2048 → Fin 64 → ℝ) (s : Fin 2048) (d : Fin 64) :
    attn Q K V s d
      = (∑ j : Fin 2048, Real.exp (score Q K s j - rowMax (score Q K s)) * V j d) / rowSum (score Q K s) := by
  unfold attn
  rw [Finset.sum_div]
  exact Finset.sum_congr rfl fun j _ => by ring

end Cert.AttnSpec

end
-- ==== Proof.OnlineTiles.lean ====
/-
  The online attention of one row of 2048 real scores, taken as 4 tiles of 512, is the row's softmax-weighted mean.

  Tile k holds the entries k * 512 … k * 512 + 511 of the row; its largest entry is a real number that bounds the
  tile and is attained in it. After the four tiles the running maximum is the row's largest entry, the running sum
  is the softmax denominator taken at that entry and the accumulator is the matching numerator (four tiles of 512
  consecutive terms add up to the 2048 terms of the row); the denominator is positive, so the quotient on the
  extended reals is the quotient of the two real numbers.
-/
import proofs.«163282_j10213432230461_2_alg».proof.Proof.LibOnlineAttention
import proofs.«163282_j10213432230461_2_alg».proof.Proof.LibTileSum
import proofs.«163282_j10213432230461_2_alg».proof.Proof.Spec

noncomputable section

namespace Cert.OnlineTiles

open Idealize.ShloMosaic Finset
open Cert.Lib

/-- Entry j of tile k of a row of 2048 reals (0 past the fourth tile). -/
def tileR (f : Fin 2048 → ℝ) (k : ℕ) (j : Fin 512) : ℝ :=
  if h : k < 4 then f ⟨k * 512 + j.val, by have := j.isLt; omega⟩ else 0

/-- The scores of tile k as extended reals. -/
def tileS (sr : Fin 2048 → ℝ) (k : ℕ) (j : Fin 512) : EReal := ((tileR sr k j : ℝ) : EReal)

/-- The values of tile k as extended reals. -/
def tileV (vr : Fin 2048 → ℝ) (k : ℕ) (j : Fin 512) : EReal := ((tileR vr k j : ℝ) : EReal)

/-- The largest entry of tile k, a real number. -/
def tileMax (sr : Fin 2048 → ℝ) (k : ℕ) : ℝ := Finset.univ.sup' Finset.univ_nonempty (tileR sr k)

/-- The largest entry of tile k as an extended real. -/
def tileC (sr : Fin 2048 → ℝ) (k : ℕ) : EReal := ((tileMax sr k : ℝ) : EReal)

theorem tileR_of_lt (f : Fin 2048 → ℝ) {k : ℕ} (hk : k < 4) (j : Fin 512) :
    tileR f k j = f ⟨k * 512 + j.val, by have := j.isLt; omega⟩ := dif_pos hk

theorem tileS_of_lt (sr : Fin 2048 → ℝ) {k : ℕ} (hk : k < 4) (j : Fin 512) :
    tileS sr k j = ((sr ⟨k * 512 + j.val, by have := j.isLt; omega⟩ : ℝ) : EReal) := by
  unfold tileS; rw [tileR_of_lt sr hk]

theorem tileV_of_lt (vr : Fin 2048 → ℝ) {k : ℕ} (hk : k < 4) (j : Fin 512) :
    tileV vr k j = ((vr ⟨k * 512 + j.val, by have := j.isLt; omega⟩ : ℝ) : EReal) := by
  unfold tileV; rw [tileR_of_lt vr hk]

/-- The tile's largest entry is a real number. -/
theorem tileC_real (sr : Fin 2048 → ℝ) (k : ℕ) : ∃ r : ℝ, tileC sr k = (r : EReal) := ⟨tileMax sr k, rfl⟩

/-- The tile's largest entry bounds the tile. -/
theorem tileS_le_tileC (sr : Fin 2048 → ℝ) (k : ℕ) (j : Fin 512) : tileS sr k j ≤ tileC sr k :=
  EReal.coe_le_coe_iff.2 (Finset.le_sup' (tileR sr k) (Finset.mem_univ j))

/-- The tile's largest entry is attained in the tile. -/
theorem tileC_attained (sr : Fin 2048 → ℝ) (k : ℕ) : ∃ j, tileS sr k j = tileC sr k := by
  obtain ⟨j, -, hj⟩ := Finset.exists_mem_eq_sup' Finset.univ_nonempty (tileR sr k)
  exact ⟨j, congrArg (fun r : ℝ => (r : EReal)) hj.symm⟩

/-- An extended real that bounds the tile and is attained in it is the tile's largest entry. -/
theorem eq_tileC_of (sr : Fin 2048 → ℝ) (k : ℕ) (x : EReal) (hub : ∀ j, tileS sr k j ≤ x)
    (hatt : ∃ j, tileS sr k j = x) : x = tileC sr k := by
  obtain ⟨j, hj⟩ := hatt
  obtain ⟨j', hj'⟩ := tileC_attained sr k
  exact le_antisymm (hj ▸ tileS_le_tileC sr k j) (hj' ▸ hub j')

/-- Four tiles of 512 entries, added up tile by tile, are the 2048 entries of the row added up once. -/
theorem sum_tileR (g : Fin 2048 → ℝ) : ∑ k ∈ range 4, ∑ j : Fin 512, tileR g k j = ∑ i : Fin 2048, g i := by
  have h := Cert.TileSum.sum_tiles 512 (fun n : ℕ => if h : n < 2048 then g ⟨n, h⟩ else 0) 4
  have hl : ∑ k ∈ range 4, ∑ j : Fin 512, tileR g k j
      = ∑ k ∈ range 4, ∑ j : Fin 512, (fun n : ℕ => if h : n < 2048 then g ⟨n, h⟩ else 0) (512 * k + j.val) := by
    refine Finset.sum_congr rfl fun k hk => Finset.sum_congr rfl fun j _ => ?_
    have hk4 : k < 4 := Finset.mem_range.1 hk
    have hlt : 512 * k + j.val < 2048 := by have := j.isLt; omega
    rw [tileR_of_lt g hk4]
    show _ = if h : 512 * k + j.val < 2048 then g ⟨512 * k + j.val, h⟩ else 0
    rw [dif_pos hlt]
    exact congrArg g (Fin.ext (by show k * 512 + j.val = 512 * k + j.val; omega))
  rw [hl, h]
  show ∑ i : Fin 2048, (if h : i.val < 2048 then g ⟨i.val, h⟩ else 0) = _
  exact Finset.sum_congr rfl fun i _ => by rw [dif_pos i.isLt]

/-- The online attention of a row of 2048 real scores and 2048 real values, over 4 tiles of 512: the final
    accumulator divided by the final running sum is the softmax-weighted mean of the values. -/
theorem online_eq_attn_row (sr vr : Fin 2048 → ℝ) :
    Ideal.div (OnlineAttention.runAcc (tileS sr) (tileC sr) (tileV vr) 4)
        (OnlineLogSumExp.run (tileS sr) (tileC sr) 4).2
      = (((∑ j : Fin 2048, Real.exp (sr j - Cert.AttnSpec.rowMax sr) * vr j) / Cert.AttnSpec.rowSum sr : ℝ) : EReal) := by
  obtain ⟨M, -, h2, h3, h4, h5⟩ := OnlineAttention.runAcc_spec (tileS sr) (tileC sr) (tileV vr) (tileR vr) 3
    (fun k _ j => tileS_le_tileC sr k j) (fun k _ => tileC_attained sr k) (fun k _ => tileC_real sr k)
    (fun _ _ _ => rfl)
  have hM : Cert.AttnSpec.rowMax sr = M := by
    refine Cert.AttnSpec.rowMax_eq_of sr M (fun i => ?_) ?_
    · have hi := i.isLt
      have hk : i.val / 512 < 4 := by omega
      have h := h2 (i.val / 512) (by omega) ⟨i.val % 512, Nat.mod_lt _ (by norm_num)⟩
      rw [tileS_of_lt sr hk] at h
      have he : (⟨i.val / 512 * 512 + i.val % 512, by omega⟩ : Fin 2048) = i := Fin.ext (by show i.val / 512 * 512 + i.val % 512 = i.val; omega)
      rw [he] at h
      exact EReal.coe_le_coe_iff.1 h
    · obtain ⟨k, hk, j, hj⟩ := h3
      have hk4 : k < 4 := by omega
      rw [tileS_of_lt sr hk4] at hj
      exact ⟨_, EReal.coe_eq_coe_iff.1 hj⟩
  have hl : ∑ k ∈ range (3 + 1), ∑ j : Fin 512, OnlineLogSumExp.term (tileS sr k j) M = Cert.AttnSpec.rowSum sr := by
    unfold Cert.AttnSpec.rowSum
    rw [hM, ← sum_tileR (fun i => Real.exp (sr i - M))]
    refine Finset.sum_congr rfl fun k hk => Finset.sum_congr rfl fun j _ => ?_
    have hk4 : k < 4 := Finset.mem_range.1 hk
    rw [tileS_of_lt sr hk4, OnlineLogSumExp.term_coe, tileR_of_lt _ hk4]
  have ha : ∑ k ∈ range (3 + 1), ∑ j : Fin 512, OnlineLogSumExp.term (tileS sr k j) M * tileR vr k j
      = ∑ j : Fin 2048, Real.exp (sr j - Cert.AttnSpec.rowMax sr) * vr j := by
    rw [hM, ← sum_tileR (fun i => Real.exp (sr i - M) * vr i)]
    refine Finset.sum_congr rfl fun k hk => Finset.sum_congr rfl fun j _ => ?_
    have hk4 : k < 4 := Finset.mem_range.1 hk
    rw [tileS_of_lt sr hk4, OnlineLogSumExp.term_coe, tileR_of_lt _ hk4, tileR_of_lt _ hk4]
  rw [show (4 : ℕ) = 3 + 1 from rfl, h4, h5, hl, ha]
  rw [Ideal.div_coe (Cert.AttnSpec.rowSum_pos sr).ne', ← EReal.coe_mul, mul_one_div]

end Cert.OnlineTiles

end
-- ==== Proof.KiRow.lean ====
/-
  One query row through the four key / value tiles.

  Fix a query block q, four key blocks kb n and four value blocks vb n, a row r of the query block and a feature d.
  If vectors mS n, lS n, aS n start at the first tile's initial values (-∞, 0, 0) and each tile moves them by the body's
  step, then after tile n the row's entries are the streaming maximum and sum of the tiles' scaled scores and the
  streaming weighted sum of the value rows. When the blocks hold real numbers the scaled scores of the row are a row
  of 2048 real scores cut into four tiles, and the quotient the last tile writes is the row's softmax-weighted
  combination of the 2048 value rows.
-/
import proofs.«163282_j10213432230461_2_alg».proof.Proof.KiPay
import proofs.«163282_j10213432230461_2_alg».proof.Proof.LibOnlineAttention
import proofs.«163282_j10213432230461_2_alg».proof.Proof.OnlineTiles
import proofs.«163282_j10213432230461_2_alg».proof.Proof.Spec

noncomputable section

namespace Cert.KernelIdeal.Val

open Cert.KernelIdeal Cert.KernelIdeal.Gen Idealize.ShloMosaic Idealize.ShloMosaic.ValueIdx
open Cert.Lib Cert.Lib.OnlineLogSumExp Cert.Lib.OnlineAttention Cert.OnlineTiles

/-- The streaming pair looks only at the tiles it has passed. -/
theorem run_congr {J : Type} [Fintype J] (s s' : ℕ → J → EReal) (c c' : ℕ → EReal) :
    ∀ n : ℕ, (∀ k < n, s k = s' k ∧ c k = c' k) → OnlineLogSumExp.run s c n = OnlineLogSumExp.run s' c' n
  | 0, _ => rfl
  | n + 1, h => by
    have ih := run_congr s s' c c' n fun k hk => h k (Nat.lt_succ_of_lt hk)
    obtain ⟨hs, hc⟩ := h n (Nat.lt_succ_self n)
    show (max (OnlineLogSumExp.run s c n).1 (c n), _) = (max (OnlineLogSumExp.run s' c' n).1 (c' n), _)
    rw [ih, hs, hc]

/-- So does the streaming weighted sum. -/
theorem runAcc_congr {J : Type} [Fintype J] (s s' : ℕ → J → EReal) (c c' : ℕ → EReal) (v v' : ℕ → J → EReal) :
    ∀ n : ℕ, (∀ k < n, s k = s' k ∧ c k = c' k ∧ v k = v' k) → runAcc s c v n = runAcc s' c' v' n
  | 0, _ => rfl
  | n + 1, h => by
    have ih := runAcc_congr s s' c c' v v' n fun k hk => h k (Nat.lt_succ_of_lt hk)
    have ihr := run_congr s s' c c' n fun k hk => ⟨(h k (Nat.lt_succ_of_lt hk)).1, (h k (Nat.lt_succ_of_lt hk)).2.1⟩
    obtain ⟨hs, hc, hv⟩ := h n (Nat.lt_succ_self n)
    show Ideal.exp ((OnlineLogSumExp.run s c n).1 - max (OnlineLogSumExp.run s c n).1 (c n)) * runAcc s c v n
        + ∑ j, Ideal.exp (s n j - max (OnlineLogSumExp.run s c n).1 (c n)) * v n j = _
    rw [ih, ihr, hs, hc, hv]
    rfl

section Row

variable (qb : ℕ → FVec Ideal S1x256x64 .bf16) (kb vb : ℕ → FVec Ideal S1x512x64 .bf16)
variable (mS lS : ℕ → FVec Ideal S1x256x1 .f32) (aS : ℕ → FVec Ideal S1x256x64 .f32)

/-- The streaming quantities of row r after n tiles are the body's vectors at the row. -/
theorem row_state (h0 : mS 0 = k1_pay5 (F := Ideal) ∧ lS 0 = k1_pay6 (F := Ideal) ∧ aS 0 = k1_pay7 (F := Ideal))
    (hstep : ∀ n, mS (n + 1) = k1_pay3 (F := Ideal) (k1_pay10 (F := Ideal) (qb n) (kb n) (mS n))
      ∧ lS (n + 1) = k1_pay1 (F := Ideal) (k1_pay13 (F := Ideal) (qb n) (kb n) (mS n) (mS n) (lS n))
      ∧ aS (n + 1) = k1_pay2 (F := Ideal) (k1_pay8 (F := Ideal) (vb n)) (k1_pay11 (F := Ideal) (qb n) (kb n) (mS n) (mS n))
          (k1_pay12 (F := Ideal) (qb n) (kb n) (mS n)) (aS n))
    (r : Fin 256) :
    ∀ n : ℕ, mS n (ix3 0 r 0) = (OnlineLogSumExp.run (fun n j => sc (qb n) (kb n) r j) (fun n => rowTop (qb n) (kb n) r) n).1
      ∧ lS n (ix3 0 r 0) = (OnlineLogSumExp.run (fun n j => sc (qb n) (kb n) r j) (fun n => rowTop (qb n) (kb n) r) n).2
      ∧ ∀ d : Fin 64, aS n (ix3 0 r d)
          = runAcc (fun n j => sc (qb n) (kb n) r j) (fun n => rowTop (qb n) (kb n) r) (fun n j => vb n (ix3 0 j d)) n
  | 0 => by
    obtain ⟨hm, hl, ha⟩ := h0
    refine ⟨?_, ?_, fun d => ?_⟩
    · rw [hm, pay5_apply]; rfl
    · rw [hl, pay6_apply]; rfl
    · rw [ha, pay7_apply]; rfl
  | n + 1 => by
    obtain ⟨im, il, ia⟩ := row_state h0 hstep r n
    obtain ⟨hm, hl, ha⟩ := hstep n
    have e10 : k1_pay10 (F := Ideal) (qb n) (kb n) (mS n) (ix3 0 r 0)
        = max (OnlineLogSumExp.run (fun n j => sc (qb n) (kb n) r j) (fun n => rowTop (qb n) (kb n) r) n).1 (rowTop (qb n) (kb n) r) := by
      rw [pay10_apply, im]
    refine ⟨?_, ?_, fun d => ?_⟩
    · rw [hm, pay3_eq, e10]; rfl
    · rw [hl, pay1_eq, pay13_apply, pay11_apply, e10, im, il]
      refine congrArg (_ + ·) (Finset.sum_congr rfl fun j _ => ?_)
      rw [pay12_apply, e10]
    · rw [ha, pay2_apply, pay8_eq, pay11_apply, e10, im, ia d]
      refine congrArg (_ + ·) (Finset.sum_congr rfl fun j _ => ?_)
      rw [pay12_apply, e10]

end Row

/-- The scale is the real number 1/8. -/
theorem scaleW_eq : scaleW = (((1 : ℝ) / 8 : ℝ) : EReal) := by
  unfold scaleW
  simp [Ideal.ofBits, Ideal.ieee, -EReal.coe_mul]
  norm_num

/-! ## Real blocks: the row is a softmax-weighted combination -/

section Real

open Cert.AttnSpec

/-- The fold of max from -∞ over a tile of real scores is the tile's largest entry. -/
theorem fold_max_eq_tileC (sr : Fin 2048 → ℝ) (n : ℕ) (f : Fin 512 → EReal) (hf : ∀ j, f j = tileS sr n j) :
    (Finset.univ : Finset (Fin 512)).fold max ⊥ f = tileC sr n := by
  have hf' : f = tileS sr n := funext hf
  subst hf'
  refine le_antisymm ?_ ?_
  · exact (Finset.fold_max_le _).mpr ⟨bot_le, fun j _ => tileS_le_tileC sr n j⟩
  · obtain ⟨j, hj⟩ := tileC_attained sr n
    rw [← hj]
    exact (Finset.le_fold_max _).mpr (Or.inr ⟨j, Finset.mem_univ j, le_rfl⟩)

variable (qb : ℕ → FVec Ideal S1x256x64 .bf16) (kb vb : ℕ → FVec Ideal S1x512x64 .bf16)
variable (mS lS : ℕ → FVec Ideal S1x256x1 .f32) (aS : ℕ → FVec Ideal S1x256x64 .f32)

/-- The scaled scores of a real query row against real key rows, as a real row. -/
def scoreRow (Qr : Fin 64 → ℝ) (K : Fin 2048 → Fin 64 → ℝ) (j : Fin 2048) : ℝ := (∑ d : Fin 64, Qr d * K j d) / 8

theorem sc_real (r : Fin 256) (Qr : Fin 64 → ℝ) (K : Fin 2048 → Fin 64 → ℝ) (n : ℕ) (hn : n < 4)
    (hq : ∀ d, qb n (ix3 0 r d) = ((Qr d : ℝ) : EReal))
    (hk : ∀ (j : Fin 512) d, kb n (ix3 0 j d) = ((K ⟨n * 512 + j.val, by have := j.isLt; omega⟩ d : ℝ) : EReal)) (j : Fin 512) :
    sc (qb n) (kb n) r j = tileS (scoreRow Qr K) n j := by
  rw [tileS_of_lt _ hn]
  unfold sc scoreRow
  rw [scaleW_eq]
  simp only [hq, hk, ← EReal.coe_mul]
  rw [← OnlineLogSumExp.coe_sum, ← EReal.coe_mul]
  congr 1
  ring

/-- THE ROW. With real blocks, what the last tile writes at (r, d) is the row's attention output. -/
theorem row_out (h0 : mS 0 = k1_pay5 (F := Ideal) ∧ lS 0 = k1_pay6 (F := Ideal) ∧ aS 0 = k1_pay7 (F := Ideal))
    (hstep : ∀ n, mS (n + 1) = k1_pay3 (F := Ideal) (k1_pay10 (F := Ideal) (qb n) (kb n) (mS n))
      ∧ lS (n + 1) = k1_pay1 (F := Ideal) (k1_pay13 (F := Ideal) (qb n) (kb n) (mS n) (mS n) (lS n))
      ∧ aS (n + 1) = k1_pay2 (F := Ideal) (k1_pay8 (F := Ideal) (vb n)) (k1_pay11 (F := Ideal) (qb n) (kb n) (mS n) (mS n))
          (k1_pay12 (F := Ideal) (qb n) (kb n) (mS n)) (aS n))
    (r : Fin 256) (Qr : Fin 64 → ℝ) (K V : Fin 2048 → Fin 64 → ℝ)
    (hq : ∀ n < 4, ∀ d, qb n (ix3 0 r d) = ((Qr d : ℝ) : EReal))
    (hk : ∀ n (hn : n < 4) (j : Fin 512) d, kb n (ix3 0 j d) = ((K ⟨n * 512 + j.val, by have := j.isLt; omega⟩ d : ℝ) : EReal))
    (hv : ∀ n (hn : n < 4) (j : Fin 512) d, vb n (ix3 0 j d) = ((V ⟨n * 512 + j.val, by have := j.isLt; omega⟩ d : ℝ) : EReal))
    (d : Fin 64) :
    k1_pay4 (F := Ideal) (aS 4) (lS 4) (ix3 0 r d)
      = (((∑ j : Fin 2048, Real.exp (scoreRow Qr K j - rowMax (scoreRow Qr K)) * V j d) / rowSum (scoreRow Qr K) : ℝ) : EReal) := by
  obtain ⟨-, hl, ha⟩ := row_state qb kb vb mS lS aS h0 hstep r 4
  rw [pay4_apply, hl, ha d]
  have hs : ∀ k < 4, (fun j => sc (qb k) (kb k) r j) = tileS (scoreRow Qr K) k :=
    fun k hk' => funext fun j => sc_real qb kb r Qr K k hk' (hq k hk') (hk k hk') j
  have hc : ∀ k < 4, rowTop (qb k) (kb k) r = tileC (scoreRow Qr K) k := fun k hk' => by
    rw [rowTop_bot]
    exact fold_max_eq_tileC _ k _ fun j => sc_real qb kb r Qr K k hk' (hq k hk') (hk k hk') j
  have hvv : ∀ k < 4, (fun j : Fin 512 => vb k (ix3 0 j d)) = tileV (fun j => V j d) k := fun k hk' => funext fun j => by
    rw [tileV_of_lt _ hk', hv k hk' j d]
  rw [run_congr _ (tileS (scoreRow Qr K)) _ (tileC (scoreRow Qr K)) 4 fun k hk' => ⟨hs k hk', hc k hk'⟩,
    runAcc_congr _ (tileS (scoreRow Qr K)) _ (tileC (scoreRow Qr K)) _ (tileV fun j => V j d) 4
      fun k hk' => ⟨hs k hk', hc k hk', hvv k hk'⟩]
  exact online_eq_attn_row (scoreRow Qr K) fun j => V j d

end Real

end Cert.KernelIdeal.Val

end
-- ==== Proof.ValR1Fold.lean ====
/-
  The attention region point by point: what the three carried buffers hold after each grid point, and what the last
  key / value tile of a query tile writes.

  The grid point number n has key / value tile n % 4. At a first tile the body stores the initial values
  (-∞, 0, 0) and steps from them; at every other tile it steps from what the point before left. So after the four
  points of one query tile the buffers are four steps from the initial values, each step with that point's query, key
  and value blocks, and the block the last point writes is the accumulator over the running sum. When the three arrays
  hold real numbers this is, row by row, the head's attention output.
-/
import proofs.«163282_j10213432230461_2_alg».proof.Proof.KiR1Val
import proofs.«163282_j10213432230461_2_alg».proof.Proof.KiRow

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx
open Idealize.SL.Sem
open Cert.AttnSpec

/-- The three carried buffers' contents: running maximum, running sum, accumulator. -/
abbrev Trip : Type := FVec Ideal S1x256x1 .f32 × FVec Ideal S1x256x1 .f32 × FVec Ideal S1x256x64 .f32

/-- What a first tile starts from. -/
def init3 : Trip := (k1_pay5 (F := Ideal), k1_pay6 (F := Ideal), k1_pay7 (F := Ideal))

/-- One tile's step on the three buffers. -/
def stepT (q : FVec Ideal S1x256x64 .bf16) (k v : FVec Ideal S1x512x64 .bf16) (p : Trip) : Trip :=
  (k1_pay3 (F := Ideal) (k1_pay10 (F := Ideal) q k p.1),
   k1_pay1 (F := Ideal) (k1_pay13 (F := Ideal) q k p.1 p.1 p.2.1),
   k1_pay2 (F := Ideal) (k1_pay8 (F := Ideal) v) (k1_pay11 (F := Ideal) q k p.1 p.1) (k1_pay12 (F := Ideal) q k p.1) p.2.2)

section

variable (V : (c : Dev nD) → (b : Ref sig .tc) → Buf (Elt Ideal) ((c : Thread nD τ).loc b)) (c : Dev nD)

/-- The blocks of the three input windows at point number n (anything past the grid). -/
def qAt (n : ℕ) : FVec Ideal S1x256x64 .bf16 := if h : n < cfg1.N then iblk1 V c 0 ⟨n, h⟩ else fun _ => 0
def kAt (n : ℕ) : FVec Ideal S1x512x64 .bf16 := if h : n < cfg1.N then iblk1 V c 1 ⟨n, h⟩ else fun _ => 0
def vAt (n : ℕ) : FVec Ideal S1x512x64 .bf16 := if h : n < cfg1.N then iblk1 V c 2 ⟨n, h⟩ else fun _ => 0

/-- After a first tile: one step from the initial values. -/
theorem scratch_reset (n : ℕ) (h : n < cfg1.N) (h0 : n % 4 = 0) :
    (outsAt1 V c n h).2 = stepT (qAt V c n) (kAt V c n) (vAt V c n) init3 := by
  have e := outsAt1_A V c ⟨n, h⟩ h0 (by show ¬ n % 4 = 3; omega)
  rw [show outsAt1 V c n h = outsAt1 V c (⟨n, h⟩ : Fin cfg1.N).val (⟨n, h⟩ : Fin cfg1.N).isLt from rfl, e]
  unfold stepT init3 qAt kAt vAt
  rw [dif_pos h, dif_pos h, dif_pos h]
  dsimp only
  rw [sout1_A_0_eq, sout1_A_1_eq, sout1_A_2_eq]

/-- After any other tile: one step from what the point before left. -/
theorem scratch_step (n : ℕ) (h : n + 1 < cfg1.N) (h0 : ¬(n + 1) % 4 = 0) :
    (outsAt1 V c (n + 1) h).2
      = stepT (qAt V c (n + 1)) (kAt V c (n + 1)) (vAt V c (n + 1)) (outsAt1 V c n (Nat.lt_of_succ_lt h)).2 := by
  rw [show outsAt1 V c (n + 1) h = outsAt1 V c (⟨n + 1, h⟩ : Fin cfg1.N).val (⟨n + 1, h⟩ : Fin cfg1.N).isLt from rfl]
  unfold stepT qAt kAt vAt
  rw [dif_pos h, dif_pos h, dif_pos h]
  by_cases h1 : (n + 1) % 4 = 3
  · rw [outsAt1_C V c ⟨n + 1, h⟩ h0 h1]
    dsimp only
    rw [sout1_C_0_eq, sout1_C_1_eq, sout1_C_2_eq]
    rfl
  · rw [outsAt1_B V c ⟨n + 1, h⟩ h0 h1]
    dsimp only
    rw [sout1_B_0_eq, sout1_B_1_eq, sout1_B_2_eq]
    rfl

/-- At a last tile the block written is the new accumulator over the new running sum. -/
theorem out_last (n : ℕ) (h : n + 1 < cfg1.N) (h3 : (n + 1) % 4 = 3) :
    (outsAt1 V c (n + 1) h).1
      = k1_pay4 (F := Ideal) (outsAt1 V c (n + 1) h).2.2.2 (outsAt1 V c (n + 1) h).2.2.1 := by
  rw [show outsAt1 V c (n + 1) h = outsAt1 V c (⟨n + 1, h⟩ : Fin cfg1.N).val (⟨n + 1, h⟩ : Fin cfg1.N).isLt from rfl,
    outsAt1_C V c ⟨n + 1, h⟩ (by show ¬(n + 1) % 4 = 0; omega) h3]
  dsimp only
  rw [out1_C_3_eq, sout1_C_1_eq, sout1_C_2_eq]

/-- The three buffers after the first k tiles of the query tile that starts at point b. -/
def stAt (b : ℕ) : ℕ → Trip
  | 0 => init3
  | k + 1 => stepT (qAt V c (b + k)) (kAt V c (b + k)) (vAt V c (b + k)) (stAt b k)

/-- Point b + k of a query tile starting at b leaves the (k+1)-fold step. -/
theorem scratch_run (b : ℕ) (hb : b % 4 = 0) : ∀ (k : ℕ) (hk : k < 4) (h : b + k < cfg1.N),
    (outsAt1 V c (b + k) h).2 = stAt V c b (k + 1)
  | 0, _, h => by
    show (outsAt1 V c b h).2 = stepT (qAt V c (b + 0)) (kAt V c (b + 0)) (vAt V c (b + 0)) init3
    exact scratch_reset V c b h hb
  | k + 1, hk, h => by
    have ih := scratch_run b hb k (by omega) (by omega)
    show (outsAt1 V c (b + k + 1) h).2 = stepT (qAt V c (b + (k + 1))) (kAt V c (b + (k + 1))) (vAt V c (b + (k + 1))) (stAt V c b (k + 1))
    rw [← ih]
    exact scratch_step V c (b + k) h (by omega)

/-- THE FLUSHING POINT, ROW BY ROW. With the three arrays real, the block the last tile of a query tile writes holds,
    at row r and feature d, the attention output of that query row. -/
theorem flush_row (Qa Ka Va : Fin 32 → Fin 2048 → Fin 64 → ℝ)
    (hQ : ∀ (n : ℕ) (hn : n < 1024) (hN : n < cfg1.N) (r : Fin 256) (d : Fin 64), iblk1 V c 0 ⟨n, hN⟩ (ix3 0 r d)
      = ((Qa ⟨n / 32, by omega⟩ ⟨((n / 4) % 8) * 256 + r.val, by have := r.isLt; omega⟩ d : ℝ) : EReal))
    (hK : ∀ (n : ℕ) (hn : n < 1024) (hN : n < cfg1.N) (j : Fin 512) (d : Fin 64), iblk1 V c 1 ⟨n, hN⟩ (ix3 0 j d)
      = ((Ka ⟨n / 32, by omega⟩ ⟨(n % 4) * 512 + j.val, by have := j.isLt; omega⟩ d : ℝ) : EReal))
    (hV : ∀ (n : ℕ) (hn : n < 1024) (hN : n < cfg1.N) (j : Fin 512) (d : Fin 64), iblk1 V c 2 ⟨n, hN⟩ (ix3 0 j d)
      = ((Va ⟨n / 32, by omega⟩ ⟨(n % 4) * 512 + j.val, by have := j.isLt; omega⟩ d : ℝ) : EReal))
    (t : Fin cfg1.N) (h3 : t.val % 4 = 3) (r : Fin 256) (d : Fin 64) :
    (outsAt1 V c t.val t.isLt).1 (ix3 0 r d)
      = ((attn (Qa ⟨t.val / 32, by have := t.isLt; have hN : cfg1.N = 1024 := N_1; omega⟩) (Ka ⟨t.val / 32, by have := t.isLt; have hN : cfg1.N = 1024 := N_1; omega⟩)
          (Va ⟨t.val / 32, by have := t.isLt; have hN : cfg1.N = 1024 := N_1; omega⟩)
          ⟨((t.val / 4) % 8) * 256 + r.val, by have := r.isLt; omega⟩ d : ℝ) : EReal) := by
  have hN : cfg1.N = 1024 := N_1
  have ht : t.val < 1024 := hN ▸ t.isLt
  obtain ⟨b, hb⟩ : ∃ b, t.val = b + 3 := ⟨t.val - 3, by omega⟩
  have hb4 : b % 4 = 0 := by omega
  have hlt : b + 3 < cfg1.N := hb ▸ t.isLt
  have e1 : (outsAt1 V c t.val t.isLt) = outsAt1 V c (b + 2 + 1) hlt := by
    have : ∀ (n : ℕ) (hn : n < cfg1.N), n = t.val → outsAt1 V c n hn = outsAt1 V c t.val t.isLt := fun n hn e => by subst e; rfl
    exact (this (b + 2 + 1) hlt (by omega)).symm
  rw [e1, out_last V c (b + 2) hlt (by omega)]
  have e2 := scratch_run V c b hb4 3 (by omega) hlt
  rw [show outsAt1 V c (b + 2 + 1) hlt = outsAt1 V c (b + 3) hlt from rfl, show (outsAt1 V c (b + 3) hlt).2.2.2 = ((outsAt1 V c (b + 3) hlt).2).2.2 from rfl,
    show (outsAt1 V c (b + 3) hlt).2.2.1 = ((outsAt1 V c (b + 3) hlt).2).2.1 from rfl, e2]
  have hrow := row_out (fun k => qAt V c (b + k)) (fun k => kAt V c (b + k)) (fun k => vAt V c (b + k))
    (fun k => (stAt V c b k).1) (fun k => (stAt V c b k).2.1) (fun k => (stAt V c b k).2.2)
    ⟨rfl, rfl, rfl⟩ (fun n => ⟨rfl, rfl, rfl⟩) r
    (Qa ⟨t.val / 32, by omega⟩ ⟨((t.val / 4) % 8) * 256 + r.val, by have := r.isLt; omega⟩)
    (Ka ⟨t.val / 32, by omega⟩) (Va ⟨t.val / 32, by omega⟩)
    (fun n hn d' => by
      have hlt' : b + n < cfg1.N := by omega
      show qAt V c (b + n) (ix3 0 r d') = _
      unfold qAt; rw [dif_pos hlt', hQ (b + n) (by omega) hlt' r d']
      have i1 : (b + n) / 32 = t.val / 32 := by omega
      have i2 : (b + n) / 4 % 8 = t.val / 4 % 8 := by omega
      simp only [i1, i2])
    (fun n hn j d' => by
      have hlt' : b + n < cfg1.N := by omega
      show kAt V c (b + n) (ix3 0 j d') = _
      unfold kAt; rw [dif_pos hlt', hK (b + n) (by omega) hlt' j d']
      have i1 : (b + n) / 32 = t.val / 32 := by omega
      have i2 : (b + n) % 4 = n := by omega
      simp only [i1, i2])
    (fun n hn j d' => by
      have hlt' : b + n < cfg1.N := by omega
      show vAt V c (b + n) (ix3 0 j d') = _
      unfold vAt; rw [dif_pos hlt', hV (b + n) (by omega) hlt' j d']
      have i1 : (b + n) / 32 = t.val / 32 := by omega
      have i2 : (b + n) % 4 = n := by omega
      simp only [i1, i2])
    d
  refine hrow.trans ?_
  rw [attn_eq_div]
  rfl

end

end Cert.KernelIdeal.Val

end
-- ==== Proof.RealArr.lean ====
/-
  Arrays of real numbers read as arrays of extended reals, for the literal shapes of ranks one, two and three.
-/
import Idealize.ShloMosaic.PureOps.Ideal

noncomputable section

namespace Cert.RealArr

open Idealize.ShloMosaic

/-- A vector of reals as an array of extended reals of shape [a]. -/
def ofR1 {a : ℕ} (f : Fin a → ℝ) : (⟨1, ![a]⟩ : Shape).Idx → EReal :=
  fun i => ((f (i 0) : ℝ) : EReal)

/-- A matrix of reals as an array of extended reals of shape [a, b]. -/
def ofR2 {a b : ℕ} (f : Fin a → Fin b → ℝ) : (⟨2, ![a, b]⟩ : Shape).Idx → EReal :=
  fun i => ((f (i 0) (i 1) : ℝ) : EReal)

/-- A rank-three array of reals as an array of extended reals of shape [a, b, c]. -/
def ofR3 {a b c : ℕ} (f : Fin a → Fin b → Fin c → ℝ) : (⟨3, ![a, b, c]⟩ : Shape).Idx → EReal :=
  fun i => ((f (i 0) (i 1) (i 2) : ℝ) : EReal)

end Cert.RealArr

end
-- ==== Proof.ValR1.lean ====
/- Region 1 (the attention kernel) as a whole, at the ideal float model: when the query, key and value arrays the
   region finds hold real numbers, the array its output window writes ends holding, for every batch·head, every
   query row's attention output — the softmax-weighted sum of the value rows. Each input window's block is a block
   of rows of its array; the block the last key/value tile of a query tile writes back is that tile's rows of the
   attention output; and the output array is made of exactly those blocks. -/
import proofs.«163282_j10213432230461_2_alg».proof.Proof.ValR1Blocks
import proofs.«163282_j10213432230461_2_alg».proof.Proof.ValR1Fold
import proofs.«163282_j10213432230461_2_alg».proof.Proof.RealArr
import proofs.«163282_j10213432230461_2_alg».proof.Proof.Spec

set_option maxRecDepth 16384

noncomputable section

namespace Cert.KernelIdeal.Val

open Cert.KernelIdeal Cert.KernelIdeal.Gen Cert.KernelIdeal.Fr Cert.RealArr Cert.AttnSpec
open Idealize.ShloMosaic Idealize.ShloMosaic.TcCoe Idealize.ShloMosaic.ValueIdx Idealize.SL.Sem
open Idealize.ShloMosaic.Pipeline (Dat)

/-- A rank-three array of reals read at an index given by its coordinates. -/
theorem ofR3_ix3 {n0 n1 n2 : ℕ} (f : Fin n0 → Fin n1 → Fin n2 → ℝ) (x : Fin n0) (y : Fin n1) (z : Fin n2) :
    ofR3 f (ix3 x y z) = ((f x y z : ℝ) : EReal) := rfl

/-- REGION 1's OUTPUT ARRAY. With the query, key and value arrays at real contents `Qa`, `Ka`, `Va` when the
    region is entered, the output window's array after the region's last point holds the attention output of every
    batch·head: each input block is its rows of its array (so a real block), the flushing point of each query tile
    leaves that tile's rows of the attention output, and those blocks make up the array. -/
theorem arr1_3 (V : (c : Dev nD) → (b : Ref sig .tc) → Buf (Elt Ideal) ((c : Thread nD τ).loc b)) (c : Dev nD)
    (Qa Ka Va : Fin 32 → Fin 2048 → Fin 64 → ℝ)
    (hq : V c main_v13 = ofR3 Qa) (hk : V c main_v14 = ofR3 Ka) (hv : V c main_v15 = ofR3 Va) :
    (dat1 V c).arrAt 3 cfg1.N = ofR3 (fun bh s d => attn (Qa bh) (Ka bh) (Va bh) s d) := by
  refine arr1_3_of_blocks V c (ofR3 fun bh s d => attn (Qa bh) (Ka bh) (Va bh) s d) fun t h3 r d => ?_
  refine (flush_row V c Qa Ka Va ?_ ?_ ?_ t h3 r d).trans ?_
  · intro n hn hN r d
    rw [iblk1_0_apply V c ⟨n, hN⟩ r d, hq]
    rfl
  · intro n hn hN j d
    rw [iblk1_1_apply V c ⟨n, hN⟩ j d, hk]
    rfl
  · intro n hn hN j d
    rw [iblk1_2_apply V c ⟨n, hN⟩ j d, hv]
    rfl
  · rfl

end Cert.KernelIdeal.Val

end
-- ==== Proof.ValR2.lean ====
/- The value region 2 (the projection kernel of pipeline 2) leaves in its output array, at the ideal
   float model: one function of the region-entry arrays, index by index — the matrix product of the two
   operand arrays plus the bias row. -/
import proofs.«163282_j10213432230461_2_alg».proof.Proof.KiR2
import proofs.«163282_j10213432230461_2_alg».proof.Proof.ValRowBias
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-- The projection's value: the matrix product of the rows `a0` with the columns `a1`, plus the bias row `a2`. -/
abbrev proj2 (a0 : Vec Ideal S4096x1024 .bf16) (a1 : Vec Ideal S1024x1024 .bf16) (a2 : Vec Ideal S1024 .f32) : Vec Ideal S4096x1024 .f32 :=
  fun i => (∑ k : Fin 1024, a0 (ix2 (i 0) k) * a1 (ix2 k (i 1))) + a2 (ix1 (i 1))

/-! ## The payload at an index -/

/-- The product's left index: the output's row and the contraction's coordinate. -/
theorem lhs2_0 (j : S256x1024.Idx) (q : dot_S256x1024_S1024x1024_S256x1024_1_0_0_1_n_n.contr.Idx) : (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs2_1 (j : S256x1024.Idx) (q : dot_S256x1024_S1024x1024_S256x1024_1_0_0_1_n_n.contr.Idx) : (dot_S256x1024_S1024x1024_S256x1024_1_0_0_1_n_n.lhsIdx j q 1).val = (q ⟨0, by decide⟩).val :=
  dot_S256x1024_S1024x1024_S256x1024_1_0_0_1_n_n.lhsIdx_val_of_single rfl j q
/-- The product's right index: the contraction's coordinate and the output's column. -/
theorem rhs2_0 (j : S256x1024.Idx) (q : dot_S256x1024_S1024x1024_S256x1024_1_0_0_1_n_n.contr.Idx) : (dot_S256x1024_S1024x1024_S256x1024_1_0_0_1_n_n.rhsIdx j q 0).val = (q ⟨0, by decide⟩).val :=
  dot_S256x1024_S1024x1024_S256x1024_1_0_0_1_n_n.rhsIdx_val_of_single rfl j q
theorem rhs2_1 (j : S256x1024.Idx) (q : dot_S256x1024_S1024x1024_S256x1024_1_0_0_1_n_n.contr.Idx) : (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The matrix product into a zero accumulator, at `(p, q)`: row `p` of the left operand against column `q` of the right. -/
theorem matmul2_apply (x0 : FVec Ideal S256x1024 .bf16) (x1 : FVec Ideal S1024x1024 .bf16) (p : Fin 256) (q : Fin 1024) :
    matmul dot_S256x1024_S1024x1024_S256x1024_1_0_0_1_n_n none x0 x1 (constant S256x1024 .f32 0x00000000#32) (ix2 p q) = ∑ k : Fin 1024, x0 (ix2 p k) * x1 (ix2 k q) := by
  show FloatOps.matmul dot_S256x1024_S1024x1024_S256x1024_1_0_0_1_n_n none x0 x1 (constant S256x1024 .f32 0x00000000#32) (ix2 p q) = _
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs2_0 _ _
    | ⟨1, _⟩ => exact (lhs2_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs2_0 _ _).trans hk
    | ⟨1, _⟩ => exact rhs2_1 _ _)
  rw [el, er]

/-- The store's payload at `(p, q)`, from the three loaded blocks: the product's entry plus the bias entry. -/
theorem proj2_pay_apply (x0 : Vec Ideal S256x1024 .bf16) (x1 : Vec Ideal S1024x1024 .bf16) (x2 : Vec Ideal S1024 .f32) (p : Fin 256) (q : Fin 1024) :
    k2_pay1 x0 x1 x2 (ix2 p q) = (∑ k : Fin 1024, x0 (ix2 p k) * x1 (ix2 k q)) + x2 (ix1 q) := by
  unfold k2_pay1
  rw [addf_apply, shapeCast_self, shapeCast_self, matmul2_apply, row_along_rows_apply]

/-! ## From blocks to the array -/

/-- One block of the result from the blocks the body loaded: if the left block is rows `r * 256 …` of `a0`, and the
    right operand and the bias are whole, the payload at `j` is the projection at row `r * 256 + j 0`, column `j 1`. -/
theorem blk_val2 (x0 : Vec Ideal S256x1024 .bf16) (x1 : Vec Ideal S1024x1024 .bf16) (x2 : Vec Ideal S1024 .f32)
    (a0 : Vec Ideal S4096x1024 .bf16) (a1 : Vec Ideal S1024x1024 .bf16) (a2 : Vec Ideal S1024 .f32) (r : Nat)
    (h0 : ∀ (y : S256x1024.Idx) (i : S4096x1024.Idx), (i 0).val = r * 256 + (y 0).val → (i 1).val = (y 1).val → x0 y = a0 i)
    (h1 : x1 = a1) (h2 : x2 = a2)
    (j : S256x1024.Idx) (i : S4096x1024.Idx) (hi0 : (i 0).val = r * 256 + (j 0).val) (hi1 : (i 1).val = (j 1).val) :
    k2_pay1 x0 x1 x2 j = proj2 a0 a1 a2 i := by
  obtain ⟨p, q, rfl⟩ : ∃ (p : Fin 256) (q : Fin 1024), j = ix2 p q := ⟨j 0, j 1, eq_ix2 j⟩
  rw [proj2_pay_apply]
  subst h1; subst h2
  have hq : i 1 = q := Fin.ext hi1
  show _ = (∑ k : Fin 1024, a0 (ix2 (i 0) k) * x1 (ix2 k (i 1))) + x2 (ix1 (i 1))
  rw [hq]
  congr 1
  refine Finset.sum_congr rfl fun k _ => ?_
  rw [h0 (ix2 p k) (ix2 (i 0) k) hi0 rfl]

section Blocks
variable (V : (c : Dev nD) → (b : Ref sig .tc) → Buf (Elt Ideal) ((c : Thread nD τ).loc b))

/-- The printed index maps, decided over the grid: the row windows' block index is the point, every other block
    index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Window 0's block at point `t` is rows `256 t … 256 t + 255` of its array. -/
theorem iblk2_0_apply (c : Dev nD) (t : Fin cfg2.N) (y : S256x1024.Idx) (i : S4096x1024.Idx)
    (hi0 : (i 0).val = t.val * 256 + (y 0).val) (hi1 : (i 1).val = (y 1).val) :
    (iblk2 V c 0 t : Vec Ideal S256x1024 .bf16) y = (V c main_v19 : Vec Ideal S4096x1024 .bf16) i := by
  obtain ⟨e0, e1, -⟩ := idx_facts2 t
  unfold iblk2
  rw [View.read_apply]
  show V c main_v19 _ = V c main_v19 _
  congr 1
  funext a
  apply Fin.ext
  match a with
  | ⟨0, _⟩ => show win2_0.index t 0 * 256 + 1 * (y 0).val = (i 0).val; rw [e0, hi0]; omega
  | ⟨1, _⟩ => show win2_0.index t 1 * 1024 + 1 * (y 1).val = (i 1).val; rw [e1, hi1]; omega

/-- Window 1's block at any point is its whole array. -/
theorem iblk2_1_eq (c : Dev nD) (t : Fin cfg2.N) :
    (iblk2 V c 1 t : Vec Ideal S1024x1024 .bf16) = (V c main_v3 : Vec Ideal S1024x1024 .bf16) := by
  obtain ⟨-, -, e2, e3, -⟩ := idx_facts2 t
  funext y
  unfold iblk2
  rw [View.read_apply]
  show V c main_v3 _ = V c main_v3 _
  congr 1
  funext a
  apply Fin.ext
  match a with
  | ⟨0, _⟩ => show win2_1.index t 0 * 1024 + 1 * (y 0).val = (y 0).val; rw [e2]; omega
  | ⟨1, _⟩ => show win2_1.index t 1 * 1024 + 1 * (y 1).val = (y 1).val; rw [e3]; omega

/-- Window 2's block at any point is its whole array. -/
theorem iblk2_2_eq (c : Dev nD) (t : Fin cfg2.N) :
    (iblk2 V c 2 t : Vec Ideal S1024 .f32) = (V c main_arg4 : Vec Ideal S1024 .f32) := by
  obtain ⟨-, -, -, -, e4, -⟩ := idx_facts2 t
  funext y
  unfold iblk2
  rw [View.read_apply]
  show V c main_arg4 _ = V c main_arg4 _
  congr 1
  funext a
  apply Fin.ext
  match a with
  | ⟨0, _⟩ => show win2_2.index t 0 * 1024 + 1 * (y 0).val = (y 0).val; rw [e4]; omega

/-- What point `t` writes back is block `t` of the projection of the arrays as the region finds them. -/
theorem flushed2_eq (c : Dev nD) (t : Fin cfg2.N) :
    (dat2 V c).flushed 3 t = ((cfg2.win 3).blk t).view.read (Elt Ideal) (proj2 (V c main_v19) (V c main_v3) (V c main_arg4)) := by
  show (cfg2.win 3).cut (grid2.coords t) ((dat2 V c).after 3 t) = _
  rw [after2_3]
  unfold out2_3
  rw [View.canon_unit_zero hz2]
  simp only [View.ld_unit_zero (S := S256x1024) hz2, View.ld_unit_zero (S := S1024x1024) hz2, View.ld_unit_zero (S := S1024) hz1]
  obtain ⟨-, -, -, -, -, e5, e6⟩ := idx_facts2 t
  funext j
  rw [View.read_apply]
  refine blk_val2 (iblk2 V c 0 t) (iblk2 V c 1 t) (iblk2 V c 2 t) (V c main_v19) (V c main_v3) (V c main_arg4) t.val
    (fun y i => iblk2_0_apply V c t y i) (iblk2_1_eq V c t) (iblk2_2_eq V c t) _ _ ?_ ?_
  · show win2_3.index t 0 * 256 + 1 * (j 0).val = t.val * 256 + (j 0).val; rw [e5]; omega
  · show win2_3.index t 1 * 1024 + 1 * (j 1).val = (j 1).val; rw [e6]; omega

/-- An index of the array is in point `t`'s block iff each coordinate is in the block's range on its axis. -/
theorem mem_blk2 (t : Fin cfg2.N) (i : S4096x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v20).slice (win2_3.rect t)).set ↔ _
  rw [View.set_slice_whole, Rect.mem_set_unit]
  exact Iff.rfl

/-- Every index of the array is in the block of the point its row falls in: row `r` in point `r / 256`'s. -/
theorem cover2 (i : S4096x1024.Idx) : ∃ t : Fin cfg2.N, (cfg2.win 3).flush t = true ∧ i ∈ ((cfg2.win 3).blk t).view.set := by
  have hi0 : (i 0).val < 4096 := idx2_lt0 i
  have hi1 : (i 1).val < 1024 := idx2_lt1 i
  have hN : cfg2.N = 16 := N_2
  let t : Fin cfg2.N := ⟨(i 0).val / 256, by rw [hN]; omega⟩
  obtain ⟨-, -, -, -, -, e5, e6⟩ := idx_facts2 t
  have ht : t.val = (i 0).val / 256 := rfl
  refine ⟨t, flush2_3 t, ?_⟩
  rw [mem_blk2]
  intro a
  match a with
  | ⟨0, _⟩ => show win2_3.index t (0 : Fin 2) * 256 ≤ (i 0).val ∧ (i 0).val < win2_3.index t (0 : Fin 2) * 256 + 256; rw [e5, ht]; omega
  | ⟨1, _⟩ => show win2_3.index t (1 : Fin 2) * 1024 ≤ (i 1).val ∧ (i 1).val < win2_3.index t (1 : Fin 2) * 1024 + 1024; rw [e6]; omega

end Blocks

/-- The output array after the region's run is the projection of the region-entry arrays. -/
theorem arr2_3 (V : (c : Dev nD) → (b : Ref sig .tc) → Buf (Elt Ideal) ((c : Thread nD τ).loc b)) (c : Dev nD) :
    (dat2 V c).arrAt 3 cfg2.N = proj2 (V c main_v19) (V c main_v3) (V c main_arg4) :=
  (dat2 V c).arrAt_eq_of_cover 3 (proj2 (V c main_v19) (V c main_v3) (V c main_arg4)) (fun t _ => flushed2_eq V c t) cover2

end Cert.KernelIdeal.Val

end
-- ==== Proof.KiGlue.lean ====
/-
  The host operations between the kernel regions, read at an index.

  Between the three kernel regions the program only moves data: reshapes, conversions between float formats (the
  identity on the extended reals), transposes and unit-stride slices. For arbitrary buffer contents W, each buffer a
  later region reads holds, after its stretch of host operations, the contents of an earlier buffer at an index that
  is computed from the reader's index by the row-major arithmetic of the shapes:
    * rows (b, s) of the [2, 2048, ·] token array are rows b * 2048 + s of the [4096, ·] matrix;
    * column p * 1024 + h * 64 + d of the joint projection is feature d of head h of part p, and batch b, head h is
      slab b * 16 + h of the [32, 2048, 64] arrays;
    * the merged heads put feature d of head h in column h * 64 + d.
-/
import proofs.«163282_j10213432230461_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.ValueIdx Idealize.ShloMosaic.TcCoe

/-! ## The layout chains over an arbitrary array -/

section Layout

variable {α : Type}

/-- Row r of the [4096, 1024] matrix is row (r / 2048, r % 2048) of the [2, 2048, 1024] array. -/
theorem rows_of_tokens (y : S2x2048x1024.Idx → α) (sc : S2x2048x1024.ShapeCasts S4096x1024) (i : S4096x1024.Idx) :
    shapeCast S4096x1024 y sc i
      = y (ix3 ⟨(i 0).val / 2048, by have h0 : (i 0).val < 4096 := (i 0).isLt; omega⟩
            ⟨(i 0).val % 2048, Nat.mod_lt _ (by norm_num)⟩ ⟨(i 1).val, (i 1).isLt⟩) := by
  have h0 : (i 0).val < 4096 := (i 0).isLt
  have h1 : (i 1).val < 1024 := (i 1).isLt
  exact shapeCast_apply y sc i _ (by
    rewrite [Shape.rowMajor_val_three, Shape.rowMajor_val_two]
    show ((i 0).val / 2048 * 2048 + (i 0).val % 2048) * 1024 + (i 1).val = (i 0).val * 1024 + (i 1).val
    omega)

/-- Row (b, s) of the [2, 2048, 1024] array is row b * 2048 + s of the [4096, 1024] matrix. -/
theorem tokens_of_rows (y : S4096x1024.Idx → α) (sc : S4096x1024.ShapeCasts S2x2048x1024) (i : S2x2048x1024.Idx) :
    shapeCast S2x2048x1024 y sc i
      = y (ix2 ⟨(i 0).val * 2048 + (i 1).val, by
              have h0 : (i 0).val < 2 := (i 0).isLt; have h1 : (i 1).val < 2048 := (i 1).isLt; omega⟩
            ⟨(i 2).val, (i 2).isLt⟩) := by
  have h0 : (i 0).val < 2 := (i 0).isLt
  have h1 : (i 1).val < 2048 := (i 1).isLt
  have h2 : (i 2).val < 1024 := (i 2).isLt
  exact shapeCast_apply y sc i _ (by
    rewrite [Shape.rowMajor_val_two, Shape.rowMajor_val_three]
    show ((i 0).val * 2048 + (i 1).val) * 1024 + (i 2).val = ((i 0).val * 2048 + (i 1).val) * 1024 + (i 2).val
    rfl)

/-- Part p of the joint projection as [32, 2048, 64] slabs: slab b * 16 + h, row s, feature d is row b * 2048 + s,
    column p * 1024 + h * 64 + d of the [4096, 3072] matrix. -/
theorem part_of_joint (y : S4096x3072.Idx → α) (p : ℕ) (hp : p < 3)
    (sc1 : S4096x3072.ShapeCasts S2x2048x3x16x64) (tr : S2x2048x3x16x64.Transposes [2, 0, 3, 1, 4] S3x2x16x2048x64)
    (sl : S3x2x16x2048x64.Slices ![p, 0, 0, 0, 0] S1x2x16x2048x64)
    (sc2 : S1x2x16x2048x64.ShapeCasts S2x16x2048x64) (sc3 : S2x16x2048x64.ShapeCasts S32x2048x64)
    (i : S32x2048x64.Idx) :
    shapeCast S32x2048x64 (shapeCast S2x16x2048x64 (extractStridedSlice S1x2x16x2048x64 ![p, 0, 0, 0, 0]
        (transpose S3x2x16x2048x64 [2, 0, 3, 1, 4] (shapeCast S2x2048x3x16x64 y sc1) tr) sl) sc2) sc3 i
      = y (ix2 ⟨(i 0).val / 16 * 2048 + (i 1).val, by
              have h0 : (i 0).val < 32 := (i 0).isLt; have h1 : (i 1).val < 2048 := (i 1).isLt; omega⟩
            ⟨p * 1024 + (i 0).val % 16 * 64 + (i 2).val, by
              have h2 : (i 2).val < 64 := (i 2).isLt; omega⟩) := by
  have h0 : (i 0).val < 32 := (i 0).isLt
  have h1 : (i 1).val < 2048 := (i 1).isLt
  have h2 : (i 2).val < 64 := (i 2).isLt
  -- [32, 2048, 64] from [2, 16, 2048, 64]
  refine (shapeCast_apply _ sc3 i
    (ix4 (⟨(i 0).val / 16, by omega⟩ : Fin 2) (⟨(i 0).val % 16, Nat.mod_lt _ (by norm_num)⟩ : Fin 16)
      (⟨(i 1).val, h1⟩ : Fin 2048) (⟨(i 2).val, h2⟩ : Fin 64)) (by
    rewrite [Shape.rowMajor_val_four, Shape.rowMajor_val_three]
    show (((i 0).val / 16 * 16 + (i 0).val % 16) * 2048 + (i 1).val) * 64 + (i 2).val
      = ((i 0).val * 2048 + (i 1).val) * 64 + (i 2).val
    omega)).trans ?_
  -- [2, 16, 2048, 64] from [1, 2, 16, 2048, 64]
  refine (shapeCast_apply _ sc2 _
    (ix5 (⟨0, Nat.one_pos⟩ : Fin 1) (⟨(i 0).val / 16, by omega⟩ : Fin 2)
      (⟨(i 0).val % 16, Nat.mod_lt _ (by norm_num)⟩ : Fin 16) (⟨(i 1).val, h1⟩ : Fin 2048) (⟨(i 2).val, h2⟩ : Fin 64)) (by
    rewrite [Shape.rowMajor_val_five, Shape.rowMajor_val_four]
    show ((((0 * 2 + (i 0).val / 16) * 16 + (i 0).val % 16) * 2048 + (i 1).val) * 64 + (i 2).val)
      = (((i 0).val / 16 * 16 + (i 0).val % 16) * 2048 + (i 1).val) * 64 + (i 2).val
    omega)).trans ?_
  -- the slice at offset p along the part axis
  refine (extractStridedSlice_apply ![p, 0, 0, 0, 0] _ sl _
    (ix5 (⟨p, hp⟩ : Fin 3) (⟨(i 0).val / 16, by omega⟩ : Fin 2)
      (⟨(i 0).val % 16, Nat.mod_lt _ (by norm_num)⟩ : Fin 16) (⟨(i 1).val, h1⟩ : Fin 2048) (⟨(i 2).val, h2⟩ : Fin 64))
    (fun a => match a with
      | ⟨0, _⟩ => by show p = p + 0; omega
      | ⟨1, _⟩ => by show (i 0).val / 16 = 0 + (i 0).val / 16; omega
      | ⟨2, _⟩ => by show (i 0).val % 16 = 0 + (i 0).val % 16; omega
      | ⟨3, _⟩ => by show (i 1).val = 0 + (i 1).val; omega
      | ⟨4, _⟩ => by show (i 2).val = 0 + (i 2).val; omega)).trans ?_
  -- the transpose: result axes (part, batch, head, row, feature) from source axes (batch, row, part, head, feature)
  refine (transpose_apply [2, 0, 3, 1, 4] _ tr _
    (ix5 (⟨(i 0).val / 16, by omega⟩ : Fin 2) (⟨(i 1).val, h1⟩ : Fin 2048) (⟨p, hp⟩ : Fin 3)
      (⟨(i 0).val % 16, Nat.mod_lt _ (by norm_num)⟩ : Fin 16) (⟨(i 2).val, h2⟩ : Fin 64))
    (fun b => match b with
      | ⟨0, _⟩ => rfl
      | ⟨1, _⟩ => rfl
      | ⟨2, _⟩ => rfl
      | ⟨3, _⟩ => rfl
      | ⟨4, _⟩ => rfl)).trans ?_
  -- [2, 2048, 3, 16, 64] from [4096, 3072]
  exact shapeCast_apply y sc1 _ _ (by
    rewrite [Shape.rowMajor_val_two, Shape.rowMajor_val_five]
    show ((i 0).val / 16 * 2048 + (i 1).val) * 3072 + (p * 1024 + (i 0).val % 16 * 64 + (i 2).val)
      = ((((i 0).val / 16 * 2048 + (i 1).val) * 3 + p) * 16 + (i 0).val % 16) * 64 + (i 2).val
    omega)

/-- The merged heads: row b * 2048 + s, column h * 64 + d of the [4096, 1024] matrix is slab b * 16 + h, row s,
    feature d of the [32, 2048, 64] array. -/
theorem merged_of_heads (y : S32x2048x64.Idx → α) (sc1 : S32x2048x64.ShapeCasts S2x16x2048x64)
    (tr : S2x16x2048x64.Transposes [0, 2, 1, 3] S2x2048x16x64) (sc2 : S2x2048x16x64.ShapeCasts S4096x1024)
    (i : S4096x1024.Idx) :
    shapeCast S4096x1024 (transpose S2x2048x16x64 [0, 2, 1, 3] (shapeCast S2x16x2048x64 y sc1) tr) sc2 i
      = y (ix3 ⟨(i 0).val / 2048 * 16 + (i 1).val / 64, by
              have h0 : (i 0).val < 4096 := (i 0).isLt; have h1 : (i 1).val < 1024 := (i 1).isLt; omega⟩
            ⟨(i 0).val % 2048, Nat.mod_lt _ (by norm_num)⟩ ⟨(i 1).val % 64, Nat.mod_lt _ (by norm_num)⟩) := by
  have h0 : (i 0).val < 4096 := (i 0).isLt
  have h1 : (i 1).val < 1024 := (i 1).isLt
  refine (shapeCast_apply _ sc2 i
    (ix4 (⟨(i 0).val / 2048, by omega⟩ : Fin 2) (⟨(i 0).val % 2048, Nat.mod_lt _ (by norm_num)⟩ : Fin 2048)
      (⟨(i 1).val / 64, by omega⟩ : Fin 16) (⟨(i 1).val % 64, Nat.mod_lt _ (by norm_num)⟩ : Fin 64)) (by
    rewrite [Shape.rowMajor_val_four, Shape.rowMajor_val_two]
    show (((i 0).val / 2048 * 2048 + (i 0).val % 2048) * 16 + (i 1).val / 64) * 64 + (i 1).val % 64
      = (i 0).val * 1024 + (i 1).val
    omega)).trans ?_
  refine (transpose_apply [0, 2, 1, 3] _ tr _
    (ix4 (⟨(i 0).val / 2048, by omega⟩ : Fin 2) (⟨(i 1).val / 64, by omega⟩ : Fin 16)
      (⟨(i 0).val % 2048, Nat.mod_lt _ (by norm_num)⟩ : Fin 2048) (⟨(i 1).val % 64, Nat.mod_lt _ (by norm_num)⟩ : Fin 64))
    (fun b => match b with
      | ⟨0, _⟩ => rfl
      | ⟨1, _⟩ => rfl
      | ⟨2, _⟩ => rfl
      | ⟨3, _⟩ => rfl)).trans ?_
  exact shapeCast_apply y sc1 _ _ (by
    rewrite [Shape.rowMajor_val_three, Shape.rowMajor_val_four]
    show (((i 0).val / 2048 * 16 + (i 1).val / 64) * 2048 + (i 0).val % 2048) * 64 + (i 1).val % 64
      = ((((i 0).val / 2048) * 16 + (i 1).val / 64) * 2048 + (i 0).val % 2048) * 64 + (i 1).val % 64
    rfl)

end Layout

/-! ## The four stretches of host operations -/

/-- Before the first region: the tokens as a [4096, 1024] matrix. -/
theorem glue0_v1 (W : Valuation τ sig (Elt Ideal)) :
    StableHlo.after (hostOps0 (F := Ideal)) W (Proc.devRef .tc main_v1)
      = fun i : S4096x1024.Idx => W (Proc.devRef .tc main_arg0)
          (ix3 ⟨(i 0).val / 2048, by have h0 : (i 0).val < 4096 := (i 0).isLt; omega⟩
            ⟨(i 0).val % 2048, Nat.mod_lt _ (by norm_num)⟩ ⟨(i 1).val, (i 1).isLt⟩) := by
  after_results
  funext i
  exact rows_of_tokens _ _ i

/-- Before the first region: the joint projection's weights as they are. -/
theorem glue0_v2 (W : Valuation τ sig (Elt Ideal)) :
    StableHlo.after (hostOps0 (F := Ideal)) W (Proc.devRef .tc main_v2) = W (Proc.devRef .tc main_arg1) := by
  after_results
  rfl

/-- Before the first region: the output projection's weights as they are. -/
theorem glue0_v3 (W : Valuation τ sig (Elt Ideal)) :
    StableHlo.after (hostOps0 (F := Ideal)) W (Proc.devRef .tc main_v3) = W (Proc.devRef .tc main_arg3) := by
  after_results
  rfl

/-- Between the first and second regions: the query part (part 0) of the joint projection. -/
theorem glue1_v13 (W : Valuation τ sig (Elt Ideal)) :
    StableHlo.after (hostOps1 (F := Ideal)) W (Proc.devRef .tc main_v13)
      = fun i : S32x2048x64.Idx => W (Proc.devRef .tc main_v4)
          (ix2 ⟨(i 0).val / 16 * 2048 + (i 1).val, by
              have h0 : (i 0).val < 32 := (i 0).isLt; have h1 : (i 1).val < 2048 := (i 1).isLt; omega⟩
            ⟨0 * 1024 + (i 0).val % 16 * 64 + (i 2).val, by have h2 : (i 2).val < 64 := (i 2).isLt; omega⟩) := by
  after_results
  funext i
  exact part_of_joint _ 0 (by norm_num) _ _ _ _ _ i

/-- Between the first and second regions: the key part (part 1) of the joint projection. -/
theorem glue1_v14 (W : Valuation τ sig (Elt Ideal)) :
    StableHlo.after (hostOps1 (F := Ideal)) W (Proc.devRef .tc main_v14)
      = fun i : S32x2048x64.Idx => W (Proc.devRef .tc main_v4)
          (ix2 ⟨(i 0).val / 16 * 2048 + (i 1).val, by
              have h0 : (i 0).val < 32 := (i 0).isLt; have h1 : (i 1).val < 2048 := (i 1).isLt; omega⟩
            ⟨1 * 1024 + (i 0).val % 16 * 64 + (i 2).val, by have h2 : (i 2).val < 64 := (i 2).isLt; omega⟩) := by
  after_results
  funext i
  exact part_of_joint _ 1 (by norm_num) _ _ _ _ _ i

/-- Between the first and second regions: the value part (part 2) of the joint projection. -/
theorem glue1_v15 (W : Valuation τ sig (Elt Ideal)) :
    StableHlo.after (hostOps1 (F := Ideal)) W (Proc.devRef .tc main_v15)
      = fun i : S32x2048x64.Idx => W (Proc.devRef .tc main_v4)
          (ix2 ⟨(i 0).val / 16 * 2048 + (i 1).val, by
              have h0 : (i 0).val < 32 := (i 0).isLt; have h1 : (i 1).val < 2048 := (i 1).isLt; omega⟩
            ⟨2 * 1024 + (i 0).val % 16 * 64 + (i 2).val, by have h2 : (i 2).val < 64 := (i 2).isLt; omega⟩) := by
  after_results
  funext i
  exact part_of_joint _ 2 (by norm_num) _ _ _ _ _ i

/-- Between the second and third regions: the heads' outputs side by side. -/
theorem glue2_v19 (W : Valuation τ sig (Elt Ideal)) :
    StableHlo.after (hostOps2 (F := Ideal)) W (Proc.devRef .tc main_v19)
      = fun i : S4096x1024.Idx => W (Proc.devRef .tc main_v16)
          (ix3 ⟨(i 0).val / 2048 * 16 + (i 1).val / 64, by
              have h0 : (i 0).val < 4096 := (i 0).isLt; have h1 : (i 1).val < 1024 := (i 1).isLt; omega⟩
            ⟨(i 0).val % 2048, Nat.mod_lt _ (by norm_num)⟩ ⟨(i 1).val % 64, Nat.mod_lt _ (by norm_num)⟩) := by
  after_results
  funext i
  exact merged_of_heads _ _ _ _ i

/-- After the third region: the result as a [2, 2048, 1024] array. -/
theorem glue3_v21 (W : Valuation τ sig (Elt Ideal)) :
    StableHlo.after (hostOps3 (F := Ideal)) W (Proc.devRef .tc main_v21)
      = fun i : S2x2048x1024.Idx => W (Proc.devRef .tc main_v20)
          (ix2 ⟨(i 0).val * 2048 + (i 1).val, by
              have h0 : (i 0).val < 2 := (i 0).isLt; have h1 : (i 1).val < 2048 := (i 1).isLt; omega⟩
            ⟨(i 2).val, (i 2).isLt⟩) := by
  after_results
  funext i
  exact tokens_of_rows _ _ i

/-! ## The same, at an index given by its coordinates -/

theorem glue0_v1_ix (W : Valuation τ sig (Elt Ideal)) (r : Fin 4096) (e : Fin 1024) :
    StableHlo.after (hostOps0 (F := Ideal)) W (Proc.devRef .tc main_v1) (ix2 r e)
      = W (Proc.devRef .tc main_arg0)
          (ix3 ⟨r.val / 2048, by have := r.isLt; omega⟩ ⟨r.val % 2048, Nat.mod_lt _ (by norm_num)⟩ e) :=
  congrFun (glue0_v1 W) (ix2 r e)

theorem glue1_v13_ix (W : Valuation τ sig (Elt Ideal)) (bh : Fin 32) (s : Fin 2048) (d : Fin 64) :
    StableHlo.after (hostOps1 (F := Ideal)) W (Proc.devRef .tc main_v13) (ix3 bh s d)
      = W (Proc.devRef .tc main_v4)
          (ix2 ⟨bh.val / 16 * 2048 + s.val, by have := bh.isLt; have := s.isLt; omega⟩
            ⟨0 * 1024 + bh.val % 16 * 64 + d.val, by have := d.isLt; omega⟩) :=
  congrFun (glue1_v13 W) (ix3 bh s d)

theorem glue1_v14_ix (W : Valuation τ sig (Elt Ideal)) (bh : Fin 32) (s : Fin 2048) (d : Fin 64) :
    StableHlo.after (hostOps1 (F := Ideal)) W (Proc.devRef .tc main_v14) (ix3 bh s d)
      = W (Proc.devRef .tc main_v4)
          (ix2 ⟨bh.val / 16 * 2048 + s.val, by have := bh.isLt; have := s.isLt; omega⟩
            ⟨1 * 1024 + bh.val % 16 * 64 + d.val, by have := d.isLt; omega⟩) :=
  congrFun (glue1_v14 W) (ix3 bh s d)

theorem glue1_v15_ix (W : Valuation τ sig (Elt Ideal)) (bh : Fin 32) (s : Fin 2048) (d : Fin 64) :
    StableHlo.after (hostOps1 (F := Ideal)) W (Proc.devRef .tc main_v15) (ix3 bh s d)
      = W (Proc.devRef .tc main_v4)
          (ix2 ⟨bh.val / 16 * 2048 + s.val, by have := bh.isLt; have := s.isLt; omega⟩
            ⟨2 * 1024 + bh.val % 16 * 64 + d.val, by have := d.isLt; omega⟩) :=
  congrFun (glue1_v15 W) (ix3 bh s d)

theorem glue2_v19_ix (W : Valuation τ sig (Elt Ideal)) (r : Fin 4096) (e : Fin 1024) :
    StableHlo.after (hostOps2 (F := Ideal)) W (Proc.devRef .tc main_v19) (ix2 r e)
      = W (Proc.devRef .tc main_v16)
          (ix3 ⟨r.val / 2048 * 16 + e.val / 64, by have := r.isLt; have := e.isLt; omega⟩
            ⟨r.val % 2048, Nat.mod_lt _ (by norm_num)⟩ ⟨e.val % 64, Nat.mod_lt _ (by norm_num)⟩) :=
  congrFun (glue2_v19 W) (ix2 r e)

theorem glue3_v21_ix (W : Valuation τ sig (Elt Ideal)) (b : Fin 2) (s : Fin 2048) (e : Fin 1024) :
    StableHlo.after (hostOps3 (F := Ideal)) W (Proc.devRef .tc main_v21) (ix3 b s e)
      = W (Proc.devRef .tc main_v20) (ix2 ⟨b.val * 2048 + s.val, by have := b.isLt; have := s.isLt; omega⟩ e) :=
  congrFun (glue3_v21 W) (ix3 b s e)

end Cert.KernelIdeal.Val

end
-- ==== Proof.SpecStages.lean ====
/-
  The stages of the attention layer over the real numbers, each read as an array of extended reals.

  The layer is a chain: the tokens as 4096 rows; the joint projection of the rows; its query, key and value parts
  as 32 slabs (batch b, head h is slab b * 16 + h); one head's attention per slab; the heads' outputs side by
  side as 4096 rows; the output projection; the rows as a [2, 2048, 1024] array. Each stage, written on arrays of
  extended reals that are readings of real arrays, is the reading of the next real stage: a finite sum of products
  of coercions is the coercion of the real sum, and the index arithmetic is that of row b * 2048 + s and of
  column p * 1024 + h * 64 + d.
-/
import proofs.«163282_j10213432230461_2_alg».proof.Proof.Spec
import proofs.«163282_j10213432230461_2_alg».proof.Proof.RealArr
import proofs.«163282_j10213432230461_2_alg».proof.Proof.LibOnlineLogSumExp
import proofs.«163282_j10213432230461_2_alg».proof.Proof.KiGlue

noncomputable section

namespace Cert.KernelIdeal.Val

open Cert.KernelIdeal Cert.KernelIdeal.Gen Idealize.ShloMosaic Idealize.ShloMosaic.ValueIdx Idealize.ShloMosaic.TcCoe
open Cert.AttnSpec Cert.RealArr
open Cert.Lib.OnlineLogSumExp (coe_sum)

/-- A [2, 2048, n] array of reals as 4096 rows: row r is (r / 2048, r % 2048). -/
def rows2 {n : ℕ} (f : Fin 2 → Fin 2048 → Fin n → ℝ) (r : Fin 4096) (e : Fin n) : ℝ :=
  f ⟨r.val / 2048, by have := r.isLt; omega⟩ ⟨r.val % 2048, Nat.mod_lt _ (by norm_num)⟩ e

/-- Row b * 2048 + s of the 4096 rows is row (b, s). -/
theorem rows2_mk {n : ℕ} (f : Fin 2 → Fin 2048 → Fin n → ℝ) (b : Fin 2) (s : Fin 2048) (e : Fin n)
    (h : b.val * 2048 + s.val < 4096) : rows2 f ⟨b.val * 2048 + s.val, h⟩ e = f b s e := by
  have hb : (⟨(b.val * 2048 + s.val) / 2048, by omega⟩ : Fin 2) = b :=
    Fin.ext (by show (b.val * 2048 + s.val) / 2048 = b.val; have := s.isLt; omega)
  have hs : (⟨(b.val * 2048 + s.val) % 2048, Nat.mod_lt _ (by norm_num)⟩ : Fin 2048) = s :=
    Fin.ext (by show (b.val * 2048 + s.val) % 2048 = s.val; have := s.isLt; omega)
  show f ⟨(b.val * 2048 + s.val) / 2048, _⟩ ⟨(b.val * 2048 + s.val) % 2048, _⟩ e = f b s e
  rw [hb, hs]

/-- The tokens as 4096 rows. -/
theorem st_rows (x : Fin 2 → Fin 2048 → Fin 1024 → ℝ) :
    (fun i : S4096x1024.Idx => ofR3 x
        (ix3 ⟨(i 0).val / 2048, by have h0 : (i 0).val < 4096 := (i 0).isLt; omega⟩
          ⟨(i 0).val % 2048, Nat.mod_lt _ (by norm_num)⟩ ⟨(i 1).val, (i 1).isLt⟩))
      = ofR2 (rows2 x) := by
  funext i
  rfl

/-- A matrix product of readings plus a reading is the reading of the real matrix product plus the real bias. -/
theorem coe_matmul_row {m n : ℕ} (a : Fin m → ℝ) (w : Fin m → Fin n → ℝ) (c : Fin n → ℝ) (e : Fin n) :
    (∑ k : Fin m, ((a k : ℝ) : EReal) * ((w k e : ℝ) : EReal)) + ((c e : ℝ) : EReal)
      = ((∑ k : Fin m, a k * w k e + c e : ℝ) : EReal) := by
  rw [EReal.coe_add, coe_sum]
  rfl

/-- The joint projection of the rows. -/
theorem st_proj0 (x : Fin 2 → Fin 2048 → Fin 1024 → ℝ) (wq : Fin 1024 → Fin 3072 → ℝ) (bq : Fin 3072 → ℝ) :
    (fun i : S4096x3072.Idx => (∑ k : Fin 1024, ofR2 (rows2 x) (ix2 (i 0) k) * ofR2 wq (ix2 k (i 1))) + ofR1 bq (ix1 (i 1)))
      = ofR2 (rows2 (qkv x wq bq)) := by
  funext i
  obtain ⟨r, e, rfl⟩ : ∃ (r : Fin 4096) (e : Fin 3072), i = ix2 r e := ⟨i 0, i 1, eq_ix2 i⟩
  exact coe_matmul_row (fun k => rows2 x r k) wq bq e

/-- Part p of the joint projection as 32 slabs. -/
theorem st_part (x : Fin 2 → Fin 2048 → Fin 1024 → ℝ) (wq : Fin 1024 → Fin 3072 → ℝ) (bq : Fin 3072 → ℝ) (p : Fin 3) :
    (fun i : S32x2048x64.Idx => ofR2 (rows2 (qkv x wq bq))
        (ix2 ⟨(i 0).val / 16 * 2048 + (i 1).val, by
            have h0 : (i 0).val < 32 := (i 0).isLt; have h1 : (i 1).val < 2048 := (i 1).isLt; omega⟩
          ⟨p.val * 1024 + (i 0).val % 16 * 64 + (i 2).val, by
            have h2 : (i 2).val < 64 := (i 2).isLt; have := p.isLt; omega⟩))
      = ofR3 (fun bh s d => part x wq bq p ⟨bh.val / 16, by have := bh.isLt; omega⟩
          ⟨bh.val % 16, Nat.mod_lt _ (by norm_num)⟩ s d) := by
  funext i
  obtain ⟨bh, s, d, rfl⟩ : ∃ (bh : Fin 32) (s : Fin 2048) (d : Fin 64), i = ix3 bh s d := ⟨i 0, i 1, i 2, eq_ix3 i⟩
  have hbh := bh.isLt
  show ((rows2 (qkv x wq bq) ⟨(⟨bh.val / 16, by omega⟩ : Fin 2).val * 2048 + s.val, by
      have := s.isLt; show bh.val / 16 * 2048 + s.val < 4096; omega⟩
      ⟨p.val * 1024 + bh.val % 16 * 64 + d.val, by have := d.isLt; have := p.isLt; omega⟩ : ℝ) : EReal) = _
  rw [rows2_mk]
  rfl

theorem st_part0 (x : Fin 2 → Fin 2048 → Fin 1024 → ℝ) (wq : Fin 1024 → Fin 3072 → ℝ) (bq : Fin 3072 → ℝ) :
    (fun i : S32x2048x64.Idx => ofR2 (rows2 (qkv x wq bq))
        (ix2 ⟨(i 0).val / 16 * 2048 + (i 1).val, by
            have h0 : (i 0).val < 32 := (i 0).isLt; have h1 : (i 1).val < 2048 := (i 1).isLt; omega⟩
          ⟨0 * 1024 + (i 0).val % 16 * 64 + (i 2).val, by have h2 : (i 2).val < 64 := (i 2).isLt; omega⟩))
      = ofR3 (fun bh s d => part x wq bq 0 ⟨bh.val / 16, by have := bh.isLt; omega⟩
          ⟨bh.val % 16, Nat.mod_lt _ (by norm_num)⟩ s d) :=
  st_part x wq bq 0

theorem st_part1 (x : Fin 2 → Fin 2048 → Fin 1024 → ℝ) (wq : Fin 1024 → Fin 3072 → ℝ) (bq : Fin 3072 → ℝ) :
    (fun i : S32x2048x64.Idx => ofR2 (rows2 (qkv x wq bq))
        (ix2 ⟨(i 0).val / 16 * 2048 + (i 1).val, by
            have h0 : (i 0).val < 32 := (i 0).isLt; have h1 : (i 1).val < 2048 := (i 1).isLt; omega⟩
          ⟨1 * 1024 + (i 0).val % 16 * 64 + (i 2).val, by have h2 : (i 2).val < 64 := (i 2).isLt; omega⟩))
      = ofR3 (fun bh s d => part x wq bq 1 ⟨bh.val / 16, by have := bh.isLt; omega⟩
          ⟨bh.val % 16, Nat.mod_lt _ (by norm_num)⟩ s d) :=
  st_part x wq bq 1

theorem st_part2 (x : Fin 2 → Fin 2048 → Fin 1024 → ℝ) (wq : Fin 1024 → Fin 3072 → ℝ) (bq : Fin 3072 → ℝ) :
    (fun i : S32x2048x64.Idx => ofR2 (rows2 (qkv x wq bq))
        (ix2 ⟨(i 0).val / 16 * 2048 + (i 1).val, by
            have h0 : (i 0).val < 32 := (i 0).isLt; have h1 : (i 1).val < 2048 := (i 1).isLt; omega⟩
          ⟨2 * 1024 + (i 0).val % 16 * 64 + (i 2).val, by have h2 : (i 2).val < 64 := (i 2).isLt; omega⟩))
      = ofR3 (fun bh s d => part x wq bq 2 ⟨bh.val / 16, by have := bh.isLt; omega⟩
          ⟨bh.val % 16, Nat.mod_lt _ (by norm_num)⟩ s d) :=
  st_part x wq bq 2

/-- The heads' outputs side by side, as 4096 rows. -/
theorem st_merged (x : Fin 2 → Fin 2048 → Fin 1024 → ℝ) (wq : Fin 1024 → Fin 3072 → ℝ) (bq : Fin 3072 → ℝ) :
    (fun i : S4096x1024.Idx => ofR3 (fun bh s d =>
          attn (part x wq bq 0 ⟨bh.val / 16, by have := bh.isLt; omega⟩ ⟨bh.val % 16, Nat.mod_lt _ (by norm_num)⟩)
            (part x wq bq 1 ⟨bh.val / 16, by have := bh.isLt; omega⟩ ⟨bh.val % 16, Nat.mod_lt _ (by norm_num)⟩)
            (part x wq bq 2 ⟨bh.val / 16, by have := bh.isLt; omega⟩ ⟨bh.val % 16, Nat.mod_lt _ (by norm_num)⟩) s d)
        (ix3 (n0 := 32) ⟨(i 0).val / 2048 * 16 + (i 1).val / 64, by
            have h0 : (i 0).val < 4096 := (i 0).isLt; have h1 : (i 1).val < 1024 := (i 1).isLt; omega⟩
          ⟨(i 0).val % 2048, Nat.mod_lt _ (by norm_num)⟩ ⟨(i 1).val % 64, Nat.mod_lt _ (by norm_num)⟩))
      = ofR2 (rows2 (merged x wq bq)) := by
  funext i
  obtain ⟨r, e, rfl⟩ : ∃ (r : Fin 4096) (e : Fin 1024), i = ix2 r e := ⟨i 0, i 1, eq_ix2 i⟩
  have hr := r.isLt
  have he := e.isLt
  have hb : (⟨(r.val / 2048 * 16 + e.val / 64) / 16, by omega⟩ : Fin 2) = ⟨r.val / 2048, by omega⟩ :=
    Fin.ext (by show (r.val / 2048 * 16 + e.val / 64) / 16 = r.val / 2048; omega)
  have hh : (⟨(r.val / 2048 * 16 + e.val / 64) % 16, Nat.mod_lt _ (by norm_num)⟩ : Fin 16) = ⟨e.val / 64, by omega⟩ :=
    Fin.ext (by show (r.val / 2048 * 16 + e.val / 64) % 16 = e.val / 64; omega)
  show ((attn (part x wq bq 0 ⟨(r.val / 2048 * 16 + e.val / 64) / 16, _⟩ ⟨(r.val / 2048 * 16 + e.val / 64) % 16, _⟩)
        (part x wq bq 1 ⟨(r.val / 2048 * 16 + e.val / 64) / 16, _⟩ ⟨(r.val / 2048 * 16 + e.val / 64) % 16, _⟩)
        (part x wq bq 2 ⟨(r.val / 2048 * 16 + e.val / 64) / 16, _⟩ ⟨(r.val / 2048 * 16 + e.val / 64) % 16, _⟩)
        ⟨r.val % 2048, _⟩ ⟨e.val % 64, _⟩ : ℝ) : EReal)
    = ((attn (part x wq bq 0 ⟨r.val / 2048, _⟩ ⟨e.val / 64, _⟩) (part x wq bq 1 ⟨r.val / 2048, _⟩ ⟨e.val / 64, _⟩)
        (part x wq bq 2 ⟨r.val / 2048, _⟩ ⟨e.val / 64, _⟩) ⟨r.val % 2048, _⟩ ⟨e.val % 64, _⟩ : ℝ) : EReal)
  rw [hb, hh]

/-- The output projection of the rows. -/
theorem st_proj2 (x : Fin 2 → Fin 2048 → Fin 1024 → ℝ) (wq : Fin 1024 → Fin 3072 → ℝ) (bq : Fin 3072 → ℝ)
    (wo : Fin 1024 → Fin 1024 → ℝ) (bo : Fin 1024 → ℝ) :
    (fun i : S4096x1024.Idx => (∑ k : Fin 1024, ofR2 (rows2 (merged x wq bq)) (ix2 (i 0) k) * ofR2 wo (ix2 k (i 1))) + ofR1 bo (ix1 (i 1)))
      = ofR2 (rows2 (out x wq bq wo bo)) := by
  funext i
  obtain ⟨r, e, rfl⟩ : ∃ (r : Fin 4096) (e : Fin 1024), i = ix2 r e := ⟨i 0, i 1, eq_ix2 i⟩
  exact coe_matmul_row (fun k => rows2 (merged x wq bq) r k) wo bo e

/-- The rows as a [2, 2048, 1024] array. -/
theorem st_out (x : Fin 2 → Fin 2048 → Fin 1024 → ℝ) (wq : Fin 1024 → Fin 3072 → ℝ) (bq : Fin 3072 → ℝ)
    (wo : Fin 1024 → Fin 1024 → ℝ) (bo : Fin 1024 → ℝ) :
    (fun i : S2x2048x1024.Idx => ofR2 (rows2 (out x wq bq wo bo))
        (ix2 ⟨(i 0).val * 2048 + (i 1).val, by
            have h0 : (i 0).val < 2 := (i 0).isLt; have h1 : (i 1).val < 2048 := (i 1).isLt; omega⟩
          ⟨(i 2).val, (i 2).isLt⟩))
      = ofR3 (out x wq bq wo bo) := by
  funext i
  obtain ⟨b, s, e, rfl⟩ : ∃ (b : Fin 2) (s : Fin 2048) (e : Fin 1024), i = ix3 b s e := ⟨i 0, i 1, i 2, eq_ix3 i⟩
  show ((rows2 (out x wq bq wo bo) ⟨b.val * 2048 + s.val, _⟩ e : ℝ) : EReal) = ((out x wq bq wo bo b s e : ℝ) : EReal)
  rw [rows2_mk]

end Cert.KernelIdeal.Val

end
-- ==== Proof.KiValue.lean ====
/-
  What the kernel program's result array holds for real inputs: the specification, index by index.

  The run (Proof/KiRun.lean) ends with every buffer at the last boundary's contents, a fold through the host
  operations and the three regions. Reading it back to front: the result is a reshape of the output projection's
  array; that array is rows-times-matrix-plus-bias of the merged heads; the merged heads are a relayout of the
  attention region's array; that array is, head by head and row by row, the softmax-weighted combination of value
  rows; query, key and value are slices of the joint projection's array; and that is rows-times-matrix-plus-bias of
  the tokens. Each step keeps "an array of real numbers".
-/
import proofs.«163282_j10213432230461_2_alg».proof.Proof.KiRun
import proofs.«163282_j10213432230461_2_alg».proof.Proof.ValR0
import proofs.«163282_j10213432230461_2_alg».proof.Proof.ValR1
import proofs.«163282_j10213432230461_2_alg».proof.Proof.ValR2
import proofs.«163282_j10213432230461_2_alg».proof.Proof.KiGlue
import proofs.«163282_j10213432230461_2_alg».proof.Proof.SpecStages

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx
open Idealize.SL.Sem
open Cert.AttnSpec Cert.RealArr

section

variable (m : (ℓ : Loc nD τ sig) → Buf (Elt Ideal) ℓ) (ρ : Dev nD → PrngReg) (c : Dev nD)
variable (x : Fin 2 → Fin 2048 → Fin 1024 → ℝ) (wq : Fin 1024 → Fin 3072 → ℝ) (bq : Fin 3072 → ℝ)
  (wo : Fin 1024 → Fin 1024 → ℝ) (bo : Fin 1024 → ℝ)

/-- The five argument arrays hold these real numbers. -/
structure RealArgs : Prop where
  h0 : m ((c : Thread nD τ).loc main_arg0) = ofR3 x
  h1 : m ((c : Thread nD τ).loc main_arg1) = ofR2 wq
  h2 : m ((c : Thread nD τ).loc main_arg2) = ofR1 bq
  h3 : m ((c : Thread nD τ).loc main_arg3) = ofR2 wo
  h4 : m ((c : Thread nD τ).loc main_arg4) = ofR1 bo

variable {m ρ c x wq bq wo bo}

/-! ## The joint projection -/

theorem E1_v1 (H : RealArgs m c x wq bq wo bo) : E1 m ρ c main_v1 = ofR2 (rows2 x) := by
  show StableHlo.after hostOps0 (W0 m ρ c) (Proc.devRef .tc main_v1) = _
  rw [glue0_v1]
  show (fun i : S4096x1024.Idx => m ((c : Thread nD τ).loc main_arg0) (ix3 ⟨(i 0).val / 2048, _⟩ ⟨(i 0).val % 2048, _⟩ ⟨(i 1).val, (i 1).isLt⟩)) = _
  rw [H.h0]
  exact st_rows x

theorem E1_v2 (H : RealArgs m c x wq bq wo bo) : E1 m ρ c main_v2 = ofR2 wq :=
  (glue0_v2 (W0 m ρ c)).trans H.h1

theorem E1_arg2 (H : RealArgs m c x wq bq wo bo) : E1 m ρ c main_arg2 = ofR1 bq :=
  (StableHlo.after_of_writes_sub hostOps0 _ hostOps0_writes (by decide)).trans H.h2

theorem W2_v4 (H : RealArgs m c x wq bq wo bo) : W2 m ρ c (Proc.devRef .tc main_v4) = ofR2 (rows2 (qkv x wq bq)) := by
  refine (W2_arr m ρ c 3).trans ?_
  rw [arr0_3, E1_v1 H, E1_v2 H, E1_arg2 H]
  exact st_proj0 x wq bq

/-! ## Query, key, value -/

theorem E3_v13 (H : RealArgs m c x wq bq wo bo) :
    E3 m ρ c main_v13 = ofR3 (fun bh s d => part x wq bq 0 ⟨bh.val / 16, by have := bh.isLt; omega⟩ ⟨bh.val % 16, Nat.mod_lt _ (by norm_num)⟩ s d) := by
  show StableHlo.after hostOps1 (W2 m ρ c) (Proc.devRef .tc main_v13) = _
  rw [glue1_v13, W2_v4 H]
  exact st_part0 x wq bq

theorem E3_v14 (H : RealArgs m c x wq bq wo bo) :
    E3 m ρ c main_v14 = ofR3 (fun bh s d => part x wq bq 1 ⟨bh.val / 16, by have := bh.isLt; omega⟩ ⟨bh.val % 16, Nat.mod_lt _ (by norm_num)⟩ s d) := by
  show StableHlo.after hostOps1 (W2 m ρ c) (Proc.devRef .tc main_v14) = _
  rw [glue1_v14, W2_v4 H]
  exact st_part1 x wq bq

theorem E3_v15 (H : RealArgs m c x wq bq wo bo) :
    E3 m ρ c main_v15 = ofR3 (fun bh s d => part x wq bq 2 ⟨bh.val / 16, by have := bh.isLt; omega⟩ ⟨bh.val % 16, Nat.mod_lt _ (by norm_num)⟩ s d) := by
  show StableHlo.after hostOps1 (W2 m ρ c) (Proc.devRef .tc main_v15) = _
  rw [glue1_v15, W2_v4 H]
  exact st_part2 x wq bq

/-! ## Attention, and the heads side by side -/

theorem W4_v16 (H : RealArgs m c x wq bq wo bo) :
    W4 m ρ c (Proc.devRef .tc main_v16) = ofR3 (fun bh s d =>
      attn (part x wq bq 0 ⟨bh.val / 16, by have := bh.isLt; omega⟩ ⟨bh.val % 16, Nat.mod_lt _ (by norm_num)⟩)
        (part x wq bq 1 ⟨bh.val / 16, by have := bh.isLt; omega⟩ ⟨bh.val % 16, Nat.mod_lt _ (by norm_num)⟩)
        (part x wq bq 2 ⟨bh.val / 16, by have := bh.isLt; omega⟩ ⟨bh.val % 16, Nat.mod_lt _ (by norm_num)⟩) s d) :=
  (W4_arr m ρ c 3).trans (arr1_3 (E3 m ρ) c _ _ _ (E3_v13 H) (E3_v14 H) (E3_v15 H))

theorem E5_v19 (H : RealArgs m c x wq bq wo bo) : E5 m ρ c main_v19 = ofR2 (rows2 (merged x wq bq)) := by
  show StableHlo.after hostOps2 (W4 m ρ c) (Proc.devRef .tc main_v19) = _
  rw [glue2_v19, W4_v16 H]
  exact st_merged x wq bq

theorem E5_v3 (H : RealArgs m c x wq bq wo bo) : E5 m ρ c main_v3 = ofR2 wo :=
  calc W5 m ρ c (Proc.devRef .tc main_v3)
    _ = W4 m ρ c (Proc.devRef .tc main_v3) := StableHlo.after_of_writes_sub hostOps2 _ hostOps2_writes (by decide)
    _ = W3 m ρ c (Proc.devRef .tc main_v3) := W4_of_ne m ρ c main_v3 (by decide)
    _ = W2 m ρ c (Proc.devRef .tc main_v3) := StableHlo.after_of_writes_sub hostOps1 _ hostOps1_writes (by decide)
    _ = W1 m ρ c (Proc.devRef .tc main_v3) := W2_of_ne m ρ c main_v3 (by decide)
    _ = W0 m ρ c (Proc.devRef .tc main_arg3) := glue0_v3 (W0 m ρ c)
    _ = ofR2 wo := H.h3

theorem E5_arg4 (H : RealArgs m c x wq bq wo bo) : E5 m ρ c main_arg4 = ofR1 bo :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = ofR1 bo := H.h4

/-! ## The output projection and the result -/

theorem W6_v20 (H : RealArgs m c x wq bq wo bo) : W6 m ρ c (Proc.devRef .tc main_v20) = ofR2 (rows2 (out x wq bq wo bo)) := by
  refine (W6_arr m ρ c 3).trans ?_
  rw [arr2_3, E5_v19 H, E5_v3 H, E5_arg4 H]
  exact st_proj2 x wq bq wo bo

/-- THE RESULT ARRAY at the end of the run is the specification of the real inputs. -/
theorem W7_v21 (H : RealArgs m c x wq bq wo bo) : W7 m ρ c (Proc.devRef .tc main_v21) = ofR3 (out x wq bq wo bo) := by
  show StableHlo.after hostOps3 (W6 m ρ c) (Proc.devRef .tc main_v21) = _
  rw [glue3_v21, W6_v20 H]
  exact st_out x wq bq wo bo

end

end Cert.KernelIdeal.Val

end
-- ==== Proof.RefStageProj.lean ====
/-
  The joint projection and its three parts, on arrays of real numbers.

  The reference multiplies row (b, s) of x by wq and adds the bias: a sum of 1024 real products plus a real, so the
  entry is the coercion of the real number `AttnSpec.qkv x wq bq b s e`. It then views the 3072 columns as
  [3, 16, 64] (column p * 1024 + h * 64 + d is part p, head h, feature d), moves the part and head axes to the front,
  and cuts the three parts apart. All of that renames indices: entry (b, h, s, d) of part p is entry
  (b, s, p * 1024 + h * 64 + d) of the projection.
-/
import proofs.«163282_j10213432230461_2_alg».proof.Proof.Gen.ReferenceIdeal.Read
import proofs.«163282_j10213432230461_2_alg».proof.Proof.Spec
import proofs.«163282_j10213432230461_2_alg».proof.Proof.RealArr
import proofs.«163282_j10213432230461_2_alg».proof.Proof.LibOnlineLogSumExp

noncomputable section

namespace Cert.RefValue

open Idealize.ShloMosaic Idealize.ShloMosaic.ValueIdx Cert.ReferenceIdeal Cert.ReferenceIdeal.Read Cert.RealArr
open Cert.Lib.OnlineLogSumExp (coe_sum exp_coe)

/-! ## The float literals of the reference -/

/-- The word 0x41000000 is the real number 8. -/
theorem ofBits_eight : Ideal.ofBits .f32 0x41000000#32 = ((8 : ℝ) : EReal) := by
  simp [Ideal.ofBits, Ideal.ieee, -EReal.coe_mul]; norm_num

/-- The word 0xFF800000 is -∞, the least extended real. -/
theorem ofBits_negInf : Ideal.ofBits .f32 0xFF800000#32 = (⊥ : EReal) := by
  simp [Ideal.ofBits, Ideal.ieee]

/-! ## Arrays of reals at an index given by its coordinates -/

theorem ofR1_ix1 {a : ℕ} (f : Fin a → ℝ) (i : Fin a) : ofR1 f (ix1 i) = ((f i : ℝ) : EReal) := rfl

theorem ofR2_ix2 {a b : ℕ} (f : Fin a → Fin b → ℝ) (i : Fin a) (j : Fin b) :
    ofR2 f (ix2 i j) = ((f i j : ℝ) : EReal) := rfl

theorem ofR3_ix3 {a b c : ℕ} (f : Fin a → Fin b → Fin c → ℝ) (i : Fin a) (j : Fin b) (k : Fin c) :
    ofR3 f (ix3 i j k) = ((f i j k : ℝ) : EReal) := rfl

/-! ## The joint projection -/

section
variable (x : Fin 2 → Fin 2048 → Fin 1024 → ℝ) (wq : Fin 1024 → Fin 3072 → ℝ) (bq : Fin 3072 → ℝ)

/-- Entry (b, s, e) of the projection plus bias is the real number `AttnSpec.qkv x wq bq b s e`. -/
theorem qkv_stage (b : Fin 2) (s : Fin 2048) (e : Fin 3072) :
    val_main_v3 (F := Ideal) (ofR3 x) (ofR2 wq) (ofR1 bq) (ix3 b s e)
      = ((Cert.AttnSpec.qkv x wq bq b s e : ℝ) : EReal) := by
  have hl : ∀ k : Fin 1024, lidx_main_v0 (ix3 b s e) k = ix3 b s k := fun k => funext fun a => Fin.ext (by
    match a with | ⟨0, _⟩ => rfl | ⟨1, _⟩ => rfl | ⟨2, _⟩ => rfl)
  have hr : ∀ k : Fin 1024, ridx_main_v0 (ix3 b s e) k = ix2 k e := fun k => funext fun a => Fin.ext (by
    match a with | ⟨0, _⟩ => rfl | ⟨1, _⟩ => rfl)
  have hb : idx_main_v1 (idx_main_v2 (ix3 b s e)) = ix1 e := funext fun a => Fin.ext (by
    match a with | ⟨0, _⟩ => rfl)
  rw [val_main_v3_apply, val_main_v0_apply, val_main_v2_apply, val_main_v1_apply, hb, ofR1_ix1, Ideal.addf_def]
  unfold Cert.AttnSpec.qkv
  rw [EReal.coe_add, coe_sum]
  refine congrArg (· + _) (Finset.sum_congr rfl fun k _ => ?_)
  rw [hl k, hr k, ofR3_ix3, ofR2_ix2, EReal.coe_mul]

/-! ## The three parts: index arithmetic -/

/-- Undoing the [3072] → [3, 16, 64] view and the transpose: entry (p, b, h, s, d) comes from column
    p * 1024 + h * 64 + d of row (b, s). -/
theorem idx_view (p : Fin 3) (b : Fin 2) (h : Fin 16) (s : Fin 2048) (d : Fin 64) :
    idx_main_v4 (idx_main_v5 (ix5 p b h s d)) = ix3 b s (Cert.AttnSpec.col p h d) := by
  have hp := p.isLt; have hb := b.isLt; have hh := h.isLt; have hs := s.isLt; have hd := d.isLt
  refine funext fun a => Fin.ext ?_
  match a with
  | ⟨0, _⟩ =>
    show ((((b.val * 2048 + s.val) * 3 + p.val) * 16 + h.val) * 64 + d.val) / 6291456 = b.val
    omega
  | ⟨1, _⟩ =>
    show ((((b.val * 2048 + s.val) * 3 + p.val) * 16 + h.val) * 64 + d.val) / 3072 % 2048 = s.val
    omega
  | ⟨2, _⟩ =>
    show ((((b.val * 2048 + s.val) * 3 + p.val) * 16 + h.val) * 64 + d.val) % 3072 = p.val * 1024 + h.val * 64 + d.val
    omega

/-- Dropping the leading unit axis of a slice: entry (b, h, s, d) is entry (0, b, h, s, d). -/
theorem idx_unit (b : Fin 2) (h : Fin 16) (s : Fin 2048) (d : Fin 64) :
    idx_main_v7 (ix4 b h s d) = ix5 (0 : Fin 1) b h s d := by
  have hb := b.isLt; have hh := h.isLt; have hs := s.isLt; have hd := d.isLt
  refine funext fun a => Fin.ext ?_
  match a with
  | ⟨0, _⟩ => rfl
  | ⟨1, _⟩ =>
    show (((b.val * 16 + h.val) * 2048 + s.val) * 64 + d.val) / 2097152 % 2 = b.val
    omega
  | ⟨2, _⟩ =>
    show (((b.val * 16 + h.val) * 2048 + s.val) * 64 + d.val) / 131072 % 16 = h.val
    omega
  | ⟨3, _⟩ =>
    show (((b.val * 16 + h.val) * 2048 + s.val) * 64 + d.val) / 64 % 2048 = s.val
    omega
  | ⟨4, _⟩ =>
    show (((b.val * 16 + h.val) * 2048 + s.val) * 64 + d.val) % 64 = d.val
    omega

/-- The slice starting at part 0. -/
theorem idx_slice0 (b : Fin 2) (h : Fin 16) (s : Fin 2048) (d : Fin 64) :
    idx_main_v6 (ix5 (0 : Fin 1) b h s d) = ix5 (0 : Fin 3) b h s d := funext fun a => Fin.ext (by
  match a with | ⟨0, _⟩ => rfl | ⟨1, _⟩ => rfl | ⟨2, _⟩ => rfl | ⟨3, _⟩ => rfl | ⟨4, _⟩ => rfl)

/-- The slice starting at part 1. -/
theorem idx_slice1 (b : Fin 2) (h : Fin 16) (s : Fin 2048) (d : Fin 64) :
    idx_main_v8 (ix5 (0 : Fin 1) b h s d) = ix5 (1 : Fin 3) b h s d := funext fun a => Fin.ext (by
  match a with | ⟨0, _⟩ => rfl | ⟨1, _⟩ => rfl | ⟨2, _⟩ => rfl | ⟨3, _⟩ => rfl | ⟨4, _⟩ => rfl)

/-- The slice starting at part 2. -/
theorem idx_slice2 (b : Fin 2) (h : Fin 16) (s : Fin 2048) (d : Fin 64) :
    idx_main_v10 (ix5 (0 : Fin 1) b h s d) = ix5 (2 : Fin 3) b h s d := funext fun a => Fin.ext (by
  match a with | ⟨0, _⟩ => rfl | ⟨1, _⟩ => rfl | ⟨2, _⟩ => rfl | ⟨3, _⟩ => rfl | ⟨4, _⟩ => rfl)

/-- Entry (p, b, h, s, d) of the transposed view is the real number `AttnSpec.part x wq bq p b h s d`. -/
theorem view_stage (p : Fin 3) (b : Fin 2) (h : Fin 16) (s : Fin 2048) (d : Fin 64) :
    val_main_v5 (F := Ideal) (ofR3 x) (ofR2 wq) (ofR1 bq) (ix5 p b h s d)
      = ((Cert.AttnSpec.part x wq bq p b h s d : ℝ) : EReal) := by
  rw [val_main_v5_apply, val_main_v4_apply, idx_view]
  exact qkv_stage x wq bq b s (Cert.AttnSpec.col p h d)

/-- The query part. -/
theorem part0_stage (b : Fin 2) (h : Fin 16) (s : Fin 2048) (d : Fin 64) :
    val_main_v7 (F := Ideal) (ofR3 x) (ofR2 wq) (ofR1 bq) (ix4 b h s d)
      = ((Cert.AttnSpec.part x wq bq 0 b h s d : ℝ) : EReal) := by
  rw [val_main_v7_apply, idx_unit, val_main_v6_apply, idx_slice0]
  exact view_stage x wq bq 0 b h s d

/-- The key part. -/
theorem part1_stage (b : Fin 2) (h : Fin 16) (s : Fin 2048) (d : Fin 64) :
    val_main_v9 (F := Ideal) (ofR3 x) (ofR2 wq) (ofR1 bq) (ix4 b h s d)
      = ((Cert.AttnSpec.part x wq bq 1 b h s d : ℝ) : EReal) := by
  have e : idx_main_v9 (ix4 b h s d) = ix5 (0 : Fin 1) b h s d := idx_unit b h s d
  rw [val_main_v9_apply, e, val_main_v8_apply, idx_slice1]
  exact view_stage x wq bq 1 b h s d

/-- The value part. -/
theorem part2_stage (b : Fin 2) (h : Fin 16) (s : Fin 2048) (d : Fin 64) :
    val_main_v11 (F := Ideal) (ofR3 x) (ofR2 wq) (ofR1 bq) (ix4 b h s d)
      = ((Cert.AttnSpec.part x wq bq 2 b h s d : ℝ) : EReal) := by
  have e : idx_main_v11 (ix4 b h s d) = ix5 (0 : Fin 1) b h s d := idx_unit b h s d
  rw [val_main_v11_apply, e, val_main_v10_apply, idx_slice2]
  exact view_stage x wq bq 2 b h s d

end

end Cert.RefValue

end
-- ==== Proof.RefStageSoftmax.lean ====
/-
  The softmax weights of one row of scores, on arrays of real numbers.

  For batch b and head h the score of query row s against key row j is a sum of 64 real products divided by the real
  8, hence a real number. The row's maximum is taken from -∞ over the 2048 scores of the row: it is the largest of
  them, because the largest score bounds every score of the row from above and is itself one of them — no evaluation
  of the fold is needed. Taking the maximum once more with -∞ changes nothing. A score minus the row's maximum is a
  real, its exponential a positive real; the 2048 exponentials of a row add up, from 0, to a positive real, and the
  quotient of a real by a nonzero real is the real quotient.
-/
import proofs.«163282_j10213432230461_2_alg».proof.Proof.RefStageProj

noncomputable section

namespace Cert.RefValue

open Idealize.ShloMosaic Idealize.ShloMosaic.ValueIdx Cert.ReferenceIdeal Cert.ReferenceIdeal.Gen Cert.ReferenceIdeal.Read Cert.RealArr
open Cert.Lib.OnlineLogSumExp (coe_sum exp_coe)

/-- A maximum taken from -∞ over finitely many real numbers is the real number that bounds them all and is one of
    them. -/
theorem fold_max_bot_coe {ι : Type} [Fintype ι] (f : ι → EReal) (r : ι → ℝ) (hf : ∀ k, f k = ((r k : ℝ) : EReal)) (M : ℝ)
    (hub : ∀ k, r k ≤ M) (hatt : ∃ k, r k = M) :
    (Finset.univ : Finset ι).fold max (⊥ : EReal) f = ((M : ℝ) : EReal) := by
  obtain ⟨k0, hk0⟩ := hatt
  refine le_antisymm ?_ ?_
  · exact (Finset.fold_max_le _).2 ⟨bot_le, fun k _ => by rw [hf k]; exact EReal.coe_le_coe_iff.mpr (hub k)⟩
  · exact (Finset.le_fold_max _).2 (Or.inr ⟨k0, Finset.mem_univ k0, by rw [hf k0, hk0]⟩)

/-- The reference's maximum-reduce along the last axis, started from -∞, at row (b, h, s) of an array whose entries in
    that row are real numbers: the row's largest entry. The reduce is a fold of `max` over the row's 2048 coordinates; its
    value is pinned down by bounding every entry and being one of them. -/
theorem reduce_max_row (y : FVec Ideal S2x16x2048x2048 .f32) (v : FVec Ideal S_ .f32)
    (hv : v (Shape.Idx.first h_S_) = (⊥ : EReal)) (b : Fin 2) (h : Fin 16) (s : Fin 2048) (r : Fin 2048 → ℝ)
    (hy : ∀ j : Fin 2048, y (ix4 b h s j) = ((r j : ℝ) : EReal)) :
    Host.reduce FloatOps.maximumf y v reducesTo_S2x16x2048x2048_S2x16x2048_d3 h_S_ (ix3 b h s)
      = ((Cert.AttnSpec.rowMax r : ℝ) : EReal) := by
  have hR : S2x16x2048x2048.Reduces [3] S2x16x2048 := by decide
  refine (Host.reduce_eq_fold_single FloatOps.maximumf y v reducesTo_S2x16x2048x2048_S2x16x2048_d3 hR h_S_ (ix3 b h s)).trans ?_
  rw [hv]
  have hlift : ∀ k : Fin (S2x16x2048x2048.size 3), hR.lift (ix3 b h s) k = ix4 b h s (⟨k.val, k.isLt⟩ : Fin 2048) :=
    fun k => funext fun c => Fin.ext (by
      match c with | ⟨0, _⟩ => rfl | ⟨1, _⟩ => rfl | ⟨2, _⟩ => rfl | ⟨3, _⟩ => rfl)
  obtain ⟨j0, hj0⟩ := Cert.AttnSpec.rowMax_attained r
  exact fold_max_bot_coe (y ∘ hR.lift (ix3 b h s))
    (fun k : Fin (S2x16x2048x2048.size 3) => r (⟨k.val, k.isLt⟩ : Fin 2048))
    (fun k => by show y (hR.lift (ix3 b h s) k) = _; rw [hlift k]; exact hy _)
    (Cert.AttnSpec.rowMax r)
    (fun k => Cert.AttnSpec.rowMax_ge _ _)
    ⟨(⟨j0.val, j0.isLt⟩ : Fin (S2x16x2048x2048.size 3)), hj0⟩

section
variable (x : Fin 2 → Fin 2048 → Fin 1024 → ℝ) (wq : Fin 1024 → Fin 3072 → ℝ) (bq : Fin 3072 → ℝ)

/-- Row s of the scores of batch b, head h. -/
abbrev scoreRow (b : Fin 2) (h : Fin 16) (s : Fin 2048) : Fin 2048 → ℝ :=
  Cert.AttnSpec.score (Cert.AttnSpec.part x wq bq 0 b h) (Cert.AttnSpec.part x wq bq 1 b h) s

/-- Entry (b, h, s, j) of the scaled scores is the real score of query row s against key row j. -/
theorem score_stage (b : Fin 2) (h : Fin 16) (s j : Fin 2048) :
    val_main_v14 (F := Ideal) (ofR3 x) (ofR2 wq) (ofR1 bq) (ix4 b h s j)
      = ((scoreRow x wq bq b h s j : ℝ) : EReal) := by
  have hl : ∀ k : Fin 64, lidx_main_v12 (ix4 b h s j) k = ix4 b h s k := fun k => funext fun a => Fin.ext (by
    match a with | ⟨0, _⟩ => rfl | ⟨1, _⟩ => rfl | ⟨2, _⟩ => rfl | ⟨3, _⟩ => rfl)
  have hr : ∀ k : Fin 64, ridx_main_v12 (ix4 b h s j) k = ix4 b h j k := fun k => funext fun a => Fin.ext (by
    match a with | ⟨0, _⟩ => rfl | ⟨1, _⟩ => rfl | ⟨2, _⟩ => rfl | ⟨3, _⟩ => rfl)
  rw [val_main_v14_apply, val_main_v12_apply, val_main_v13_apply, val_main_cst_apply, Ideal.hostDivf_def, Ideal.ofBits_def,
    ofBits_eight, Ideal.div_coe (by norm_num : (8 : ℝ) ≠ 0)]
  show _ = ((Cert.AttnSpec.score (Cert.AttnSpec.part x wq bq 0 b h) (Cert.AttnSpec.part x wq bq 1 b h) s j : ℝ) : EReal)
  unfold Cert.AttnSpec.score
  have e8 : (∑ d : Fin 64, Cert.AttnSpec.part x wq bq 0 b h s d * Cert.AttnSpec.part x wq bq 1 b h j d) / 8
      = (∑ d : Fin 64, Cert.AttnSpec.part x wq bq 0 b h s d * Cert.AttnSpec.part x wq bq 1 b h j d) * (1 / 8 : ℝ) :=
    div_eq_mul_one_div _ _
  rw [e8, EReal.coe_mul, coe_sum]
  refine congrArg (fun t : EReal => t * ((1 / 8 : ℝ) : EReal)) (Finset.sum_congr rfl fun k _ => ?_)
  rw [hl k, hr k, part0_stage, part1_stage, EReal.coe_mul]

/-- Entry (b, h, s) of the row maxima is the largest score of row s. -/
theorem rowMax_stage (b : Fin 2) (h : Fin 16) (s : Fin 2048) :
    val_main_v17 (F := Ideal) (ofR3 x) (ofR2 wq) (ofR1 bq) (ix3 b h s)
      = ((Cert.AttnSpec.rowMax (scoreRow x wq bq b h s) : ℝ) : EReal) := by
  rw [val_main_v17_apply, val_main_v16_apply, val_main_cst_1_apply, Ideal.maximumf_def, Ideal.ofBits_def, ofBits_negInf,
    max_eq_right bot_le]
  unfold val_main_v15
  have hy : ∀ j : Fin 2048, val_main_v14 (F := Ideal) (ofR3 x) (ofR2 wq) (ofR1 bq) (ix4 b h s j)
      = ((scoreRow x wq bq b h s j : ℝ) : EReal) := fun j => score_stage x wq bq b h s j
  generalize val_main_v14 (F := Ideal) (ofR3 x) (ofR2 wq) (ofR1 bq) = y at hy ⊢
  exact reduce_max_row y (val_main_cst_0 (F := Ideal))
    (by rw [val_main_cst_0_apply, Ideal.ofBits_def, ofBits_negInf]) b h s (scoreRow x wq bq b h s) hy

/-- Entry (b, h, s, j) of the exponentials is the exponential of the score minus the row's largest score. -/
theorem exp_stage (b : Fin 2) (h : Fin 16) (s j : Fin 2048) :
    val_main_v21 (F := Ideal) (ofR3 x) (ofR2 wq) (ofR1 bq) (ix4 b h s j)
      = ((Real.exp (scoreRow x wq bq b h s j - Cert.AttnSpec.rowMax (scoreRow x wq bq b h s)) : ℝ) : EReal) := by
  have hi : idx_main_v18 (idx_main_v19 (ix4 b h s j)) = ix3 b h s := funext fun a => Fin.ext (by
    match a with | ⟨0, _⟩ => rfl | ⟨1, _⟩ => rfl | ⟨2, _⟩ => rfl)
  rw [val_main_v21_apply, val_main_v20_apply, val_main_v19_apply, val_main_v18_apply, hi, score_stage, rowMax_stage,
    Ideal.hostUnary_exp_def, Ideal.subf_def, ← EReal.coe_sub, exp_coe]

/-- Entry (b, h, s) of the row sums is the softmax denominator of row s. -/
theorem rowSum_stage (b : Fin 2) (h : Fin 16) (s : Fin 2048) :
    val_main_v22 (F := Ideal) (ofR3 x) (ofR2 wq) (ofR1 bq) (ix3 b h s)
      = ((Cert.AttnSpec.rowSum (scoreRow x wq bq b h s) : ℝ) : EReal) := by
  have hi : ∀ k : Fin 2048, idx_main_v22 (ix3 b h s) k = ix4 b h s k := fun k => funext fun a => Fin.ext (by
    match a with | ⟨0, _⟩ => rfl | ⟨1, _⟩ => rfl | ⟨2, _⟩ => rfl | ⟨3, _⟩ => rfl)
  rw [val_main_v22_apply, val_main_cst_2_apply, Ideal.ofBits_def, Ideal.ofBits_zero_f32, zero_add]
  unfold Cert.AttnSpec.rowSum
  rw [coe_sum]
  refine Finset.sum_congr rfl fun k _ => ?_
  rw [hi k, exp_stage]

/-- Entry (b, h, s, j) of the weights is the exponential divided by the row's sum. -/
theorem weight_stage (b : Fin 2) (h : Fin 16) (s j : Fin 2048) :
    val_main_v25 (F := Ideal) (ofR3 x) (ofR2 wq) (ofR1 bq) (ix4 b h s j)
      = ((Real.exp (scoreRow x wq bq b h s j - Cert.AttnSpec.rowMax (scoreRow x wq bq b h s))
          / Cert.AttnSpec.rowSum (scoreRow x wq bq b h s) : ℝ) : EReal) := by
  have hi : idx_main_v23 (idx_main_v24 (ix4 b h s j)) = ix3 b h s := funext fun a => Fin.ext (by
    match a with | ⟨0, _⟩ => rfl | ⟨1, _⟩ => rfl | ⟨2, _⟩ => rfl)
  rw [val_main_v25_apply, val_main_v24_apply, val_main_v23_apply, hi, exp_stage, rowSum_stage, Ideal.hostDivf_def,
    Ideal.div_coe (Cert.AttnSpec.rowSum_pos _).ne', ← EReal.coe_mul, ← div_eq_mul_one_div]

end

end Cert.RefValue

end
-- ==== Proof.RefStageOut.lean ====
/-
  From the softmax weights to the layer's output, on arrays of real numbers.

  One head's output row is the sum over the 2048 key rows of weight times value entry: a finite sum of real products.
  The heads are then laid side by side: the transpose and the [16, 64] → [1024] view only rename indices, column e of
  the merged array being feature e % 64 of head e / 64. The output projection is, like the joint projection, a sum of
  1024 real products plus a real bias.
-/
import proofs.«163282_j10213432230461_2_alg».proof.Proof.RefStageSoftmax

noncomputable section

namespace Cert.RefValue

open Idealize.ShloMosaic Idealize.ShloMosaic.ValueIdx Cert.ReferenceIdeal Cert.ReferenceIdeal.Gen Cert.ReferenceIdeal.Read Cert.RealArr
open Cert.Lib.OnlineLogSumExp (coe_sum exp_coe)

section
variable (x : Fin 2 → Fin 2048 → Fin 1024 → ℝ) (wq : Fin 1024 → Fin 3072 → ℝ) (bq : Fin 3072 → ℝ)

/-- Entry (b, h, s, d) of the heads' outputs is the attention output of head (b, h) at row s, feature d. -/
theorem attn_stage (b : Fin 2) (h : Fin 16) (s : Fin 2048) (d : Fin 64) :
    val_main_v26 (F := Ideal) (ofR3 x) (ofR2 wq) (ofR1 bq) (ix4 b h s d)
      = ((Cert.AttnSpec.attn (Cert.AttnSpec.part x wq bq 0 b h) (Cert.AttnSpec.part x wq bq 1 b h)
          (Cert.AttnSpec.part x wq bq 2 b h) s d : ℝ) : EReal) := by
  have hl : ∀ k : Fin 2048, lidx_main_v26 (ix4 b h s d) k = ix4 b h s k := fun k => funext fun a => Fin.ext (by
    match a with | ⟨0, _⟩ => rfl | ⟨1, _⟩ => rfl | ⟨2, _⟩ => rfl | ⟨3, _⟩ => rfl)
  have hr : ∀ k : Fin 2048, ridx_main_v26 (ix4 b h s d) k = ix4 b h k d := fun k => funext fun a => Fin.ext (by
    match a with | ⟨0, _⟩ => rfl | ⟨1, _⟩ => rfl | ⟨2, _⟩ => rfl | ⟨3, _⟩ => rfl)
  rw [val_main_v26_apply]
  unfold Cert.AttnSpec.attn
  rw [coe_sum]
  refine Finset.sum_congr rfl fun k _ => ?_
  rw [hl k, hr k, weight_stage, part2_stage, EReal.coe_mul]

/-- Entry (b, s, e) of the merged heads is feature e % 64 of head e / 64 at row s. -/
theorem merged_stage (b : Fin 2) (s : Fin 2048) (e : Fin 1024) :
    val_main_v28 (F := Ideal) (ofR3 x) (ofR2 wq) (ofR1 bq) (ix3 b s e)
      = ((Cert.AttnSpec.merged x wq bq b s e : ℝ) : EReal) := by
  have hb := b.isLt; have hs := s.isLt; have he := e.isLt
  have hi : idx_main_v27 (idx_main_v28 (ix3 b s e))
      = ix4 b (⟨e.val / 64, by omega⟩ : Fin 16) s (⟨e.val % 64, Nat.mod_lt _ (by norm_num)⟩ : Fin 64) := by
    refine funext fun a => Fin.ext ?_
    match a with
    | ⟨0, _⟩ =>
      show ((b.val * 2048 + s.val) * 1024 + e.val) / 2097152 = b.val
      omega
    | ⟨1, _⟩ =>
      show ((b.val * 2048 + s.val) * 1024 + e.val) / 64 % 16 = e.val / 64
      omega
    | ⟨2, _⟩ =>
      show ((b.val * 2048 + s.val) * 1024 + e.val) / 1024 % 2048 = s.val
      omega
    | ⟨3, _⟩ =>
      show ((b.val * 2048 + s.val) * 1024 + e.val) % 64 = e.val % 64
      omega
  rw [val_main_v28_apply, val_main_v27_apply, hi, attn_stage]
  rfl

/-- Entry (b, s, e) of the result is the real number `AttnSpec.out x wq bq wo bo b s e`. -/
theorem out_stage (wo : Fin 1024 → Fin 1024 → ℝ) (bo : Fin 1024 → ℝ) (b : Fin 2) (s : Fin 2048) (e : Fin 1024) :
    val_main_v32 (F := Ideal) (ofR3 x) (ofR2 wq) (ofR1 bq) (ofR2 wo) (ofR1 bo) (ix3 b s e)
      = ((Cert.AttnSpec.out x wq bq wo bo b s e : ℝ) : EReal) := by
  have hl : ∀ k : Fin 1024, lidx_main_v29 (ix3 b s e) k = ix3 b s k := fun k => funext fun a => Fin.ext (by
    match a with | ⟨0, _⟩ => rfl | ⟨1, _⟩ => rfl | ⟨2, _⟩ => rfl)
  have hr : ∀ k : Fin 1024, ridx_main_v29 (ix3 b s e) k = ix2 k e := fun k => funext fun a => Fin.ext (by
    match a with | ⟨0, _⟩ => rfl | ⟨1, _⟩ => rfl)
  have hb : idx_main_v30 (idx_main_v31 (ix3 b s e)) = ix1 e := funext fun a => Fin.ext (by
    match a with | ⟨0, _⟩ => rfl)
  rw [val_main_v32_apply, val_main_v29_apply, val_main_v31_apply, val_main_v30_apply, hb, ofR1_ix1, Ideal.addf_def]
  unfold Cert.AttnSpec.out
  rw [EReal.coe_add, coe_sum]
  refine congrArg (fun t : EReal => t + ((bo e : ℝ) : EReal)) (Finset.sum_congr rfl fun k _ => ?_)
  rw [hl k, hr k, merged_stage, ofR2_ix2, EReal.coe_mul]

end

end Cert.RefValue

end
-- ==== Proof.RefIsSpec.lean ====
/-
  The reference program computes multi-head self-attention.

  With every float an extended real, the reference's result array, read as a function of its five argument arrays, is
  the specification `Cert.AttnSpec.out` whenever those arrays hold real numbers: the joint projection is a finite
  sum of real products plus a bias; the reshape, transpose and slices only rename indices (column p * 1024 + h * 64 + d
  of the projection is feature d of head h of part p); a score is a finite sum divided by the real 8; the row maximum
  taken from -∞ is the largest of 2048 real scores, because it bounds every score and is one of them; the exponentials
  of real differences are positive reals, so their sum is a positive real and dividing by it is dividing by a nonzero
  real; the weighted sum of the value rows, the merge of the heads (column h * 64 + d) and the output projection are
  again finite sums of real products. No step leaves the real numbers, so the coercion into the extended reals
  commutes with all of them. The stages are proved one by one, at an index given by its coordinates, in the three
  modules this one imports; what is left here is to read an arbitrary index of the result as its three coordinates.
-/
import proofs.«163282_j10213432230461_2_alg».proof.Proof.RefStageOut

noncomputable section

namespace Cert.RefValue

open Idealize.ShloMosaic Idealize.ShloMosaic.ValueIdx Cert.ReferenceIdeal Cert.ReferenceIdeal.Read Cert.RealArr

/-- The reference's result, on arrays of real numbers, is the attention layer of the specification. -/
theorem ref_eq_spec (x : Fin 2 → Fin 2048 → Fin 1024 → ℝ) (wq : Fin 1024 → Fin 3072 → ℝ) (bq : Fin 3072 → ℝ)
    (wo : Fin 1024 → Fin 1024 → ℝ) (bo : Fin 1024 → ℝ) :
    Cert.ReferenceIdeal.Read.val_main_v32 (F := Ideal) (Cert.RealArr.ofR3 x) (Cert.RealArr.ofR2 wq) (Cert.RealArr.ofR1 bq)
        (Cert.RealArr.ofR2 wo) (Cert.RealArr.ofR1 bo)
      = Cert.RealArr.ofR3 (Cert.AttnSpec.out x wq bq wo bo) := by
  funext i
  obtain ⟨b, s, e, rfl⟩ : ∃ (b : Fin 2) (s : Fin 2048) (e : Fin 1024), i = ix3 b s e := ⟨i 0, i 1, i 2, eq_ix3 i⟩
  exact (out_stage x wq bq wo bo b s e).trans (ofR3_ix3 (Cert.AttnSpec.out x wq bq wo bo) b s e).symm

end Cert.RefValue

end
-- ==== Proof.FiniteInputs.lean ====
/-
  Finite inputs are real numbers.

  The precondition says of each of the five argument arrays that every entry x has |x| < +∞, as one conjunction of
  five "all entries" reductions. On the extended reals |x| = max x (-x), and |x| < ⊤ leaves out both x = ⊤ and
  x = ⊥ (whose negative is ⊤): every entry is (the coercion of) a real number, so each array is an array of reals
  read as extended reals.
-/
import proofs.«163282_j10213432230461_2_alg».proof.Pre_finite_inputs
import proofs.«163282_j10213432230461_2_alg».proof.Proof.Gen.Pre_finite_inputs
import proofs.«163282_j10213432230461_2_alg».proof.Proof.RealArr
import Idealize.ShloMosaic.Lib.ReduceAll
import Idealize.ShloMosaic.Lib.ValueIdx

noncomputable section

namespace Cert.FiniteInputs

open Idealize.ShloMosaic
open Cert.RealArr

/-- The pattern 0x7F800000 of the 32-bit format denotes +∞. -/
theorem inf_bits : Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The scalar shape has one index. -/
instance : Subsingleton Cert.Pre_finite_inputs.S_.Idx := ⟨fun a b => funext fun d => d.elim0⟩

/-- One entry of the comparison |a| < +∞ being 1 says that the entry of a is a real number. -/
theorem real_of_cmp {S : Shape} (a : FVec Ideal S .f32) (dims : Fin Cert.Pre_finite_inputs.S_.rank → Fin S.rank)
    (hb : Cert.Pre_finite_inputs.S_.BroadcastsInDim S dims) (i : S.Idx)
    (h : cmpf .olt (Host.absf a) (broadcastInDim S dims hb (constant (F := Ideal) Cert.Pre_finite_inputs.S_ .f32 0x7F800000#32)) i = 1#1) :
    ∃ r : ℝ, a i = (r : EReal) := by
  have h' : BitVec.ofBool (decide (max (a i) (-(a i)) < Ideal.ofBits .f32 0x7F800000#32)) = 1#1 := h
  rw [inf_bits] at h'
  refine real_of_abs_lt_top (a i) ?_
  by_contra hn
  rw [decide_eq_false hn] at h'
  exact absurd h' (by decide)

theorem exists_ofR1 {a : ℕ} (x : (⟨1, ![a]⟩ : Shape).Idx → EReal) (h : ∀ i, ∃ r : ℝ, x i = (r : EReal)) :
    ∃ f : Fin a → ℝ, x = ofR1 f := by
  refine ⟨fun i0 => (x (ValueIdx.ix1 i0)).toReal, funext fun i => ?_⟩
  obtain ⟨r, hr⟩ := h i
  have e : x (ValueIdx.ix1 (i 0)) = x i := congrArg x (ValueIdx.eq_ix1 i).symm
  show x i = (((x (ValueIdx.ix1 (i 0))).toReal : ℝ) : EReal)
  rw [e, hr, EReal.toReal_coe]

theorem exists_ofR2 {a b : ℕ} (x : (⟨2, ![a, b]⟩ : Shape).Idx → EReal) (h : ∀ i, ∃ r : ℝ, x i = (r : EReal)) :
    ∃ f : Fin a → Fin b → ℝ, x = ofR2 f := by
  refine ⟨fun i0 i1 => (x (ValueIdx.ix2 i0 i1)).toReal, funext fun i => ?_⟩
  obtain ⟨r, hr⟩ := h i
  have e : x (ValueIdx.ix2 (i 0) (i 1)) = x i := congrArg x (ValueIdx.eq_ix2 i).symm
  show x i = (((x (ValueIdx.ix2 (i 0) (i 1))).toReal : ℝ) : EReal)
  rw [e, hr, EReal.toReal_coe]

theorem exists_ofR3 {a b c : ℕ} (x : (⟨3, ![a, b, c]⟩ : Shape).Idx → EReal) (h : ∀ i, ∃ r : ℝ, x i = (r : EReal)) :
    ∃ f : Fin a → Fin b → Fin c → ℝ, x = ofR3 f := by
  refine ⟨fun i0 i1 i2 => (x (ValueIdx.ix3 i0 i1 i2)).toReal, funext fun i => ?_⟩
  obtain ⟨r, hr⟩ := h i
  have e : x (ValueIdx.ix3 (i 0) (i 1) (i 2)) = x i := congrArg x (ValueIdx.eq_ix3 i).symm
  show x i = (((x (ValueIdx.ix3 (i 0) (i 1) (i 2))).toReal : ℝ) : EReal)
  rw [e, hr, EReal.toReal_coe]

set_option maxHeartbeats 400000 in
/-- The precondition "every float input is finite" gives five arrays of reals of which the arguments are the
    readings as extended reals. -/
theorem reals_of_pre [Cert.Pre_finite_inputs.Facts]
    (a0 : (⟨3, ![2, 2048, 1024]⟩ : Shape).Idx → EReal) (a1 : (⟨2, ![1024, 3072]⟩ : Shape).Idx → EReal)
    (a2 : (⟨1, ![3072]⟩ : Shape).Idx → EReal) (a3 : (⟨2, ![1024, 1024]⟩ : Shape).Idx → EReal)
    (a4 : (⟨1, ![1024]⟩ : Shape).Idx → EReal)
    (h : Cert.Pre_finite_inputs.fn (F := Ideal) a0 a1 a2 a3 a4 = (fun _ => 1#1)) :
    ∃ x wq bq wo bo, a0 = Cert.RealArr.ofR3 x ∧ a1 = Cert.RealArr.ofR2 wq ∧ a2 = Cert.RealArr.ofR1 bq
      ∧ a3 = Cert.RealArr.ofR2 wo ∧ a4 = Cert.RealArr.ofR1 bo := by
  have h0 := congrFun h ValueIdx.ix0
  dsimp only [Cert.Pre_finite_inputs.fn, Cert.Pre_finite_inputs.fn_part1, andi] at h0
  rw [IntOp.andi_eq_one, IntOp.andi_eq_one, IntOp.andi_eq_one, IntOp.andi_eq_one] at h0
  obtain ⟨⟨⟨⟨h3, h7⟩, h12⟩, h17⟩, h22⟩ := h0
  obtain ⟨x, hx⟩ := exists_ofR3 a0 fun i => real_of_cmp a0 _ _ i (Host.reduce_andi_all _ _ _ _ _ h3 i)
  obtain ⟨wq, hwq⟩ := exists_ofR2 a1 fun i => real_of_cmp a1 _ _ i (Host.reduce_andi_all _ _ _ _ _ h7 i)
  obtain ⟨bq, hbq⟩ := exists_ofR1 a2 fun i => real_of_cmp a2 _ _ i (Host.reduce_andi_all _ _ _ _ _ h12 i)
  obtain ⟨wo, hwo⟩ := exists_ofR2 a3 fun i => real_of_cmp a3 _ _ i (Host.reduce_andi_all _ _ _ _ _ h17 i)
  obtain ⟨bo, hbo⟩ := exists_ofR1 a4 fun i => real_of_cmp a4 _ _ i (Host.reduce_andi_all _ _ _ _ _ h22 i)
  exact ⟨x, wq, bq, wo, bo, hx, hwq, hbq, hwo, hbo⟩

end Cert.FiniteInputs

end
-- ==== Proof.lean ====
/-
  A multi-head self-attention layer computed by three kernels — the joint query / key / value projection, a streaming
  (online-softmax) attention over key / value tiles, the output projection — against the plain formula: every float an
  extended real, every operation exact.

  Frames. Each program runs to the end from any memory, nothing faulting, and no argument array is ever written: the
  three kernel regions and the host operations between them are composed in order, each region's arrays tracked at what
  its grid points write back (Proof/KiRun.lean for the program read at the extended reals, Proof/KRun.lean the same
  text for the program read at machine words); the reference is host operations only.
  Nothing of the kernel was rewritten when it was read at the extended reals, so that reading is the program's own.
  Values. For finite inputs every array is an array of real numbers. The projections are the same sums on both sides.
  For one head and one query row the kernel keeps a running maximum, a running sum of exponentials and a running
  weighted sum of value rows over four tiles of 512 key rows; rescaling by the exponential of the change of maximum
  makes these, after the last tile, the row's largest score, the softmax denominator and the unnormalised output, and
  their quotient is the reference's softmax weights applied to the value rows. The scale 1/8 is an exact dyadic, so
  multiplying by it is dividing by 8.
-/
import proofs.«163282_j10213432230461_2_alg».proof.Defs
import proofs.«163282_j10213432230461_2_alg».proof.Proof.Gen.Kernel
import proofs.«163282_j10213432230461_2_alg».proof.Proof.Gen.KernelIdeal
import proofs.«163282_j10213432230461_2_alg».proof.Proof.Gen.ReferenceIdeal
import proofs.«163282_j10213432230461_2_alg».proof.Proof.Gen.Pre_finite_inputs
import proofs.«163282_j10213432230461_2_alg».proof.Proof.Gen.ReferenceIdeal.Run
import proofs.«163282_j10213432230461_2_alg».proof.Proof.Gen.ReferenceIdeal.Read
import proofs.«163282_j10213432230461_2_alg».proof.Proof.KRun
import proofs.«163282_j10213432230461_2_alg».proof.Proof.KiRun
import proofs.«163282_j10213432230461_2_alg».proof.Proof.KiValue
import proofs.«163282_j10213432230461_2_alg».proof.Proof.RefIsSpec
import proofs.«163282_j10213432230461_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_p : Cert.frame_Kernel := fun m ρ _ => Cert.Kernel.Fr.frame m ρ

/-- So does the program read at the extended reals. -/
theorem frame_pi : Cert.frame_KernelIdeal := fun m ρ _ => Cert.KernelIdeal.Fr.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel at the extended reals rewrote no operation. -/
theorem preserves : Cert.preserves_Kernel_KernelIdeal := trivial

/-- For finite inputs both programs end with the specification of the real numbers the inputs hold: the kernel by the
    run read back to front (Proof/KiValue.lean), the reference by its generated run read stage by stage
    (Proof/RefIsSpec.lean). -/
theorem algebraic : Cert.algebraic_KernelIdeal_ReferenceIdeal := by
  intro m g m' g' hpre hagree
  have hR : ∀ c : Dev Cert.KernelIdeal.nD, ∃ x wq bq wo bo, Cert.KernelIdeal.Val.RealArgs m c x wq bq wo bo := fun c => by
    obtain ⟨x, wq, bq, wo, bo, e0, e1, e2, e3, e4⟩ := Cert.FiniteInputs.reals_of_pre _ _ _ _ _ (hpre c)
    exact ⟨x, wq, bq, wo, bo, ⟨e0, e1, e2, e3, e4⟩⟩
  choose x wq bq wo bo H using hR
  refine ⟨fun c => Cert.RealArr.ofR3 (Cert.AttnSpec.out (x c) (wq c) (bq c) (wo c) (bo c)), ?_, ?_⟩
  · refine (θ_run Cert.KernelIdeal.defs _ _).mono (fun r h c => ⟨?_, ?_, ?_, ?_, ?_, ?_⟩) (Cert.KernelIdeal.Fr.run_all m g)
    · exact (h c _ (Cert.KernelIdeal.Fr.mem_uc Cert.KernelIdeal.main_v21 (by decide))).trans (Cert.KernelIdeal.Val.W7_v21 (H c))
    · exact (h c _ (Cert.KernelIdeal.Fr.mem_uc Cert.KernelIdeal.main_arg0 (by decide))).trans (Cert.KernelIdeal.Fr.W7_main_arg0 m g c)
    · exact (h c _ (Cert.KernelIdeal.Fr.mem_uc Cert.KernelIdeal.main_arg1 (by decide))).trans (Cert.KernelIdeal.Fr.W7_main_arg1 m g c)
    · exact (h c _ (Cert.KernelIdeal.Fr.mem_uc Cert.KernelIdeal.main_arg2 (by decide))).trans (Cert.KernelIdeal.Fr.W7_main_arg2 m g c)
    · exact (h c _ (Cert.KernelIdeal.Fr.mem_uc Cert.KernelIdeal.main_arg3 (by decide))).trans (Cert.KernelIdeal.Fr.W7_main_arg3 m g c)
    · exact (h c _ (Cert.KernelIdeal.Fr.mem_uc Cert.KernelIdeal.main_arg4 (by decide))).trans (Cert.KernelIdeal.Fr.W7_main_arg4 m g c)
  · refine (θ_run Cert.ReferenceIdeal.defs _ _).mono (fun r h c => ⟨?_, (h c).2⟩) (Cert.ReferenceIdeal.Value.run (F := Ideal) m' g')
    rw [(h c).1, Cert.ReferenceIdeal.Read.val_main_v32_eq, (hagree c).1, (hagree c).2.1, (hagree c).2.2.1, (hagree c).2.2.2.1,
      (hagree c).2.2.2.2, (H c).h0, (H c).h1, (H c).h2, (H c).h3, (H c).h4]
    exact Cert.RefValue.ref_eq_spec _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
